-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩
abbrev S4096 : Shape := ⟨1, ![4096]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  reducesTo_S4096x256_S4096_d1 : S4096x256.ReducesTo [1] S4096
  bcast_S_S4096 : S_.BroadcastsInDim S4096 (![] : Fin 0 → Fin S4096.rank)
  reducesTo_S4096_S_d0 : S4096.ReducesTo [0] S_

variable [Facts]

def fn_part1 {F : FTy → Type} [FloatOps F] (main_v14 : IVec S_ 1) (main_v15 : FVec F S4096x256 .f32) (main_cst_5 : FVec F S_ .f32) : IVec S_ 1 :=
  let main_v16 : FVec F S4096 .f32 := (fun x v => Host.reduceAdd x v reducesTo_S4096x256_S4096_d1 h_S_) main_v15 main_cst_5
  let main_cst_6 : FVec F S_ .f32 := constant S_ .f32 0x00000000#32
  let main_v17 : FVec F S4096 .f32 := broadcastInDim S4096 ![] bcast_S_S4096 main_cst_6
  let main_v18 : IVec S4096 1 := cmpf .ogt main_v16 main_v17
  let main_c_7 : IVec S_ 1 := constantI S_ 1 1#1
  let main_v19 : IVec S_ 1 := (fun x v => Host.reduce IntOp.andi x v reducesTo_S4096_S_d0 h_S_) main_v18 main_c_7
  let main_v20 : IVec S_ 1 := andi main_v14 main_v19
  main_v20

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := mulf main_arg0 main_arg0
  let main_cst_2 : FVec F S_ .f32 := constant S_ .f32 0x00000000#32
  let main_v10 : FVec F S4096 .f32 := (fun x v => Host.reduceAdd x v reducesTo_S4096x256_S4096_d1 h_S_) main_v9 main_cst_2
  let main_cst_3 : FVec F S_ .f32 := constant S_ .f32 0x00000000#32
  let main_v11 : FVec F S4096 .f32 := broadcastInDim S4096 ![] bcast_S_S4096 main_cst_3
  let main_v12 : IVec S4096 1 := cmpf .ogt main_v10 main_v11
  let main_c_4 : IVec S_ 1 := constantI S_ 1 1#1
  let main_v13 : IVec S_ 1 := (fun x v => Host.reduce IntOp.andi x v reducesTo_S4096_S_d0 h_S_) main_v12 main_c_4
  let main_v14 : IVec S_ 1 := andi main_v8 main_v13
  let main_v15 : FVec F S4096x256 .f32 := mulf main_arg1 main_arg1
  let main_cst_5 : FVec F S_ .f32 := constant S_ .f32 0x00000000#32
  fn_part1 (F := F) main_v14 main_v15 main_cst_5
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩
abbrev S4096 : Shape := ⟨1, ![4096]⟩

abbrev nBuf : Space → Nat
  | .hbm => 27
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x256, .f32⟩
  | .hbm, ⟨9, _⟩ => ⟨S8192x256, .f32⟩
  | .hbm, ⟨10, _⟩ => ⟨S8192x256, .bf16⟩
  | .hbm, ⟨11, _⟩ => ⟨S8192x1, .f32⟩
  | .hbm, ⟨12, _⟩ => ⟨S8192, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  reduces_S1024x1024_S1024 : S1024x1024.Reduces [1] S1024
  shapeCasts_S1024_S1024x1 : S1024.ShapeCasts S1024x1
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v7) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x2 : Shape := ⟨2, ![8192, 2]⟩
abbrev S4096 : Shape := ⟨1, ![4096]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x256, .f32⟩
  | .hbm, ⟨9, _⟩ => ⟨S8192x256, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S8192x1, .i32⟩
  | .hbm, ⟨31, _⟩ => ⟨S8192x1, .i32⟩
  | .hbm, ⟨32, _⟩ => ⟨S8192x2, .i32⟩
  | .hbm, ⟨33, _⟩ => ⟨S_, .f32⟩
  | .hbm, ⟨34, _⟩ => ⟨S8192, .f32⟩
  | .hbm, ⟨35, _⟩ => ⟨S8192x8192, .f32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S8192, .i32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1, .f32⟩
  | .hbm, ⟨55, _⟩ => ⟨S8192x8192, .f32⟩
  | .hbm, ⟨56, _⟩ => ⟨S8192x8192, .f32⟩
  | .hbm, ⟨57, _⟩ => ⟨S8192x1, .i32⟩
  | .hbm, ⟨58, _⟩ => ⟨S_, .i32⟩
  | .hbm, ⟨59, _⟩ => ⟨S8192x1, .i32⟩
  | .hbm, ⟨60, _⟩ => ⟨S8192x1, .i1⟩
  | .hbm, ⟨61, _⟩ => ⟨S_, .i32⟩
  | .hbm, ⟨62, _⟩ => ⟨S8192x1, .i32⟩
  | .hbm, ⟨63, _⟩ => ⟨S8192x1, .i32⟩
  | .hbm, ⟨64, _⟩ => ⟨S8192x1, .i32⟩
  | .hbm, ⟨65, _⟩ => ⟨S8192x1x1, .i32⟩
  | .hbm, ⟨66, _⟩ => ⟨S1, .i32⟩
  | .hbm, ⟨67, _⟩ => ⟨S_, .i32⟩
  | .hbm, ⟨68, _⟩ => ⟨S8192x1x1, .i32⟩
  | .hbm, ⟨69, _⟩ => ⟨S8192x1x1, .i1⟩
  | .hbm, ⟨70, _⟩ => ⟨S1x1x1, .i32⟩
  | .hbm, ⟨71, _⟩ => ⟨S8192x1x1, .i32⟩
  | .hbm, ⟨72, _⟩ => ⟨S8192x1x1, .i1⟩
  | .hbm, ⟨73, _⟩ => ⟨S8192x1x1, .i1⟩
  | .hbm, ⟨74, _⟩ => ⟨S_, .i1⟩
  | .hbm, ⟨75, _⟩ => ⟨S8192x1, .i1⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_cst : Ref sig .tc := ⟨.hbm, 42, rfl⟩
abbrev main_call1_v0 : Ref sig .tc := ⟨.hbm, 43, rfl⟩
abbrev main_call1_cst_0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_cst_1 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_v29 : Ref sig .tc := ⟨.hbm, 56, rfl⟩
abbrev main_v30 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_cst : Ref sig .tc := ⟨.hbm, 77, rfl⟩
abbrev main_call2_v14 : Ref sig .tc := ⟨.hbm, 78, rfl⟩
abbrev main_v31 : Ref sig .tc := ⟨.hbm, 79, rfl⟩
abbrev main_cst_5 : Ref sig .tc := ⟨.hbm, 80, rfl⟩
abbrev main_v32 : Ref sig .tc := ⟨.hbm, 81, rfl⟩
abbrev main_cst_6 : Ref sig .tc := ⟨.hbm, 82, rfl⟩
abbrev main_v33 : Ref sig .tc := ⟨.hbm, 83, rfl⟩
abbrev main_v34 : Ref sig .tc := ⟨.hbm, 84, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S256x8192_S8192x8192_1_0_0_1_n_n_wf : DotDims.WF S8192x256 S256x8192 S8192x8192 [1] [0] [0] [1] [] []
  scatter_S8192x8192_S8192x2_S8192_n_01_01_1_wf : ScatterDims.WF S8192x8192 S8192x2 S8192 [] [0, 1] [0, 1] 1
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.KnBase.lean ====
/-
  What the three control cases of the kernel body share.

  The region's grid is 8 × 8: point `t` is the pair (row block `t / 8`, column block `t % 8`). The body resets the
  scratch column to zero at the first column block (`t % 8 = 0`), adds to it the row sums of the exponentials of
  the block's scores at every point, and at the last column block (`t % 8 = 7`) stores `2 + log (scratch - 1)` into
  the output block, which is written back there and idle elsewhere. Here: the contents of the buffers when the
  region is entered, the windows' blocks, the two conditions in closed form, where the output window is idle, and
  the invariant's scratch part.
-/
import proofs.«134713_j12386685681710_2_alg».proof.Proof.Gen.Kernel.Launch
import proofs.«134713_j12386685681710_2_alg».proof.Proof.Gen.Kernel.Skeleton
import proofs.«134713_j12386685681710_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: after the nine host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body -/

/-- "This is the first column block": the condition of the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block": the condition of the final store. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the last-block condition fails the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where it holds the window is live. -/
theorem liveAt0_2 : ∀ t : Fin cfg0.N, cond0_1 (grid0.coords t) → cfg0.idle 2 (grid0.coords t) = false := by decide +kernel

/-! ## The memrefs the body is called with -/

abbrev VO0_2 : View sig .tc .vmem S1024x1 .f32 := (Memref.whole cc0_stg2_0 : Memref sig .tc .vmem S1024x1 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column, a whole scoped buffer of the kernel's own. -/
abbrev scM0_0 : Memref sig .tc .vmem S1024x1 .f32 := Memref.whole cc0_scratch0
abbrev VS0_0 : View sig .tc .vmem S1024x1 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KnRunA.lean ====
/-
  The body at a point of the FIRST column block (the reset taken, the final store not): the scratch column, found at
  any contents, is stored whole twice — zero, then zero plus the block's row sums —; the output block is not
  touched. The pieces the scratch ends with are found by running the body.
-/
import proofs.«134713_j12386685681710_2_alg».proof.Proof.KnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S1024x256 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__lse_kernel i arg2 harg2 arg3 harg3 arg4 harg4 arg5 harg5) K } := by
  refine ⟨[], ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KnRunB.lean ====
/-
  The body at a point of a MIDDLE column block (neither the reset nor the final store): the scratch column, found at
  what the point before left, is stored whole once — its contents plus the block's row sums —; the output block is
  not touched.
-/
import proofs.«134713_j12386685681710_2_alg».proof.Proof.KnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .bf16) (x1 : Vec F S1024x256 .bf16) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__lse_kernel i arg2 harg2 arg3 harg3 arg4 harg4 arg5 harg5) K } := by
  refine ⟨[], ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KnRunC.lean ====
/-
  The body at a point of the LAST column block (the reset not taken, the final store taken): the scratch column, found
  at what the point before left, is stored whole once — its contents plus the block's row sums —, and the output
  block, found at any contents, is stored whole: 2 + log (scratch - 1).
-/
import proofs.«134713_j12386685681710_2_alg».proof.Proof.KnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__lse_kernel i arg2 harg2 arg3 harg3 arg4 harg4 arg5 harg5) K } := by
  refine ⟨?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KnFrame.lean ====
/-
  What the scratch column and the output block hold after every grid point, the proof data of the region, and the
  body's triple at a generic point.

  `outsAt0 c n` is the pair (output staging buffer, scratch column) after point `n`, by recursion on the point: the case
  the point is in, run on the point's input blocks, over the scratch the point before left. The invariant carries
  the scratch at that value from one point to the next. The two input windows read ONE array, each holding half of
  it; the output window holds its array whole.
-/
import proofs.«134713_j12386685681710_2_alg».proof.Proof.KnRunA
import proofs.«134713_j12386685681710_2_alg».proof.Proof.KnRunB
import proofs.«134713_j12386685681710_2_alg».proof.Proof.KnRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the case leaves in the output's staging buffer: its pieces read back (none: a placeholder nothing consults, the window being idle and not written back there). -/
def out0_A_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S1024x256 .bf16) : Vec F S1024x1 .f32 :=
  VO0_2.read (Elt F) (VO0_2.writes (Elt F) VO0_2.junk (kernelRun0_A c i arg2 harg2 arg3 harg3 arg4 harg4 arg5 harg5 hc0 hc1 x0 x1).1)

/-- The case's stores into the scratch column cover it. -/
theorem scover0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S1024x256 .bf16) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What the case leaves in the scratch column. -/
def sout0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S1024x256 .bf16) : Vec F S1024x1 .f32 :=
  VS0_0.read (Elt F) (VS0_0.writes (Elt F) VS0_0.junk (kernelRun0_A c i arg2 harg2 arg3 harg3 arg4 harg4 arg5 harg5 hc0 hc1 x0 x1).2.1)

/-- What the case leaves in the output's staging buffer: its pieces read back (none: a placeholder nothing consults, the window being idle and not written back there). -/
def out0_B_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .bf16) (x1 : Vec F S1024x256 .bf16) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- The case's stores into the scratch column cover it. -/
theorem scover0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .bf16) (x1 : Vec F S1024x256 .bf16) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What the case leaves in the scratch column. -/
def sout0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .bf16) (x1 : Vec F S1024x256 .bf16) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- The last-block case's one store into the output block covers it. -/
theorem cover0_C_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What the case leaves in the output's staging buffer: its pieces read back. -/
def out0_C_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

/-- The case's stores into the scratch column cover it. -/
theorem scover0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What the case leaves in the scratch column. -/
def sout0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- (output staging buffer, scratch column) after point `n`. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before point `n`: at the start the scratch at anything; afterwards the scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block and the output's at
    `outsAt0`; the invariant `PhiS`; the shared input array dealt in halves to its two windows, the output's array
    whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 6400000 in
/-- The body at any point: the inputs' buffers hold their blocks; the closed forms say which case the point is in;
    the case's run applies; the invariant hands over the scratch at what the point before left (at anything at the
    very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.KnLaunch.lean ====
/-
  The launch of @main when two input windows of the region read ONE array.

  @main is nine host lines, one region, fifteen host lines. The region has three windows: windows 0 and 1 are inputs
  that both read the array `main_v7` (through different index maps), window 2 is the output on `main_v8`. Because
  the two input windows share an array, the array's full share is dealt between them: window 0 holds it at the left
  half, window 1 at the right half, both at the same contents, which is enough for each to fetch its blocks; the
  output window holds its array whole. At the region's entry the full share of `main_v7` is split in two; at its
  exit the two halves — still at the entry contents, an input array being never written — are joined again, so that
  the lines after the region run holding `main_v7` and `main_v8` whole beside every buffer that bypassed the
  region, and afterwards the array is split once more to hand the windows' arrays back.

  The conclusion: every window's array ends at what the write-backs computed, and every other unscoped buffer at what
  the lines after the region compute from the exit contents — `main_v7` as found, `main_v8` as written back, every
  other buffer as the lines before the region left it.
-/
import proofs.«134713_j12386685681710_2_alg».proof.Proof.KnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One window per ARRAY of the region: the input array (read by windows 0 and 1) and the output array. -/
abbrev win2 : Fin 2 → Pipeline.WinSpec sig grid0.rank := ![spec0 1, spec0 2]

theorem win2_inj : Function.Injective (Pipeline.arrRef win2) := by decide

/-- What the two arrays hold when the region is left: the input array as the second window's data has it
    (never written), the output array after every write-back. -/
def exitArr {c : Dev nD} (dat : Dat τ (Elt F) Unit ℕ (UR sig nD τ) ℕ cfg0 c) :
    (w' : Fin 2) → Buf (Elt F) ((win2 w').arr.view.loc (c.tc : Thread nD τ))
  | 0 => dat.arrAt 1 cfg0.N
  | 1 => dat.arrAt 2 cfg0.N
  | ⟨_ + 2, h⟩ => absurd h (Nat.not_lt.2 (Nat.le_add_left _ _))

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the nine lines before the region, the region, and the fifteen lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two families of windows have the same arrays. -/
theorem arrImage_eq : Finset.univ.image (Pipeline.arrRef win2) = Finset.univ.image (Pipeline.arrRef spec0) := by decide

/-- Hence the same buffers bypass the region. -/
theorem rest_eq (c : Dev nD) (W : (b : Ref sig .tc) → Buf (Elt F) ((c.tc : Thread nD τ).loc b)) :
    (Pipeline.unscopedRestP (Ix := Unit) (Name := ℕ) (U := UR sig nD τ) (Lvl := ℕ) Pipeline.Prefetch.none win2 c W : sProp 𝕄)
      = Pipeline.unscopedRestP Pipeline.Prefetch.none spec0 c W := by
  unfold Pipeline.unscopedRestP
  rw [arrImage_eq]

theorem bigSep_F2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- Contents of the two arrays, given window by window: both input windows see the input array. -/
def spread {c : Dev nD} (G : (w' : Fin 2) → Buf (Elt F) ((win2 w').arr.view.loc (c.tc : Thread nD τ))) :
    (w : Fin 3) → Buf (Elt F) ((cfg0.win w).arr.view.loc (c.tc : Thread nD τ))
  | 0 => G 0
  | 1 => G 0
  | 2 => G 1
  | ⟨_ + 3, h⟩ => absurd h (Nat.not_lt.2 (Nat.le_add_left _ _))

theorem spread_eq {c : Dev nD} (Fs : (w : Fin cfg0.W) → Buf (Elt F) ((cfg0.win w).arr.view.loc (c.tc : Thread nD τ)))
    (G : (w' : Fin 2) → Buf (Elt F) ((win2 w').arr.view.loc (c.tc : Thread nD τ)))
    (h0 : Fs 0 = G 0) (h1 : Fs 1 = G 0) (h2 : Fs 2 = G 1) : Fs = spread G :=
  funext fun | 0 => h0 | 1 => h1 | 2 => h2 | ⟨_ + 3, h⟩ => absurd h (Nat.not_lt.2 (Nat.le_add_left _ _))

/-- The windows' arrays at their shares are the two arrays whole: the two halves of the input array, held by the
    two input windows at the same contents, make its full share; the output array is held whole. -/
theorem arrays_spread {c : Dev nD} (dat : Dat τ (Elt F) Unit ℕ (UR sig nD τ) ℕ cfg0 c)
    (hq0 : dat.q 0 = fullShare.left) (hq1 : dat.q 1 = fullShare.right)
    (G : (w' : Fin 2) → Buf (Elt F) ((win2 w').arr.view.loc (c.tc : Thread nD τ))) :
    (dat.arrays (spread G) : sProp 𝕄) ⊣⊢ Pipeline.arrPts win2 c G := by
  have e1 : (dat.arrays (spread G) : sProp 𝕄)
      = iprop((((c.tc : Thread nD τ).loc (Pipeline.arrRef win2 0)) ↦{fullShare.left} G 0)
          ∗ (((c.tc : Thread nD τ).loc (Pipeline.arrRef win2 0)) ↦{fullShare.right} G 0)
          ∗ (((c.tc : Thread nD τ).loc (Pipeline.arrRef win2 1)) ↦{fullShare} G 1)) := by
    unfold Dat.arrays
    rw [bigSep_W0, (arr_whole0 0).set_eq_univ, (arr_whole0 2).set_eq_univ,
      show dat.share 0 = fullShare.left from hq0, show dat.share 1 = fullShare.right from hq1, show dat.share 2 = fullShare from rfl]
    rfl
  have e2 : (Pipeline.arrPts win2 c G : sProp 𝕄)
      = iprop((((c.tc : Thread nD τ).loc (Pipeline.arrRef win2 0)) ↦{fullShare} G 0)
          ∗ (((c.tc : Thread nD τ).loc (Pipeline.arrRef win2 1)) ↦{fullShare} G 1)) := by
    unfold Pipeline.arrPts
    rw [bigSep_F2]
  rw [e1, e2]
  constructor
  · iintro ⟨H0, H1, H2⟩
    isplitl [H0 H1]
    · iapply (pointsTo_share (PosShare.mem_left_op_right fullShare)).2
      isplitl [H0] <;> iassumption
    · iexact H2
  · iintro ⟨H7, H8⟩
    ihave H := (pointsTo_share (PosShare.mem_left_op_right fullShare)).1 $$ H7
    icases H with ⟨H0, H1⟩
    isplitl [H0]; · iexact H0
    isplitl [H1]; · iexact H1
    iexact H8

theorem arrays_iff {c : Dev nD} (dat : Dat τ (Elt F) Unit ℕ (UR sig nD τ) ℕ cfg0 c)
    (hq0 : dat.q 0 = fullShare.left) (hq1 : dat.q 1 = fullShare.right)
    (Fs : (w : Fin cfg0.W) → Buf (Elt F) ((cfg0.win w).arr.view.loc (c.tc : Thread nD τ)))
    (G : (w' : Fin 2) → Buf (Elt F) ((win2 w').arr.view.loc (c.tc : Thread nD τ)))
    (h0 : Fs 0 = G 0) (h1 : Fs 1 = G 0) (h2 : Fs 2 = G 1) :
    (dat.arrays Fs : sProp 𝕄) ⊣⊢ Pipeline.arrPts win2 c G := by
  rw [spread_eq Fs G h0 h1 h2]
  exact arrays_spread dat hq0 hq1 G

/-! ## The lines after the region -/

/-- They touch unscoped buffers only: the two arrays and what bypasses the region. -/
theorem sfx_sub : ∀ ops ∈ ([hostOps1] : List (List (HloOp τ sig (Elt F)))), ∀ op ∈ ops,
    op.bufs ⊆ Pipeline.tailRefs sig Pipeline.Prefetch.none win2 := by
  rw [Pipeline.tailRefs_none win2 (by decide)]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And none writes the input array or the output array: each writes its own result buffer. -/
theorem sfx_keeps : ∀ ops ∈ ([hostOps1] : List (List (HloOp τ sig (Elt F)))), ∀ op ∈ ops,
    ∀ w, Proc.devRef .tc (Pipeline.arrRef win2 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

theorem flatten_single {α : Type} (l : List α) : [l].flatten = l := by simp

/-! ## The arrays dealt to the windows, and taken back -/

/-- At the region's entry: the buffers behind the arrays, whole at the entry contents, are the windows' arrays at
    their shares. -/
theorem hsplit (dats : (p : Fin 1) → (c : Dev nD) → Pipeline.Dat τ (Elt F) Unit ℕ (UR sig nD τ) ℕ (cfgs p) c)
    (hq0 : ∀ c, (dats 0 c).q 0 = fullShare.left) (hq1 : ∀ c, (dats 0 c).q 1 = fullShare.right)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  have e : (Pipeline.arrBufs spec0 c (V m c) : sProp 𝕄) = Pipeline.arrPts win2 c (fun w' => V m c (Pipeline.arrRef win2 w')) := by
    unfold Pipeline.arrBufs Pipeline.arrPts
    rw [← arrImage_eq, show Finset.univ.image (Pipeline.arrRef win2) = Finset.univ.map ⟨Pipeline.arrRef win2, win2_inj⟩ from
      (Finset.map_eq_image ⟨Pipeline.arrRef win2, win2_inj⟩ Finset.univ).symm, bigSep_map]
    rfl
  rw [e]
  exact (arrays_iff (dats 0 c) (hq0 c) (hq1 c) _ _ (hA c 0) (hA c 1) (hA c 2)).2

/-- At the region's exit: both input windows hold the input array as it was found. -/
theorem exit_in (dats : (p : Fin 1) → (c : Dev nD) → Pipeline.Dat τ (Elt F) Unit ℕ (UR sig nD τ) ℕ (cfgs p) c)
    (hA : ∀ c w, (dats 0 c).A w = V m c (Pipeline.arrRef spec0 w)) (c : Dev nD) :
    (dats 0 c).arrAt 0 cfg0.N = exitArr (dats 0 c) 0 :=
  ((dats 0 c).arrAt_in 0 rfl _).trans (((hA c 0).trans (hA c 1).symm).trans ((dats 0 c).arrAt_in 1 rfl _).symm)

/-- What every buffer holds at the end: the lines after the region run from the exit contents, the input array and
    the output array as the region leaves them, every other buffer as the region found it. -/
abbrev Wend (dats : (p : Fin 1) → (c : Dev nD) → Pipeline.Dat τ (Elt F) Unit ℕ (UR sig nD τ) ℕ (cfgs p) c) (c : Dev nD) (b : Ref sig .tc) :
    Buf (Elt F) ((c.tc : Thread nD τ).loc b) :=
  StableHlo.after hostOps1 (Pipeline.withArrays win2 c (V0 m c) (exitArr (dats 0 c))) (Proc.devRef .tc b)

/-- The lines after the region, run from its exit: the two halves of the input array joined, the lines run within the
    two arrays and the bypassing buffers, and the input array dealt to the two windows again. -/
theorem htail (dats : (p : Fin 1) → (c : Dev nD) → Pipeline.Dat τ (Elt F) Unit ℕ (UR sig nD τ) ℕ (cfgs p) c)
    (hq0 : ∀ c, (dats 0 c).q 0 = fullShare.left) (hq1 : ∀ c, (dats 0 c).q 1 = fullShare.right)
    (hA : ∀ c w, (dats 0 c).A w = V m c (Pipeline.arrRef spec0 w)) (c : Dev nD) (Q' : PUnit → sProp 𝕄) :
    iprop((iprop((dats 0 c).arrays ((dats 0 c).arrAt · cfg0.N)
            ∗ Pipeline.unscopedRestP Pipeline.Prefetch.none spec0 c (Wend m dats c)) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (Pipeline.defs (fun p => (cfgs p).toPCfg) (defs₀ (F := F))) (Variants.lift Variants.none) (c.tc : Thread nD τ) none) Set.univ
          (Pipeline.chain ([hostOps1].map StableHlo.seq)) Q' := by
  have hx := arrays_iff (dats 0 c) (hq0 c) (hq1 c) ((dats 0 c).arrAt · cfg0.N) (exitArr (dats 0 c)) (exit_in m dats hA c) rfl rfl
  have ht := Pipeline.tail_seqs (fun p => (cfgs p).toPCfg (Val := Elt F)) defs₀ Variants.none Pipeline.Prefetch.none win2 win2_inj c (V0 m c)
    (exitArr (dats 0 c)) [hostOps1] sfx_sub sfx_fresh sfx_keeps Q'
  rw [rest_eq, rest_eq, flatten_single] at ht
  iintro ⟨Hk, Hb, Ha, Hz⟩
  iapply ht
  isplitl [Hk]
  · iintro ⟨Ha, Hz⟩
    iapply Hk
    isplitl [Ha]
    · iapply hx.2; iexact Ha
    · iexact Hz
  isplitl [Hb]; · iexact Hb
  isplitl [Ha]
  · iapply hx.1; iexact Ha
  · iexact Hz

/-! ## The run -/

/-- THE LAUNCH of @main: from any memory with zero counters every weakly fair execution on the TensorCores
    terminates, every window's array ends at what the write-backs computed, and every other unscoped buffer ends at
    what the fifteen lines after the region compute from the region's exit contents — the input array as found, the
    output array as written back, everything else as the nine lines before the region left it. -/

theorem run_around (dats : (p : Fin 1) → (c : Dev nD) → Pipeline.Dat τ (Elt F) Unit ℕ (UR sig nD τ) ℕ (cfgs p) c)
    (hbody : ∀ c, Pipeline.BodyObligationLoose (dats 0 c) (defs₀ (F := F)) Variants.none () Set.univ)
    (howed : ∀ c t, (dats 0 c).owed t = 0)
    (hq0 : ∀ c, (dats 0 c).q 0 = fullShare.left) (hq1 : ∀ c, (dats 0 c).q 1 = fullShare.right)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem (((cfg0).spec w).arr.view.loc (c.tc : Thread nD τ)) = (dats 0 c).arrAt w cfg0.N)
      ∧ ∀ b ∈ Pipeline.restRefs sig spec0, r.2.mem ((c.tc : Thread nD τ).loc b)
          = StableHlo.after hostOps1 (Pipeline.withArrays win2 c (V0 m c) (exitArr (dats 0 c))) (Proc.devRef .tc b)) := by
  classical
  unfold defs
  exact Pipeline.θ_run_region_pf_tail (fun p => (cfgs p).toPCfg) (fun p => (cfgs p).toPCfg_adm) dats () cellOf_inj (0 : Fin 1) winFacts₀0
    (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hq0 hq1 hA)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wend m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail m dats hq0 hq1 hA)
    (QY := fun c s => ∀ b ∈ Pipeline.restRefsP sig Pipeline.Prefetch.none spec0, s.mem ((c.tc : Thread nD τ).loc b) = Wend m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wend m dats c) s')
      isplitl [HU] <;> iassumption)
    (hQ := fun s h c => ⟨(h c).1, Pipeline.rest_of_restP Pipeline.Prefetch.none spec0 _ c (Wend m dats c) s (fun k => k.elim0) (h c).2.1 (h c).2.2⟩)

end Cert.Kernel.Hand

end
-- ==== Proof.KnRun.lean ====
/-
  The region's run and the program's frame.

  The launch theorem, instantiated at the proof data: every weakly fair execution of the program terminates, the
  windows' arrays end at what the write-backs computed, and every other unscoped buffer ends at what the fifteen host
  operations after the region compute from the region's exit contents. The two argument arrays are written by no
  operation, so they end as they started.
-/
import proofs.«134713_j12386685681710_2_alg».proof.Proof.KnFrame
import proofs.«134713_j12386685681710_2_alg».proof.Proof.KnLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the whole program over the proof data. -/
theorem run_main : θ_run defs (onTc (τ := τ) (main (F := F))) (s₀ m ρ) (fun r => ∀ c : Dev nD,
      (∀ w, r.2.mem (((cfg0).spec w).arr.view.loc (c.tc : Thread nD τ)) = (dats m 0 c).arrAt w cfg0.N)
      ∧ ∀ b ∈ Pipeline.restRefs sig spec0, r.2.mem ((c.tc : Thread nD τ).loc b)
          = StableHlo.after hostOps1 (Pipeline.withArrays win2 c (V0 m c) (exitArr (dats m 0 c))) (Proc.devRef .tc b)) :=
  run_around m ρ (dats m) (fun c => (body_obligation m c).loose) (fun _ _ => rfl) (fun _ => rfl) (fun _ => rfl)
    (A_eq m) (hin m) (hout m)

/-- An argument array is no window's array and no operation after the region writes it. -/
theorem kept_arg0 (c : Dev nD) (A) :
    StableHlo.after hostOps1 (Pipeline.withArrays win2 c (V0 m c) A) (Proc.devRef .tc main_arg0) = m ((c.tc : Thread nD τ).loc main_arg0) := by
  have h1 : StableHlo.after (hostOps1 (F := F)) (Pipeline.withArrays win2 c (V0 m c) A) (Proc.devRef .tc main_arg0)
      = Pipeline.withArrays win2 c (V0 m c) A (Proc.devRef .tc main_arg0) := by
    after_results
  rw [h1, Pipeline.withArrays_of_ne win2 c (V0 m c) A main_arg0 (by decide)]
  show StableHlo.after (List.flatten [hostOps0]) (fun b => m (c, b)) (Proc.devRef .tc main_arg0) = _
  simp only [hostOps0, List.flatten_cons, List.flatten_nil, List.append_nil]
  after_results

theorem kept_arg1 (c : Dev nD) (A) :
    StableHlo.after hostOps1 (Pipeline.withArrays win2 c (V0 m c) A) (Proc.devRef .tc main_arg1) = m ((c.tc : Thread nD τ).loc main_arg1) := by
  have h1 : StableHlo.after (hostOps1 (F := F)) (Pipeline.withArrays win2 c (V0 m c) A) (Proc.devRef .tc main_arg1)
      = Pipeline.withArrays win2 c (V0 m c) A (Proc.devRef .tc main_arg1) := by
    after_results
  rw [h1, Pipeline.withArrays_of_ne win2 c (V0 m c) A main_arg1 (by decide)]
  show StableHlo.after (List.flatten [hostOps0]) (fun b => m (c, b)) (Proc.devRef .tc main_arg1) = _
  simp only [hostOps0, List.flatten_cons, List.flatten_nil, List.append_nil]
  after_results

theorem mem_rest_arg0 : main_arg0 ∈ Pipeline.restRefs sig spec0 := Pipeline.mem_restRefs_of main_arg0 rfl (by decide)
theorem mem_rest_arg1 : main_arg1 ∈ Pipeline.restRefs sig spec0 := Pipeline.mem_restRefs_of main_arg1 rfl (by decide)
theorem mem_rest_v19 : main_v19 ∈ Pipeline.restRefs sig spec0 := Pipeline.mem_restRefs_of main_v19 rfl (by decide)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 mem_rest_arg0).trans (kept_arg0 m c _), ((h c).2 main_arg1 mem_rest_arg1).trans (kept_arg1 m c _)⟩)
    (run_main m ρ)

end Cert.Kernel.Hand

end
-- ==== Proof.KiBase.lean ====
/-
  What the three control cases of the kernel body share.

  The region's grid is 8 × 8: point `t` is the pair (row block `t / 8`, column block `t % 8`). The body resets the
  scratch column to zero at the first column block (`t % 8 = 0`), adds to it the row sums of the exponentials of
  the block's scores at every point, and at the last column block (`t % 8 = 7`) stores `2 + log (scratch - 1)` into
  the output block, which is written back there and idle elsewhere. Here: the contents of the buffers when the
  region is entered, the windows' blocks, the two conditions in closed form, where the output window is idle, and
  the invariant's scratch part.
-/
import proofs.«134713_j12386685681710_2_alg».proof.Proof.Gen.KernelIdeal.Launch
import proofs.«134713_j12386685681710_2_alg».proof.Proof.Gen.KernelIdeal.Skeleton
import proofs.«134713_j12386685681710_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: after the nine host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body -/

/-- "This is the first column block": the condition of the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block": the condition of the final store. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the last-block condition fails the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where it holds the window is live. -/
theorem liveAt0_2 : ∀ t : Fin cfg0.N, cond0_1 (grid0.coords t) → cfg0.idle 2 (grid0.coords t) = false := by decide +kernel

/-! ## The memrefs the body is called with -/

abbrev VO0_2 : View sig .tc .vmem S1024x1 .f32 := (Memref.whole cc0_stg2_0 : Memref sig .tc .vmem S1024x1 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column, a whole scoped buffer of the kernel's own. -/
abbrev scM0_0 : Memref sig .tc .vmem S1024x1 .f32 := Memref.whole cc0_scratch0
abbrev VS0_0 : View sig .tc .vmem S1024x1 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KiRunA.lean ====
/-
  The body at a point of the FIRST column block (the reset taken, the final store not): the scratch column, found at
  any contents, is stored whole twice — zero, then zero plus the block's row sums —; the output block is not
  touched. The pieces the scratch ends with are found by running the body.
-/
import proofs.«134713_j12386685681710_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S1024x256 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__lse_kernel i arg2 harg2 arg3 harg3 arg4 harg4 arg5 harg5) K } := by
  refine ⟨[], ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiRunB.lean ====
/-
  The body at a point of a MIDDLE column block (neither the reset nor the final store): the scratch column, found at
  what the point before left, is stored whole once — its contents plus the block's row sums —; the output block is
  not touched.
-/
import proofs.«134713_j12386685681710_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .bf16) (x1 : Vec F S1024x256 .bf16) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__lse_kernel i arg2 harg2 arg3 harg3 arg4 harg4 arg5 harg5) K } := by
  refine ⟨[], ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiRunC.lean ====
/-
  The body at a point of the LAST column block (the reset not taken, the final store taken): the scratch column, found
  at what the point before left, is stored whole once — its contents plus the block's row sums —, and the output
  block, found at any contents, is stored whole: 2 + log (scratch - 1).
-/
import proofs.«134713_j12386685681710_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__lse_kernel i arg2 harg2 arg3 harg3 arg4 harg4 arg5 harg5) K } := by
  refine ⟨?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KiFrame.lean ====
/-
  What the scratch column and the output block hold after every grid point, the proof data of the region, and the
  body's triple at a generic point.

  `outsAt0 c n` is the pair (output staging buffer, scratch column) after point `n`, by recursion on the point: the case
  the point is in, run on the point's input blocks, over the scratch the point before left. The invariant carries
  the scratch at that value from one point to the next. The two input windows read ONE array, each holding half of
  it; the output window holds its array whole.
-/
import proofs.«134713_j12386685681710_2_alg».proof.Proof.KiRunA
import proofs.«134713_j12386685681710_2_alg».proof.Proof.KiRunB
import proofs.«134713_j12386685681710_2_alg».proof.Proof.KiRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the case leaves in the output's staging buffer: its pieces read back (none: a placeholder nothing consults, the window being idle and not written back there). -/
def out0_A_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S1024x256 .bf16) : Vec F S1024x1 .f32 :=
  VO0_2.read (Elt F) (VO0_2.writes (Elt F) VO0_2.junk (kernelRun0_A c i arg2 harg2 arg3 harg3 arg4 harg4 arg5 harg5 hc0 hc1 x0 x1).1)

/-- The case's stores into the scratch column cover it. -/
theorem scover0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S1024x256 .bf16) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What the case leaves in the scratch column. -/
def sout0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S1024x256 .bf16) : Vec F S1024x1 .f32 :=
  VS0_0.read (Elt F) (VS0_0.writes (Elt F) VS0_0.junk (kernelRun0_A c i arg2 harg2 arg3 harg3 arg4 harg4 arg5 harg5 hc0 hc1 x0 x1).2.1)

/-- What the case leaves in the output's staging buffer: its pieces read back (none: a placeholder nothing consults, the window being idle and not written back there). -/
def out0_B_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .bf16) (x1 : Vec F S1024x256 .bf16) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- The case's stores into the scratch column cover it. -/
theorem scover0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .bf16) (x1 : Vec F S1024x256 .bf16) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What the case leaves in the scratch column. -/
def sout0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .bf16) (x1 : Vec F S1024x256 .bf16) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- The last-block case's one store into the output block covers it. -/
theorem cover0_C_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What the case leaves in the output's staging buffer: its pieces read back. -/
def out0_C_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

/-- The case's stores into the scratch column cover it. -/
theorem scover0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What the case leaves in the scratch column. -/
def sout0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- (output staging buffer, scratch column) after point `n`. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before point `n`: at the start the scratch at anything; afterwards the scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block and the output's at
    `outsAt0`; the invariant `PhiS`; the shared input array dealt in halves to its two windows, the output's array
    whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 6400000 in
/-- The body at any point: the inputs' buffers hold their blocks; the closed forms say which case the point is in;
    the case's run applies; the invariant hands over the scratch at what the point before left (at anything at the
    very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KiLaunch.lean ====
/-
  The launch of @main when two input windows of the region read ONE array.

  @main is nine host lines, one region, fifteen host lines. The region has three windows: windows 0 and 1 are inputs
  that both read the array `main_v7` (through different index maps), window 2 is the output on `main_v8`. Because
  the two input windows share an array, the array's full share is dealt between them: window 0 holds it at the left
  half, window 1 at the right half, both at the same contents, which is enough for each to fetch its blocks; the
  output window holds its array whole. At the region's entry the full share of `main_v7` is split in two; at its
  exit the two halves — still at the entry contents, an input array being never written — are joined again, so that
  the lines after the region run holding `main_v7` and `main_v8` whole beside every buffer that bypassed the
  region, and afterwards the array is split once more to hand the windows' arrays back.

  The conclusion: every window's array ends at what the write-backs computed, and every other unscoped buffer at what
  the lines after the region compute from the exit contents — `main_v7` as found, `main_v8` as written back, every
  other buffer as the lines before the region left it.
-/
import proofs.«134713_j12386685681710_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One window per ARRAY of the region: the input array (read by windows 0 and 1) and the output array. -/
abbrev win2 : Fin 2 → Pipeline.WinSpec sig grid0.rank := ![spec0 1, spec0 2]

theorem win2_inj : Function.Injective (Pipeline.arrRef win2) := by decide

/-- What the two arrays hold when the region is left: the input array as the second window's data has it
    (never written), the output array after every write-back. -/
def exitArr {c : Dev nD} (dat : Dat τ (Elt F) Unit ℕ (UR sig nD τ) ℕ cfg0 c) :
    (w' : Fin 2) → Buf (Elt F) ((win2 w').arr.view.loc (c.tc : Thread nD τ))
  | 0 => dat.arrAt 1 cfg0.N
  | 1 => dat.arrAt 2 cfg0.N
  | ⟨_ + 2, h⟩ => absurd h (Nat.not_lt.2 (Nat.le_add_left _ _))

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the nine lines before the region, the region, and the fifteen lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two families of windows have the same arrays. -/
theorem arrImage_eq : Finset.univ.image (Pipeline.arrRef win2) = Finset.univ.image (Pipeline.arrRef spec0) := by decide

/-- Hence the same buffers bypass the region. -/
theorem rest_eq (c : Dev nD) (W : (b : Ref sig .tc) → Buf (Elt F) ((c.tc : Thread nD τ).loc b)) :
    (Pipeline.unscopedRestP (Ix := Unit) (Name := ℕ) (U := UR sig nD τ) (Lvl := ℕ) Pipeline.Prefetch.none win2 c W : sProp 𝕄)
      = Pipeline.unscopedRestP Pipeline.Prefetch.none spec0 c W := by
  unfold Pipeline.unscopedRestP
  rw [arrImage_eq]

theorem bigSep_F2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- Contents of the two arrays, given window by window: both input windows see the input array. -/
def spread {c : Dev nD} (G : (w' : Fin 2) → Buf (Elt F) ((win2 w').arr.view.loc (c.tc : Thread nD τ))) :
    (w : Fin 3) → Buf (Elt F) ((cfg0.win w).arr.view.loc (c.tc : Thread nD τ))
  | 0 => G 0
  | 1 => G 0
  | 2 => G 1
  | ⟨_ + 3, h⟩ => absurd h (Nat.not_lt.2 (Nat.le_add_left _ _))

theorem spread_eq {c : Dev nD} (Fs : (w : Fin cfg0.W) → Buf (Elt F) ((cfg0.win w).arr.view.loc (c.tc : Thread nD τ)))
    (G : (w' : Fin 2) → Buf (Elt F) ((win2 w').arr.view.loc (c.tc : Thread nD τ)))
    (h0 : Fs 0 = G 0) (h1 : Fs 1 = G 0) (h2 : Fs 2 = G 1) : Fs = spread G :=
  funext fun | 0 => h0 | 1 => h1 | 2 => h2 | ⟨_ + 3, h⟩ => absurd h (Nat.not_lt.2 (Nat.le_add_left _ _))

/-- The windows' arrays at their shares are the two arrays whole: the two halves of the input array, held by the
    two input windows at the same contents, make its full share; the output array is held whole. -/
theorem arrays_spread {c : Dev nD} (dat : Dat τ (Elt F) Unit ℕ (UR sig nD τ) ℕ cfg0 c)
    (hq0 : dat.q 0 = fullShare.left) (hq1 : dat.q 1 = fullShare.right)
    (G : (w' : Fin 2) → Buf (Elt F) ((win2 w').arr.view.loc (c.tc : Thread nD τ))) :
    (dat.arrays (spread G) : sProp 𝕄) ⊣⊢ Pipeline.arrPts win2 c G := by
  have e1 : (dat.arrays (spread G) : sProp 𝕄)
      = iprop((((c.tc : Thread nD τ).loc (Pipeline.arrRef win2 0)) ↦{fullShare.left} G 0)
          ∗ (((c.tc : Thread nD τ).loc (Pipeline.arrRef win2 0)) ↦{fullShare.right} G 0)
          ∗ (((c.tc : Thread nD τ).loc (Pipeline.arrRef win2 1)) ↦{fullShare} G 1)) := by
    unfold Dat.arrays
    rw [bigSep_W0, (arr_whole0 0).set_eq_univ, (arr_whole0 2).set_eq_univ,
      show dat.share 0 = fullShare.left from hq0, show dat.share 1 = fullShare.right from hq1, show dat.share 2 = fullShare from rfl]
    rfl
  have e2 : (Pipeline.arrPts win2 c G : sProp 𝕄)
      = iprop((((c.tc : Thread nD τ).loc (Pipeline.arrRef win2 0)) ↦{fullShare} G 0)
          ∗ (((c.tc : Thread nD τ).loc (Pipeline.arrRef win2 1)) ↦{fullShare} G 1)) := by
    unfold Pipeline.arrPts
    rw [bigSep_F2]
  rw [e1, e2]
  constructor
  · iintro ⟨H0, H1, H2⟩
    isplitl [H0 H1]
    · iapply (pointsTo_share (PosShare.mem_left_op_right fullShare)).2
      isplitl [H0] <;> iassumption
    · iexact H2
  · iintro ⟨H7, H8⟩
    ihave H := (pointsTo_share (PosShare.mem_left_op_right fullShare)).1 $$ H7
    icases H with ⟨H0, H1⟩
    isplitl [H0]; · iexact H0
    isplitl [H1]; · iexact H1
    iexact H8

theorem arrays_iff {c : Dev nD} (dat : Dat τ (Elt F) Unit ℕ (UR sig nD τ) ℕ cfg0 c)
    (hq0 : dat.q 0 = fullShare.left) (hq1 : dat.q 1 = fullShare.right)
    (Fs : (w : Fin cfg0.W) → Buf (Elt F) ((cfg0.win w).arr.view.loc (c.tc : Thread nD τ)))
    (G : (w' : Fin 2) → Buf (Elt F) ((win2 w').arr.view.loc (c.tc : Thread nD τ)))
    (h0 : Fs 0 = G 0) (h1 : Fs 1 = G 0) (h2 : Fs 2 = G 1) :
    (dat.arrays Fs : sProp 𝕄) ⊣⊢ Pipeline.arrPts win2 c G := by
  rw [spread_eq Fs G h0 h1 h2]
  exact arrays_spread dat hq0 hq1 G

/-! ## The lines after the region -/

/-- They touch unscoped buffers only: the two arrays and what bypasses the region. -/
theorem sfx_sub : ∀ ops ∈ ([hostOps1] : List (List (HloOp τ sig (Elt F)))), ∀ op ∈ ops,
    op.bufs ⊆ Pipeline.tailRefs sig Pipeline.Prefetch.none win2 := by
  rw [Pipeline.tailRefs_none win2 (by decide)]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And none writes the input array or the output array: each writes its own result buffer. -/
theorem sfx_keeps : ∀ ops ∈ ([hostOps1] : List (List (HloOp τ sig (Elt F)))), ∀ op ∈ ops,
    ∀ w, Proc.devRef .tc (Pipeline.arrRef win2 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

theorem flatten_single {α : Type} (l : List α) : [l].flatten = l := by simp

/-! ## The arrays dealt to the windows, and taken back -/

/-- At the region's entry: the buffers behind the arrays, whole at the entry contents, are the windows' arrays at
    their shares. -/
theorem hsplit (dats : (p : Fin 1) → (c : Dev nD) → Pipeline.Dat τ (Elt F) Unit ℕ (UR sig nD τ) ℕ (cfgs p) c)
    (hq0 : ∀ c, (dats 0 c).q 0 = fullShare.left) (hq1 : ∀ c, (dats 0 c).q 1 = fullShare.right)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  have e : (Pipeline.arrBufs spec0 c (V m c) : sProp 𝕄) = Pipeline.arrPts win2 c (fun w' => V m c (Pipeline.arrRef win2 w')) := by
    unfold Pipeline.arrBufs Pipeline.arrPts
    rw [← arrImage_eq, show Finset.univ.image (Pipeline.arrRef win2) = Finset.univ.map ⟨Pipeline.arrRef win2, win2_inj⟩ from
      (Finset.map_eq_image ⟨Pipeline.arrRef win2, win2_inj⟩ Finset.univ).symm, bigSep_map]
    rfl
  rw [e]
  exact (arrays_iff (dats 0 c) (hq0 c) (hq1 c) _ _ (hA c 0) (hA c 1) (hA c 2)).2

/-- At the region's exit: both input windows hold the input array as it was found. -/
theorem exit_in (dats : (p : Fin 1) → (c : Dev nD) → Pipeline.Dat τ (Elt F) Unit ℕ (UR sig nD τ) ℕ (cfgs p) c)
    (hA : ∀ c w, (dats 0 c).A w = V m c (Pipeline.arrRef spec0 w)) (c : Dev nD) :
    (dats 0 c).arrAt 0 cfg0.N = exitArr (dats 0 c) 0 :=
  ((dats 0 c).arrAt_in 0 rfl _).trans (((hA c 0).trans (hA c 1).symm).trans ((dats 0 c).arrAt_in 1 rfl _).symm)

/-- What every buffer holds at the end: the lines after the region run from the exit contents, the input array and
    the output array as the region leaves them, every other buffer as the region found it. -/
abbrev Wend (dats : (p : Fin 1) → (c : Dev nD) → Pipeline.Dat τ (Elt F) Unit ℕ (UR sig nD τ) ℕ (cfgs p) c) (c : Dev nD) (b : Ref sig .tc) :
    Buf (Elt F) ((c.tc : Thread nD τ).loc b) :=
  StableHlo.after hostOps1 (Pipeline.withArrays win2 c (V0 m c) (exitArr (dats 0 c))) (Proc.devRef .tc b)

/-- The lines after the region, run from its exit: the two halves of the input array joined, the lines run within the
    two arrays and the bypassing buffers, and the input array dealt to the two windows again. -/
theorem htail (dats : (p : Fin 1) → (c : Dev nD) → Pipeline.Dat τ (Elt F) Unit ℕ (UR sig nD τ) ℕ (cfgs p) c)
    (hq0 : ∀ c, (dats 0 c).q 0 = fullShare.left) (hq1 : ∀ c, (dats 0 c).q 1 = fullShare.right)
    (hA : ∀ c w, (dats 0 c).A w = V m c (Pipeline.arrRef spec0 w)) (c : Dev nD) (Q' : PUnit → sProp 𝕄) :
    iprop((iprop((dats 0 c).arrays ((dats 0 c).arrAt · cfg0.N)
            ∗ Pipeline.unscopedRestP Pipeline.Prefetch.none spec0 c (Wend m dats c)) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (Pipeline.defs (fun p => (cfgs p).toPCfg) (defs₀ (F := F))) (Variants.lift Variants.none) (c.tc : Thread nD τ) none) Set.univ
          (Pipeline.chain ([hostOps1].map StableHlo.seq)) Q' := by
  have hx := arrays_iff (dats 0 c) (hq0 c) (hq1 c) ((dats 0 c).arrAt · cfg0.N) (exitArr (dats 0 c)) (exit_in m dats hA c) rfl rfl
  have ht := Pipeline.tail_seqs (fun p => (cfgs p).toPCfg (Val := Elt F)) defs₀ Variants.none Pipeline.Prefetch.none win2 win2_inj c (V0 m c)
    (exitArr (dats 0 c)) [hostOps1] sfx_sub sfx_fresh sfx_keeps Q'
  rw [rest_eq, rest_eq, flatten_single] at ht
  iintro ⟨Hk, Hb, Ha, Hz⟩
  iapply ht
  isplitl [Hk]
  · iintro ⟨Ha, Hz⟩
    iapply Hk
    isplitl [Ha]
    · iapply hx.2; iexact Ha
    · iexact Hz
  isplitl [Hb]; · iexact Hb
  isplitl [Ha]
  · iapply hx.1; iexact Ha
  · iexact Hz

/-! ## The run -/

/-- THE LAUNCH of @main: from any memory with zero counters every weakly fair execution on the TensorCores
    terminates, every window's array ends at what the write-backs computed, and every other unscoped buffer ends at
    what the fifteen lines after the region compute from the region's exit contents — the input array as found, the
    output array as written back, everything else as the nine lines before the region left it. -/

theorem run_around (dats : (p : Fin 1) → (c : Dev nD) → Pipeline.Dat τ (Elt F) Unit ℕ (UR sig nD τ) ℕ (cfgs p) c)
    (hbody : ∀ c, Pipeline.BodyObligationLoose (dats 0 c) (defs₀ (F := F)) Variants.none () Set.univ)
    (howed : ∀ c t, (dats 0 c).owed t = 0)
    (hq0 : ∀ c, (dats 0 c).q 0 = fullShare.left) (hq1 : ∀ c, (dats 0 c).q 1 = fullShare.right)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem (((cfg0).spec w).arr.view.loc (c.tc : Thread nD τ)) = (dats 0 c).arrAt w cfg0.N)
      ∧ ∀ b ∈ Pipeline.restRefs sig spec0, r.2.mem ((c.tc : Thread nD τ).loc b)
          = StableHlo.after hostOps1 (Pipeline.withArrays win2 c (V0 m c) (exitArr (dats 0 c))) (Proc.devRef .tc b)) := by
  classical
  unfold defs
  exact Pipeline.θ_run_region_pf_tail (fun p => (cfgs p).toPCfg) (fun p => (cfgs p).toPCfg_adm) dats () cellOf_inj (0 : Fin 1) winFacts₀0
    (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hq0 hq1 hA)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wend m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail m dats hq0 hq1 hA)
    (QY := fun c s => ∀ b ∈ Pipeline.restRefsP sig Pipeline.Prefetch.none spec0, s.mem ((c.tc : Thread nD τ).loc b) = Wend m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wend m dats c) s')
      isplitl [HU] <;> iassumption)
    (hQ := fun s h c => ⟨(h c).1, Pipeline.rest_of_restP Pipeline.Prefetch.none spec0 _ c (Wend m dats c) s (fun k => k.elim0) (h c).2.1 (h c).2.2⟩)

end Cert.KernelIdeal.Hand

end
-- ==== Proof.KiRun.lean ====
/-
  The region's run and the program's frame.

  The launch theorem, instantiated at the proof data: every weakly fair execution of the program terminates, the
  windows' arrays end at what the write-backs computed, and every other unscoped buffer ends at what the fifteen host
  operations after the region compute from the region's exit contents. The two argument arrays are written by no
  operation, so they end as they started.
-/
import proofs.«134713_j12386685681710_2_alg».proof.Proof.KiFrame
import proofs.«134713_j12386685681710_2_alg».proof.Proof.KiLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the whole program over the proof data. -/
theorem run_main : θ_run defs (onTc (τ := τ) (main (F := F))) (s₀ m ρ) (fun r => ∀ c : Dev nD,
      (∀ w, r.2.mem (((cfg0).spec w).arr.view.loc (c.tc : Thread nD τ)) = (dats m 0 c).arrAt w cfg0.N)
      ∧ ∀ b ∈ Pipeline.restRefs sig spec0, r.2.mem ((c.tc : Thread nD τ).loc b)
          = StableHlo.after hostOps1 (Pipeline.withArrays win2 c (V0 m c) (exitArr (dats m 0 c))) (Proc.devRef .tc b)) :=
  run_around m ρ (dats m) (fun c => (body_obligation m c).loose) (fun _ _ => rfl) (fun _ => rfl) (fun _ => rfl)
    (A_eq m) (hin m) (hout m)

/-- An argument array is no window's array and no operation after the region writes it. -/
theorem kept_arg0 (c : Dev nD) (A) :
    StableHlo.after hostOps1 (Pipeline.withArrays win2 c (V0 m c) A) (Proc.devRef .tc main_arg0) = m ((c.tc : Thread nD τ).loc main_arg0) := by
  have h1 : StableHlo.after (hostOps1 (F := F)) (Pipeline.withArrays win2 c (V0 m c) A) (Proc.devRef .tc main_arg0)
      = Pipeline.withArrays win2 c (V0 m c) A (Proc.devRef .tc main_arg0) := by
    after_results
  rw [h1, Pipeline.withArrays_of_ne win2 c (V0 m c) A main_arg0 (by decide)]
  show StableHlo.after (List.flatten [hostOps0]) (fun b => m (c, b)) (Proc.devRef .tc main_arg0) = _
  simp only [hostOps0, List.flatten_cons, List.flatten_nil, List.append_nil]
  after_results

theorem kept_arg1 (c : Dev nD) (A) :
    StableHlo.after hostOps1 (Pipeline.withArrays win2 c (V0 m c) A) (Proc.devRef .tc main_arg1) = m ((c.tc : Thread nD τ).loc main_arg1) := by
  have h1 : StableHlo.after (hostOps1 (F := F)) (Pipeline.withArrays win2 c (V0 m c) A) (Proc.devRef .tc main_arg1)
      = Pipeline.withArrays win2 c (V0 m c) A (Proc.devRef .tc main_arg1) := by
    after_results
  rw [h1, Pipeline.withArrays_of_ne win2 c (V0 m c) A main_arg1 (by decide)]
  show StableHlo.after (List.flatten [hostOps0]) (fun b => m (c, b)) (Proc.devRef .tc main_arg1) = _
  simp only [hostOps0, List.flatten_cons, List.flatten_nil, List.append_nil]
  after_results

theorem mem_rest_arg0 : main_arg0 ∈ Pipeline.restRefs sig spec0 := Pipeline.mem_restRefs_of main_arg0 rfl (by decide)
theorem mem_rest_arg1 : main_arg1 ∈ Pipeline.restRefs sig spec0 := Pipeline.mem_restRefs_of main_arg1 rfl (by decide)
theorem mem_rest_v19 : main_v19 ∈ Pipeline.restRefs sig spec0 := Pipeline.mem_restRefs_of main_v19 rfl (by decide)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 mem_rest_arg0).trans (kept_arg0 m c _), ((h c).2 main_arg1 mem_rest_arg1).trans (kept_arg1 m c _)⟩)
    (run_main m ρ)

end Cert.KernelIdeal.Hand

end
-- ==== Proof.KiValPieces.lean ====
/-
  What each control case of the body leaves, as payloads of the blocks it read.

  Every store of the body writes a whole column through the rectangle at zero offsets, so what a case leaves in the
  scratch column (or in the output block) is the payload of its LAST store there, and every load through that
  rectangle reads the whole buffer: the input blocks as found, and the scratch column either as found or — at the
  first column block, after the reset — the zero column the reset just stored. So the scratch column ends at
  `k0_pay2 q k s` (the accumulation step applied to the scratch `s` it started from, `s` the zero column `k0_pay1`
  at the first column block), and at the last column block the output block ends at `k0_pay3` of that.
-/
import proofs.«134713_j12386685681710_2_alg».proof.Proof.KiFrame
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem

variable {F : FTy → Type} [FloatOps F]

/-- The literal zero offsets are the zero function. -/
theorem hz : (![0, 0] : Fin 2 → Nat) = fun _ => 0 := funext fun a => by fin_cases a <;> rfl

/-- First column block: the reset stores the zero column, the accumulation reads it back, and the scratch column ends
    at the accumulation step applied to the zero column. -/
theorem sout_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S1024x256 .bf16) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread,
    View.ld_unit_zero (S := S1024x256) hz]

/-- A middle column block: the scratch column ends at the accumulation step applied to what it held. -/
theorem sout_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .bf16) (x1 : Vec F S1024x256 .bf16) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero (S := S1024x1) hz]
  simp only [View.readAt_eq_ld, harg2.read_unread, harg3.read_unread, harg5.read_unread,
    View.ld_unit_zero (S := S1024x256) hz, View.ld_unit_zero (S := S1024x1) hz]

/-- Last column block: the scratch column again ends at the accumulation step applied to what it held. -/
theorem sout_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1024x1) hz]
  simp only [View.readAt_eq_ld, harg2.read_unread, harg3.read_unread, harg5.read_unread,
    View.ld_unit_zero (S := S1024x256) hz, View.ld_unit_zero (S := S1024x1) hz]

/-- Last column block: the output block ends at the final step applied to the scratch column just stored. -/
theorem out_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S1024x256 .bf16) (xs0 : Vec F S1024x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1024x1) hz, View.readCov_unit_zero (S := S1024x1) _ hz]
  simp only [View.readAt_eq_ld, harg2.read_unread, harg3.read_unread, harg5.read_unread,
    View.ld_unit_zero (S := S1024x256) hz, View.ld_unit_zero (S := S1024x1) hz]

end Cert.KernelIdeal.HandValue

end
-- ==== Proof.KiSpec.lean ====
/-
  The kernel's per-row value as one formula of the normalised array, at the exact extended reals.

  `Z` is the [8192, 256] array of normalised rows as the region finds it. For a row `r` and a column block `b` (1024
  rows of `Z` each), `blockSum Z r b` is the sum over the block's rows `j` of `exp (⟨2·Z r, Z j⟩ − 2)`; the scratch column
  accumulates the eight block sums in order (`acc`), and the row's result is `2 + log (acc − 1)`: the `− 1` stands for
  the row's own column, whose term is `exp (2 − 2) = 1` when the row has norm one.
  The literals are kept as the words the kernel carries (`w1` = 1.0, `w2` = 2.0).
-/
import Idealize.ShloMosaic.PureOps.Ideal
import Idealize.ShloMosaic.Lib.ValueIdx

noncomputable section

namespace Cert.KiSpec

open Idealize.ShloMosaic Idealize.ShloMosaic.ValueIdx

/-- The shape of the normalised array. -/
abbrev SZ : Shape := ⟨2, ![8192, 256]⟩

/-- The word of 1.0. -/
def w1 : EReal := Ideal.ofBits .f32 0x3F800000#32
/-- The word of 2.0. -/
def w2 : EReal := Ideal.ofBits .f32 0x40000000#32

/-- The score of row `r` against row `j`: the inner product of twice row `r` with row `j`. -/
def score (Z : SZ.Idx → EReal) (r j : Fin 8192) : EReal := ∑ k : Fin 256, (Z (ix2 r k) * w2) * Z (ix2 j k)

/-- Row `j` of column block `b`. -/
def col (b : ℕ) (j : Fin 1024) : Fin 8192 := ⟨(1024 * b + j.val) % 8192, Nat.mod_lt _ (by norm_num)⟩

/-- The sum over column block `b` of the exponentials of row `r`'s shifted scores. -/
def blockSum (Z : SZ.Idx → EReal) (r : Fin 8192) (b : ℕ) : EReal := ∑ j : Fin 1024, Ideal.exp (score Z r (col b j) - w2)

/-- What the scratch column holds for row `r` after column block `b`. -/
def acc (Z : SZ.Idx → EReal) (r : Fin 8192) : ℕ → EReal
  | 0 => blockSum Z r 0
  | b + 1 => acc Z r b + blockSum Z r (b + 1)

/-- The row's result: `2 + log (acc − 1)` after the last column block. -/
def kernelLse (Z : SZ.Idx → EReal) (r : Fin 8192) : EReal := w2 + Ideal.log (acc Z r 7 - w1)

end Cert.KiSpec

end
-- ==== Proof.KiValBlocks.lean ====
/-
  The windows' blocks read at an index, and which rows of the arrays a grid point touches.

  The grid is 8 × 8: point `t` is the pair (row block `t / 8`, column block `t % 8`). All three windows cut their arrays
  into blocks of 1024 rows: window 0's block at `t` is block `t / 8` of the normalised array, window 1's is block
  `t % 8` of the same array, and the output window's is block `t / 8` of the output column. A block's coordinate is
  the block index times the block size plus the coordinate inside the block, so row `p` of block `a` is row
  `1024·a + p` of the array — `Cert.KiSpec.col a p`, the modulus there being the identity for `a < 8`.
-/
import proofs.«134713_j12386685681710_2_alg».proof.Proof.KiFrame
import proofs.«134713_j12386685681710_2_alg».proof.Proof.KiSpec
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.ValueIdx
open Cert.KiSpec (col)

variable {F : FTy → Type} [FloatOps F]
variable (m : (ℓ : Loc nD τ sig) → Buf (Elt F) ℓ)

/-- The printed index maps in closed form, decided once over the grid: the row-block coordinate is `t / 8` for window 0
    and for the output window, `t % 8` for window 1; the second coordinate is always 0. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

theorem lt64 (t : Fin cfg0.N) : t.val < 64 := lt_of_lt_of_eq t.isLt (show cfg0.N = 64 from N_0)

/-- Window 0's block at point `t`, at (p, k): row `1024·(t / 8) + p` of the normalised array, column `k`. -/
theorem iblk0_apply (c : Dev nD) (t : Fin cfg0.N) (p : Fin 1024) (k : Fin 256) :
    (iblk m c 0 t : Vec F S1024x256 .bf16) (ix2 p k) = V m c main_v7 (ix2 (col (t.val / 8) p) k) := by
  have ht := lt64 t
  obtain ⟨e0, e1, -, -, -, -⟩ := idx_facts t
  unfold iblk
  rw [View.read_apply]
  show V m c main_v7 _ = V m c main_v7 _
  congr 1
  funext a
  apply Fin.ext
  match a with
  | ⟨0, _⟩ =>
    show win0_0.index t (0 : Fin 2) * 1024 + 1 * p.val = (1024 * (t.val / 8) + p.val) % 8192
    have hp := p.isLt
    rw [e0]; omega
  | ⟨1, _⟩ =>
    show win0_0.index t (1 : Fin 2) * 256 + 1 * k.val = k.val
    rw [e1]; omega

/-- Window 1's block at point `t`, at (j, k): row `1024·(t % 8) + j` of the normalised array, column `k`. -/
theorem iblk1_apply (c : Dev nD) (t : Fin cfg0.N) (j : Fin 1024) (k : Fin 256) :
    (iblk m c 1 t : Vec F S1024x256 .bf16) (ix2 j k) = V m c main_v7 (ix2 (col (t.val % 8) j) k) := by
  have ht := lt64 t
  obtain ⟨-, -, e0, e1, -, -⟩ := idx_facts t
  unfold iblk
  rw [View.read_apply]
  show V m c main_v7 _ = V m c main_v7 _
  congr 1
  funext a
  apply Fin.ext
  match a with
  | ⟨0, _⟩ =>
    show win0_1.index t (0 : Fin 2) * 1024 + 1 * j.val = (1024 * (t.val % 8) + j.val) % 8192
    have hj := j.isLt
    rw [e0]; omega
  | ⟨1, _⟩ =>
    show win0_1.index t (1 : Fin 2) * 256 + 1 * k.val = k.val
    rw [e1]; omega

end Cert.KernelIdeal.HandValue

end
-- ==== Proof.KiValAcc.lean ====
/-
  What the output column holds after the region, at the exact extended reals.

  `Z` is the normalised array as the region finds it. By induction on the grid point, after point `t` the scratch column
  holds at row `p` the partial sum `acc Z (1024·(t / 8) + p) (t % 8)`: the first column block starts from the zero column
  (`0 + x = x`), every later one adds its block sum to what the point before left, and the row block `t / 8` does not
  change inside a row of the grid. At the last column block the output block is `2 + log (scratch − 1)`, that is
  `kernelLse Z` of the block's rows; it is written back exactly there, and the eight write-backs cover the column.
-/
import proofs.«134713_j12386685681710_2_alg».proof.Proof.KiValPieces
import proofs.«134713_j12386685681710_2_alg».proof.Proof.KiValBlocks
import proofs.«134713_j12386685681710_2_alg».proof.Proof.KiSpec
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.ValueIdx
open Idealize.ShloMosaic.Pipeline (Dat)
open Cert.KiSpec (col w1 w2 score blockSum acc kernelLse)

variable (m : (ℓ : Loc nD τ sig) → Buf (Elt Ideal) ℓ)

/-- The three stored values read at a row: the reset is zero, the accumulation step adds the block's row sum of
    exponentials of shifted scores, the final step is `2 + log (· − 1)`. -/
structure PayFacts : Prop where
  pay1 : ∀ p : Fin 1024, k0_pay1 (F := Ideal) (ix2 p 0) = 0
  pay2 : ∀ (x0 x1 : Vec Ideal S1024x256 .bf16) (xs : Vec Ideal S1024x1 .f32) (p : Fin 1024),
    k0_pay2 (F := Ideal) x0 x1 xs (ix2 p 0)
      = xs (ix2 p 0) + ∑ j : Fin 1024, Ideal.exp ((∑ k : Fin 256, (x0 (ix2 p k) * w2) * x1 (ix2 j k)) - w2)
  pay3 : ∀ (xs : Vec Ideal S1024x1 .f32) (p : Fin 1024),
    k0_pay3 (F := Ideal) xs (ix2 p 0) = w2 + Ideal.log (xs (ix2 p 0) - w1)

/-- One accumulation step at a row: when the first block is row block `a` of `Z` and the second is row block `b`, the
    step adds to the scratch the block sum of row `1024·a + p` over column block `b`. -/
theorem step_apply (hp : PayFacts) (Z : Cert.KiSpec.SZ.Idx → EReal) (x0 x1 : Vec Ideal S1024x256 .bf16) (xs : Vec Ideal S1024x1 .f32)
    (a b : ℕ) (h0 : ∀ (p : Fin 1024) (k : Fin 256), x0 (ix2 p k) = Z (ix2 (col a p) k))
    (h1 : ∀ (j : Fin 1024) (k : Fin 256), x1 (ix2 j k) = Z (ix2 (col b j) k)) (p : Fin 1024) :
    k0_pay2 (F := Ideal) x0 x1 xs (ix2 p 0) = xs (ix2 p 0) + blockSum Z (col a p) b := by
  rw [hp.pay2]
  simp only [h0, h1]
  rfl

/-- The partial sums one step on: the next column block of the same row. -/
theorem acc_step (Z : Cert.KiSpec.SZ.Idx → EReal) (r r' : Fin 8192) (b b' : ℕ) (hr : r = r') (hb : b' = b + 1) :
    acc Z r b + blockSum Z r' b' = acc Z r' b' := by
  subst hr hb; rfl

/-- The normalised array as the region finds it. -/
abbrev Zin (c : Dev nD) : Cert.KiSpec.SZ.Idx → EReal := V (F := Ideal) m c main_v7

/-- THE INVARIANT: after point `n` the scratch column holds, at row `p`, the partial sum of row `1024·(n / 8) + p` over the
    column blocks `0 … n % 8`. -/
theorem scratch_eq (hp : PayFacts) (c : Dev nD) : ∀ (n : ℕ) (hn : n < cfg0.N) (p : Fin 1024),
    (outsAt0 (F := Ideal) m c n hn).2 (ix2 p 0) = acc (Zin m c) (col (n / 8) p) (n % 8) := by
  intro n
  induction n with
  | zero =>
    intro hn p
    have e := outsAt0_A (F := Ideal) m c ⟨0, hn⟩ (Nat.zero_mod _) (by show ¬(0 % 8 = 7); omega)
    dsimp only at e
    rw [e]; dsimp only
    refine (congrFun (sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) _ _ (iblk m c 0 ⟨0, hn⟩) (iblk m c 1 ⟨0, hn⟩)) (ix2 p 0)).trans ?_
    refine (step_apply hp (Zin m c) (iblk m c 0 ⟨0, hn⟩) (iblk m c 1 ⟨0, hn⟩) (k0_pay1 (F := Ideal)) (0 / 8) (0 % 8)
      (iblk0_apply m c ⟨0, hn⟩) (iblk1_apply m c ⟨0, hn⟩) p).trans ?_
    rw [hp.pay1, zero_add]
    rfl
  | succ n ih =>
    intro hn p
    have hN : n + 1 < 64 := lt_of_lt_of_eq hn (show cfg0.N = 64 from N_0)
    have ihp := ih (Nat.lt_of_succ_lt hn) p
    by_cases h0 : (n + 1) % 8 = 0
    · have h1 : ¬(n + 1) % 8 = 7 := by omega
      have e := outsAt0_A (F := Ideal) m c ⟨n + 1, hn⟩ h0 h1
      dsimp only at e
      rw [e]; dsimp only
      refine (congrFun (sout_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩)) (ix2 p 0)).trans ?_
      refine (step_apply hp (Zin m c) (iblk m c 0 ⟨n + 1, hn⟩) (iblk m c 1 ⟨n + 1, hn⟩) (k0_pay1 (F := Ideal)) ((n + 1) / 8) ((n + 1) % 8)
        (iblk0_apply m c ⟨n + 1, hn⟩) (iblk1_apply m c ⟨n + 1, hn⟩) p).trans ?_
      rw [hp.pay1, zero_add, h0]
      rfl
    · by_cases h1 : (n + 1) % 8 = 7
      · have e := outsAt0_C (F := Ideal) m c ⟨n + 1, hn⟩ h0 h1
        dsimp only at e
        rw [e]; dsimp only
        refine (congrFun (sout_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩) (outsAt0 (F := Ideal) m c n (Nat.lt_of_succ_lt hn)).2) (ix2 p 0)).trans ?_
        refine (step_apply hp (Zin m c) (iblk m c 0 ⟨n + 1, hn⟩) (iblk m c 1 ⟨n + 1, hn⟩) _ ((n + 1) / 8) ((n + 1) % 8)
          (iblk0_apply m c ⟨n + 1, hn⟩) (iblk1_apply m c ⟨n + 1, hn⟩) p).trans ?_
        rw [ihp]
        exact acc_step (Zin m c) _ _ _ _ (by apply Fin.ext; show (1024 * (n / 8) + p.val) % 8192 = (1024 * ((n + 1) / 8) + p.val) % 8192; omega) (by omega)
      · have e := outsAt0_B (F := Ideal) m c ⟨n + 1, hn⟩ h0 h1
        dsimp only at e
        rw [e]; dsimp only
        refine (congrFun (sout_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩) (outsAt0 (F := Ideal) m c n (Nat.lt_of_succ_lt hn)).2) (ix2 p 0)).trans ?_
        refine (step_apply hp (Zin m c) (iblk m c 0 ⟨n + 1, hn⟩) (iblk m c 1 ⟨n + 1, hn⟩) _ ((n + 1) / 8) ((n + 1) % 8)
          (iblk0_apply m c ⟨n + 1, hn⟩) (iblk1_apply m c ⟨n + 1, hn⟩) p).trans ?_
        rw [ihp]
        exact acc_step (Zin m c) _ _ _ _ (by apply Fin.ext; show (1024 * (n / 8) + p.val) % 8192 = (1024 * ((n + 1) / 8) + p.val) % 8192; omega) (by omega)

/-- At the last column block the output block is the final step applied to the scratch column the point leaves. -/
theorem out_eq_pay3 (c : Dev nD) (t : Fin cfg0.N) (h1 : t.val % 8 = 7) :
    (outsAt0 (F := Ideal) m c t.val t.isLt).1 = k0_pay3 (F := Ideal) (outsAt0 (F := Ideal) m c t.val t.isLt).2 := by
  have h0 : ¬t.val % 8 = 0 := by omega
  have hc0 : ¬cond0_0 (grid0.coords t) := fun h => h0 ((hcond0_0 t).mp h)
  have hc1 : cond0_1 (grid0.coords t) := (hcond0_1 t).mpr h1
  rw [outsAt0_C (F := Ideal) m c t h0 h1]
  dsimp only
  exact (out_C (F := Ideal) c (grid0.coords t) (ms0_0 t) (hs0_0 t) (ms0_1 t) (hs0_1 t) (ms0_2 t) (hs0_2 t) scM0_0 (Memref.isWhole_whole _) hc0 hc1 (iblk m c 0 t) (iblk m c 1 t)
      (outsAt0 (F := Ideal) m c (t.val - 1) (Nat.lt_of_le_of_lt (Nat.sub_le _ _) t.isLt)).2).trans
    (congrArg (k0_pay3 (F := Ideal)) (sout_C (F := Ideal) c (grid0.coords t) (ms0_0 t) (hs0_0 t) (ms0_1 t) (hs0_1 t) (ms0_2 t) (hs0_2 t) scM0_0 (Memref.isWhole_whole _) hc0 hc1 (iblk m c 0 t) (iblk m c 1 t)
      (outsAt0 (F := Ideal) m c (t.val - 1) (Nat.lt_of_le_of_lt (Nat.sub_le _ _) t.isLt)).2).symm)

/-- So there it holds, at row `p`, the value of row `1024·(t / 8) + p`. -/
theorem out_apply (hp : PayFacts) (c : Dev nD) (t : Fin cfg0.N) (h1 : t.val % 8 = 7) (p : Fin 1024) :
    (outsAt0 (F := Ideal) m c t.val t.isLt).1 (ix2 p 0) = kernelLse (Zin m c) (col (t.val / 8) p) := by
  rw [out_eq_pay3 m c t h1, hp.pay3, scratch_eq m hp c t.val t.isLt p, h1]
  rfl

/-- The output column's final contents: every row at its value. -/
def lseCol (c : Dev nD) : S8192x1.Idx → EReal := fun i => kernelLse (Zin m c) ⟨(i 0).val, idx2_lt0 i⟩

/-- What a point of the last column block writes back is its block of that column. -/
theorem flushed_eq (hp : PayFacts) (c : Dev nD) (t : Fin cfg0.N) (hf : (cfg0.win 2).flush t = true) :
    (dats (F := Ideal) m 0 c).flushed 2 t = ((cfg0.win 2).blk t).view.read (Elt Ideal) (lseCol m c) := by
  have h1 : t.val % 8 = 7 := (flush0_2 t).mp hf
  have ht := lt64 t
  obtain ⟨-, -, -, -, e0, e1⟩ := idx_facts t
  show (cfg0.win 2).cut (grid0.coords t) ((dats (F := Ideal) m 0 c).after 2 t) = _
  rw [after0_2]
  funext j
  obtain ⟨p, q, rfl⟩ : ∃ (p : Fin 1024) (q : Fin 1), j = ix2 p q := ⟨j 0, j 1, eq_ix2 j⟩
  obtain rfl : q = 0 := Subsingleton.elim _ _
  show (outsAt0 (F := Ideal) m c t.val t.isLt).1 (ix2 p 0) = lseCol m c (((cfg0.win 2).blk t).view.emb (ix2 p 0))
  rw [out_apply m hp c t h1 p]
  unfold lseCol
  refine congrArg (kernelLse (Zin m c)) (Fin.ext ?_)
  show (1024 * (t.val / 8) + p.val) % 8192 = win0_2.index t (0 : Fin 2) * 1024 + 1 * p.val
  have := p.isLt
  rw [e0]; omega

/-- A row of the column is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v8).slice (win0_2.rect t)).set ↔ _
  rw [View.set_slice_whole, Rect.mem_set_unit]
  exact Iff.rfl

/-- Row `r` is written back at the last column block of its row block: point `8·(r / 1024) + 7`. -/
theorem cover (i : S8192x1.Idx) :
    ∃ t : Fin cfg0.N, (cfg0.win 2).flush t = true ∧ i ∈ ((cfg0.win 2).blk t).view.set := by
  have hi0 : (i 0).val < 8192 := idx2_lt0 i
  have hi1 : (i 1).val < 1 := idx2_lt1 i
  obtain ⟨t, ht⟩ : ∃ t : Fin cfg0.N, t.val = 8 * ((i 0).val / 1024) + 7 :=
    ⟨⟨8 * ((i 0).val / 1024) + 7, by rw [show cfg0.N = 64 from N_0]; omega⟩, rfl⟩
  obtain ⟨-, -, -, -, e0, e1⟩ := idx_facts t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1 ≤ (i 1).val ∧ (i 1).val < win0_2.index t (1 : Fin 2) * 1 + 1
    rw [e1]; omega

/-- The output column after the region. -/
theorem arr_eq (hp : PayFacts) (c : Dev nD) : (dats (F := Ideal) m 0 c).arrAt 2 cfg0.N = lseCol m c :=
  (dats (F := Ideal) m 0 c).arrAt_eq_of_cover 2 (lseCol m c) (flushed_eq m hp c) cover

/-- Row by row: after the region the output column holds at row `r` the row's value `2 + log (acc − 1)`. -/
theorem arr_lse_of (hp : PayFacts) (c : Dev nD) (r : Fin 8192) :
    (dats (F := Ideal) m 0 c).arrAt 2 cfg0.N (ix2 r 0) = kernelLse (V (F := Ideal) m c main_v7) r := by
  rw [arr_eq m hp c]
  rfl

end Cert.KernelIdeal.HandValue

end
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.KiPay.lean ====
/-
  The three values the kernel's body stores, each read at one element, at the exact extended reals.

  The scratch column is reset to the zero word; at every point it gains, in each row `p`, the sum over the column
  block's rows `j` of `exp (⟨2·x0 p, x1 j⟩ − 2)`, the inner product taken over the 256 features; and the block written
  back is `2 + log (scratch − 1)` row by row. The literals stay the words the kernel carries.
-/
import proofs.«134713_j12386685681710_2_alg».proof.Proof.Gen.KernelIdeal.Skeleton
import proofs.«134713_j12386685681710_2_alg».proof.Proof.KiSpec
import proofs.«134713_j12386685681710_2_alg».proof.Proof.LibIx2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The reset value of the scratch column: zero in every row. -/
theorem pay1_apply (p : Fin 1024) : k0_pay1 (F := Ideal) (ix2 p 0) = 0 := by
  unfold k0_pay1
  refine (congrFun (shapeCast_self _ _) _).trans ?_
  exact Ideal.ofBits_zero_f32

/-- An exponential of a vector reads, at an index, the exponential of the element. -/
theorem exp_apply {s : Shape} {φ : FTy} (a : FVec Ideal s φ) (i : s.Idx) : exp a i = Ideal.exp (a i) := rfl

/-- What one point adds to the scratch column: in row `p`, the sum over the column block's rows `j` of
    `exp (⟨2·x0 p, x1 j⟩ − 2)`, on top of what the column held. -/
theorem pay2_apply (x0 x1 : Vec Ideal S1024x256 .bf16) (xs : Vec Ideal S1024x1 .f32) (p : Fin 1024) :
    k0_pay2 (F := Ideal) x0 x1 xs (ix2 p 0)
      = xs (ix2 p 0) + ∑ j : Fin 1024, Ideal.exp ((∑ k : Fin 256, (x0 (ix2 p k) * Cert.KiSpec.w2) * x1 (ix2 j k)) - Cert.KiSpec.w2) := by
  unfold k0_pay2
  -- the cast to the same shape, then the sum with the column read before
  refine (congrFun (shapeCast_self _ _) _).trans ?_
  refine (addf_apply _ _ _).trans ?_
  refine congrArg (fun z => xs (ix2 p 0) + z) ?_
  -- the row sums as a column: the sum over the lanes of row `p`
  refine (Cert.LibIx2.shapeCast_a_a1_apply _ _ p 0).trans ?_
  refine (Cert.LibIx2.multiReduction_add_lanes_apply _ _ _ _ _ p).trans ?_
  refine Finset.sum_congr rfl fun j _ => ?_
  -- one lane: the exponential of the shifted score
  refine (exp_apply _ _).trans ?_
  refine congrArg Ideal.exp ?_
  refine (subf_apply _ _ _).trans ?_
  refine congrArg (fun z => z - Cert.KiSpec.w2) ?_
  -- the score: the product's entry `(p, j)` is the sum over the 256 features
  refine (Cert.LibIx2.matmul_zero_ix2_apply dot_S1024x256_S256x1024_S1024x1024_1_0_0_1_n_n rfl rfl rfl rfl rfl rfl rfl rfl
    none _ _ p j).trans ?_
  refine Finset.sum_congr rfl fun k _ => ?_
  -- the left factor is twice `x0 (p, k)` (the format changes are the identity), the right one `x1 (j, k)` transposed
  rw [shapeCast_self, shapeCast_self, transpose_ix2_apply]
  rfl

/-- The written-back block: `2 + log (scratch − 1)` in every row. -/
theorem pay3_apply (xs : Vec Ideal S1024x1 .f32) (p : Fin 1024) :
    k0_pay3 (F := Ideal) xs (ix2 p 0) = Cert.KiSpec.w2 + Ideal.log (xs (ix2 p 0) - Cert.KiSpec.w1) := rfl

end Cert.KernelIdeal.Pay

end
-- ==== Proof.KiValue.lean ====
/-
  The output column after the region, row by row: `2 + log (acc − 1)` of the normalised array.

  The induction over the grid points is carried out over the three stored values read at a row; here those readings
  are supplied, which closes the statement.
-/
import proofs.«134713_j12386685681710_2_alg».proof.Proof.KiValAcc
import proofs.«134713_j12386685681710_2_alg».proof.Proof.KiPay

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.ValueIdx

/-- The three stored values read at a row. -/
theorem payFacts : PayFacts :=
  ⟨Cert.KernelIdeal.Pay.pay1_apply, Cert.KernelIdeal.Pay.pay2_apply, Cert.KernelIdeal.Pay.pay3_apply⟩

/-- After the region the output column holds, at row `r`, `2 + log (acc − 1)` where `acc` is the sum over all 8192 rows
    `j` of `exp (⟨2·Z r, Z j⟩ − 2)`, accumulated column block by column block. -/
theorem arr_lse (m : (ℓ : Loc nD τ sig) → Buf (Elt Ideal) ℓ) (c : Dev nD) (r : Fin 8192) :
    (Cert.KernelIdeal.Hand.dats (F := Ideal) m 0 c).arrAt 2 cfg0.N (ValueIdx.ix2 r 0)
      = Cert.KiSpec.kernelLse (Cert.KernelIdeal.Hand.V (F := Ideal) m c main_v7) r :=
  arr_lse_of m payFacts c r

end Cert.KernelIdeal.HandValue

end
-- ==== Proof.KiTailWords.lean ====
/-
  The float words the program carries, as real numbers in the extended reals: 1.0, 2.0, 8192.0 and 0.0.
-/
import proofs.«134713_j12386685681710_2_alg».proof.Proof.KiSpec
import Idealize.ShloMosaic.PureOps.Ideal.Laws
import Idealize.ShloMosaic.Lib.IdealHost

noncomputable section

namespace Cert.KernelIdeal.Tail

open Idealize.ShloMosaic

/-- The single-precision pattern `0x40000000` is the real number 2. -/
theorem ofBits_two_f32 : Ideal.ofBits .f32 0x40000000#32 = ((2 : ℝ) : EReal) := by
  simp [Ideal.ofBits, Ideal.ieee, -EReal.coe_mul]; norm_num

/-- The single-precision pattern `0x46000000` is the real number 8192. -/
theorem ofBits_8192_f32 : Ideal.ofBits .f32 0x46000000#32 = ((8192 : ℝ) : EReal) := by
  simp [Ideal.ofBits, Ideal.ieee, -EReal.coe_mul]; norm_num

/-- The word of 1.0 is the real number 1. -/
theorem w1_eq : Cert.KiSpec.w1 = ((1 : ℝ) : EReal) := by
  unfold Cert.KiSpec.w1; rw [Ideal.ofBits_one_f32]; rfl

/-- The word of 2.0 is the real number 2. -/
theorem w2_eq : Cert.KiSpec.w2 = ((2 : ℝ) : EReal) := ofBits_two_f32

end Cert.KernelIdeal.Tail

end
-- ==== Proof.Spec.lean ====
/-
  The quantity both programs compute, over the reals.

  `u` is the matrix of the 8192 normalised rows (256 entries each). For a row `r` the loss term is the logarithm of the
  sum, over every OTHER row `j`, of `exp (2 · ⟨u r, u j⟩)` (the similarities divided by the temperature 1/2, the row's
  own column left out), minus twice the similarity with the row's partner (row `r + 4096` modulo 8192); the result is the
  mean of the 8192 terms.
-/
import Idealize.ShloMosaic.PureOps.Ideal

noncomputable section

namespace Cert.Spec

/-- The inner product of rows `r` and `j`. -/
def dot (u : Fin 8192 → Fin 256 → ℝ) (r j : Fin 8192) : ℝ := ∑ k : Fin 256, u r k * u j k

/-- The partner of row `r`: row `r + 4096` modulo 8192 (the other view of the same sample). -/
def partner (r : Fin 8192) : Fin 8192 := ⟨(r.val + 4096) % 8192, Nat.mod_lt _ (by norm_num)⟩

/-- One row's term: log of the sum over the other rows of `exp (2 · dot)`, minus twice the dot with the partner. -/
def rowLoss (u : Fin 8192 → Fin 256 → ℝ) (r : Fin 8192) : ℝ :=
  Real.log (∑ j ∈ Finset.univ.erase r, Real.exp (2 * dot u r j)) - 2 * dot u r (partner r)

/-- The mean of the rows' terms. -/
def loss (u : Fin 8192 → Fin 256 → ℝ) : ℝ := (∑ r : Fin 8192, rowLoss u r) / 8192

theorem dot_comm (u : Fin 8192 → Fin 256 → ℝ) (r j : Fin 8192) : dot u r j = dot u j r := by
  unfold dot; exact Finset.sum_congr rfl fun k _ => mul_comm _ _

theorem partner_ne (r : Fin 8192) : partner r ≠ r := by
  intro h
  have := congrArg Fin.val h
  simp only [partner] at this
  omega

end Cert.Spec

end
-- ==== Proof.KiTailLse.lean ====
/-
  The kernel's per-row value is the logarithm of the sum, over the other rows, of the exponentials of twice the inner
  products.

  With `Z` the array of the rows `u` (real numbers, each row of norm one): a score is `2 · ⟨u r, u j⟩`; the eight block
  sums of `exp (score − 2)` add up to the sum over all 8192 rows; the row's own term is `exp (2 − 2) = 1`, so the
  accumulated sum less one is `e⁻² · ∑_{j ≠ r} exp (2 · ⟨u r, u j⟩)`, which is positive, and `2 + log` of it is the
  logarithm of the sum over the other rows.
-/
import proofs.«134713_j12386685681710_2_alg».proof.Proof.KiTailWords
import proofs.«134713_j12386685681710_2_alg».proof.Proof.Spec

noncomputable section

namespace Cert.KernelIdeal.Tail

open Idealize.ShloMosaic Idealize.ShloMosaic.ValueIdx
open Cert.KiSpec Cert.Spec
open scoped BigOperators

/-- A finite sum of real numbers, embedded in the extended reals, is the sum of the embedded terms. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## The 8192 rows as 8 blocks of 1024 -/

/-- Block `b`, row `j` of the block ↦ row `1024 · b + j`. -/
def blockEquiv : Fin 8 × Fin 1024 ≃ Fin 8192 :=
  finProdFinEquiv.trans (finCongr (by norm_num : 8 * 1024 = 8192))

theorem blockEquiv_apply (b : Fin 8) (j : Fin 1024) : blockEquiv (b, j) = col b.val j := by
  apply Fin.ext
  have hb := b.isLt
  have hj := j.isLt
  simp only [blockEquiv, Equiv.trans_apply, finCongr_apply_coe, finProdFinEquiv_apply_val, col]
  omega

/-- A sum over the 8192 rows, block by block. -/
theorem sum_blocks (f : Fin 8192 → ℝ) :
    ∑ b ∈ Finset.range 8, ∑ j : Fin 1024, f (col b j) = ∑ j : Fin 8192, f j := by
  rw [← Equiv.sum_comp blockEquiv f, Fintype.sum_prod_type,
    ← Fin.sum_univ_eq_sum_range (fun b => ∑ j : Fin 1024, f (col b j)) 8]
  refine Finset.sum_congr rfl fun b _ => Finset.sum_congr rfl fun j _ => ?_
  rw [blockEquiv_apply]

/-! ## The scratch column's value as a real sum -/

section
variable (Z : SZ.Idx → EReal) (u : Fin 8192 → Fin 256 → ℝ)
  (hu : ∀ (r : Fin 8192) (k : Fin 256), Z (ix2 r k) = ((u r k : ℝ) : EReal))
include hu

/-- A score is twice the inner product of the two rows. -/
theorem score_eq (r j : Fin 8192) : score Z r j = ((2 * dot u r j : ℝ) : EReal) := by
  unfold score dot
  rw [Finset.mul_sum, coe_sum]
  refine Finset.sum_congr rfl fun k _ => ?_
  rw [hu, hu, w2_eq, ← EReal.coe_mul, ← EReal.coe_mul]
  congr 1; ring

/-- A block sum is the real sum of the exponentials of the shifted scores over the block's rows. -/
theorem blockSum_eq (r : Fin 8192) (b : ℕ) :
    blockSum Z r b = ((∑ j : Fin 1024, Real.exp (2 * dot u r (col b j) - 2) : ℝ) : EReal) := by
  unfold blockSum
  rw [coe_sum]
  refine Finset.sum_congr rfl fun j _ => ?_
  rw [score_eq Z u hu, w2_eq, ← EReal.coe_sub]
  rfl

/-- After column block `n` the scratch column holds the sum of the first `n + 1` block sums. -/
theorem acc_eq_range (r : Fin 8192) (n : ℕ) :
    acc Z r n = ((∑ b ∈ Finset.range (n + 1), ∑ j : Fin 1024, Real.exp (2 * dot u r (col b j) - 2) : ℝ) : EReal) := by
  induction n with
  | zero => rw [acc, blockSum_eq Z u hu, Finset.sum_range_one]
  | succ n ih => rw [acc, ih, blockSum_eq Z u hu, ← EReal.coe_add, Finset.sum_range_succ _ (n + 1)]

/-- After the last column block it holds the sum over all 8192 rows. -/
theorem acc_seven (r : Fin 8192) :
    acc Z r 7 = ((∑ j : Fin 8192, Real.exp (2 * dot u r j - 2) : ℝ) : EReal) := by
  rw [acc_eq_range Z u hu r 7]
  exact congrArg _ (sum_blocks fun j => Real.exp (2 * dot u r j - 2))

/-- The kernel's value for row `r`: the logarithm of the sum over the other rows of `exp (2 · ⟨u r, u j⟩)`. -/
theorem kernelLse_eq (hunit : ∀ r : Fin 8192, ∑ k : Fin 256, u r k * u r k = 1) (r : Fin 8192) :
    kernelLse Z r = ((Real.log (∑ j ∈ Finset.univ.erase r, Real.exp (2 * dot u r j)) : ℝ) : EReal) := by
  unfold kernelLse
  rw [acc_seven Z u hu r, w1_eq, w2_eq, ← EReal.coe_sub]
  -- the row's own term: the row has norm one
  have hself : Real.exp (2 * dot u r r - 2) = 1 := by
    have h1 : dot u r r = 1 := hunit r
    rw [h1]; norm_num
  -- the sum less the row's own term, with the shift taken out
  have hsplit : (∑ j : Fin 8192, Real.exp (2 * dot u r j - 2)) - 1
      = Real.exp (-2) * ∑ j ∈ Finset.univ.erase r, Real.exp (2 * dot u r j) := by
    rw [← Finset.add_sum_erase Finset.univ _ (Finset.mem_univ r), hself, add_sub_cancel_left, Finset.mul_sum]
    refine Finset.sum_congr rfl fun j _ => ?_
    rw [← Real.exp_add]; congr 1; ring
  -- the other rows are not none: the partner is one of them
  have hS : 0 < ∑ j ∈ Finset.univ.erase r, Real.exp (2 * dot u r j) :=
    Finset.sum_pos (fun j _ => Real.exp_pos _)
      ⟨partner r, Finset.mem_erase.mpr ⟨partner_ne r, Finset.mem_univ _⟩⟩
  have hpos : 0 < Real.exp (-2) * ∑ j ∈ Finset.univ.erase r, Real.exp (2 * dot u r j) :=
    mul_pos (Real.exp_pos _) hS
  rw [hsplit, Ideal.log_coe, if_neg (not_le.mpr hpos), ← EReal.coe_add]
  exact congrArg Real.toEReal (by rw [Real.log_mul (Real.exp_pos _).ne' hS.ne', Real.log_exp]; ring)

end

end Cert.KernelIdeal.Tail

end
-- ==== Proof.KiTail.lean ====
/-
  The host operations after the region, and the loss.

  After the region the program has, for every row `r`, the value `L r` (the logarithm of the sum over the other rows of
  `exp (2 · ⟨u r, u j⟩)`). The host then takes the inner products of each row of the first half with the row 4096 below
  it (`cvec`), lays that column twice end to end — so row `r` and its partner row read the same inner product —,
  doubles it, subtracts it from `L`, and averages the 8192 differences. Each difference is the row's loss term and the
  average is the loss.
-/
import proofs.«134713_j12386685681710_2_alg».proof.KernelIdeal
import proofs.«134713_j12386685681710_2_alg».proof.Proof.Gen.KernelIdeal
import proofs.«134713_j12386685681710_2_alg».proof.Proof.KiTailLse
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Tail

open Cert.KernelIdeal Cert.KernelIdeal.Gen
open Idealize.ShloMosaic Idealize.ShloMosaic.ValueIdx
open Cert.Spec
open scoped BigOperators

/-! ## The term the host operations compute -/

section Term
variable {F : FTy → Type} [FloatOps F]

/-- Row `i` of the first half times row `i + 4096`, summed along the row: 4096 inner products. -/
def cvec (Z6 : FVec F S8192x256 .f32) : FVec F S4096 .f32 :=
  Host.reduceAdd (mulf (extractStridedSlice S4096x256 ![0, 0] Z6 slices_S8192x256_S4096x256_0_0) (extractStridedSlice S4096x256 ![4096, 0] Z6 slices_S8192x256_S4096x256_4096_0)) (constant S_ .f32 0x00000000#32) reducesTo_S4096x256_S4096_d1 h_S_

/-- The result of the host operations after the region, from the region's output column `L` and the array of
    normalised rows `Z6`. -/
def tailTerm (L : FVec F S8192x1 .f32) (Z6 : FVec F S8192x256 .f32) : FVec F S_ .f32 :=
  Host.divf (Host.reduceAdd (subf (shapeCast S8192 L shapeCasts_S8192x1_S8192) (mulf (concatenate S8192 0 [⟨S4096, cvec Z6⟩, ⟨S4096, cvec Z6⟩] concatenates_S4096_S4096_S8192_d0) (broadcastInDim S8192 ![] bcast_S_S8192 (constant S_ .f32 0x40000000#32)))) (constant S_ .f32 0x00000000#32) reducesTo_S8192_S_d0 h_S_) (constant S_ .f32 0x46000000#32)

end Term

/-! ## The pieces at an index, at the exact extended reals -/

/-- An inner product of the first half with the second, at row `i`. -/
theorem cvec_apply (Z6 : FVec Ideal S8192x256 .f32) (i : Fin 4096) (a b : Fin 8192) (ha : a.val = i.val)
    (hb : b.val = 4096 + i.val) :
    cvec (F := Ideal) Z6 (ix1 i) = ∑ k : Fin 256, Z6 (ix2 a k) * Z6 (ix2 b k) := by
  -- one product, at the entry `(i, k)` of the two halves
  have key : ∀ (idx : S4096x256.Idx) (k : Fin 256), idx = ix2 i k →
      mulf (extractStridedSlice S4096x256 ![0, 0] Z6 slices_S8192x256_S4096x256_0_0)
        (extractStridedSlice S4096x256 ![4096, 0] Z6 slices_S8192x256_S4096x256_4096_0) idx
        = Z6 (ix2 a k) * Z6 (ix2 b k) := by
    intro idx k h
    subst h
    rw [mulf_apply, slice2_axis0_apply 0 Z6 slices_S8192x256_S4096x256_0_0 i k a (by omega),
      slice2_axis0_apply 4096 Z6 slices_S8192x256_S4096x256_4096_0 i k b hb]
  unfold cvec
  rw [hostReduceAdd_apply, Ideal.hostReduceAdd_single reducesTo_S4096x256_S4096_d1 (by decide), constant_apply,
    Ideal.ofBits_zero_f32, zero_add]
  refine Finset.sum_congr rfl fun k _ => ?_
  exact key _ k (funext fun d => Fin.ext (by match d with | ⟨0, _⟩ => rfl | ⟨1, _⟩ => rfl))

/-- The column laid twice end to end, read in its first half. -/
theorem cat_apply_left (c : FVec Ideal S4096 .f32) (r : Fin 8192) (i : Fin 4096) (hi : i.val = r.val) :
    concatenate S8192 0 [⟨S4096, c⟩, ⟨S4096, c⟩] concatenates_S4096_S4096_S8192_d0 (ix1 r) = c (ix1 i) :=
  concatenate_pair_apply_left (0 : Fin S8192.rank) c c concatenates_S4096_S4096_S8192_d0 (ix1 r) rfl (ix1 i)
    (fun b => by match b with | ⟨0, _⟩ => exact hi)

/-- The column laid twice end to end, read in its second half. -/
theorem cat_apply_right (c : FVec Ideal S4096 .f32) (r : Fin 8192) (i : Fin 4096) (hi : i.val + 4096 = r.val) :
    concatenate S8192 0 [⟨S4096, c⟩, ⟨S4096, c⟩] concatenates_S4096_S4096_S8192_d0 (ix1 r) = c (ix1 i) :=
  concatenate_pair_apply_right (0 : Fin S8192.rank) c c concatenates_S4096_S4096_S8192_d0 (ix1 r) rfl rfl (ix1 i)
    (fun b hb => absurd (Fin.ext (by have hb1 : b.val < 1 := b.isLt; show b.val = 0; omega)) hb) hi

/-- A sum over the indices of a vector is the sum over its coordinate. -/
theorem sum_idx1 {n : ℕ} (f : (⟨1, ![n]⟩ : Shape).Idx → EReal) : ∑ j, f j = ∑ r : Fin n, f (ix1 r) := by
  let e : Fin n ≃ (⟨1, ![n]⟩ : Shape).Idx :=
    { toFun := fun r => ix1 r, invFun := fun j => j 0, left_inv := fun _ => rfl, right_inv := fun j => (eq_ix1 j).symm }
  exact (Equiv.sum_comp e f).symm

/-- The output column as a vector: entry `r` is the column's entry `(r, 0)`. -/
theorem reshape_apply (L : FVec Ideal S8192x1 .f32) (r : Fin 8192) :
    shapeCast S8192 L shapeCasts_S8192x1_S8192 (ix1 r) = L (ix2 r (0 : Fin 1)) :=
  shapeCast_apply L shapeCasts_S8192x1_S8192 _ _ (by
    rw [Shape.rowMajor_val_two, Shape.rowMajor_val_one]
    show r.val * 1 + 0 = r.val
    omega)

/-- The doubling factor, at every entry. -/
theorem two_apply (r : Fin 8192) :
    broadcastInDim S8192 ![] bcast_S_S8192 (constant (F := Ideal) S_ .f32 0x40000000#32) (ix1 r) = ((2 : ℝ) : EReal) := by
  rw [broadcastInDim_scalar_apply, constant_apply, ofBits_two_f32]

/-! ## One row's difference is its loss term -/

section Row
variable (L : FVec Ideal S8192x1 .f32) (Z6 : FVec Ideal S8192x256 .f32) (u : Fin 8192 → Fin 256 → ℝ)
  (hu : ∀ (r : Fin 8192) (k : Fin 256), Z6 (ix2 r k) = ((u r k : ℝ) : EReal))
include hu

/-- A sum of products of entries of two rows is the rows' inner product. -/
theorem sum_mul_eq_dot (a b : Fin 8192) : ∑ k : Fin 256, Z6 (ix2 a k) * Z6 (ix2 b k) = ((dot u a b : ℝ) : EReal) := by
  unfold dot
  rw [coe_sum]
  refine Finset.sum_congr rfl fun k _ => ?_
  rw [hu, hu, ← EReal.coe_mul]

/-- The doubled column at row `r` holds the inner product of the row with its partner. -/
theorem cat_eq_dot_partner (r : Fin 8192) :
    concatenate S8192 0 [⟨S4096, cvec (F := Ideal) Z6⟩, ⟨S4096, cvec (F := Ideal) Z6⟩] concatenates_S4096_S4096_S8192_d0 (ix1 r)
      = ((dot u r (partner r) : ℝ) : EReal) := by
  have hr := r.isLt
  by_cases h : r.val < 4096
  · rw [cat_apply_left _ r ⟨r.val, h⟩ rfl,
      cvec_apply Z6 ⟨r.val, h⟩ r (partner r) rfl (by show (r.val + 4096) % 8192 = 4096 + r.val; omega),
      sum_mul_eq_dot Z6 u hu]
  · rw [cat_apply_right _ r ⟨r.val - 4096, by omega⟩ (by show r.val - 4096 + 4096 = r.val; omega),
      cvec_apply Z6 ⟨r.val - 4096, by omega⟩ (partner r) r (by show (r.val + 4096) % 8192 = r.val - 4096; omega)
        (by show r.val = 4096 + (r.val - 4096); omega),
      sum_mul_eq_dot Z6 u hu, dot_comm]

variable (hunit : ∀ r : Fin 8192, ∑ k : Fin 256, u r k * u r k = 1)
  (hL : ∀ r : Fin 8192, L (ix2 r 0) = Cert.KiSpec.kernelLse Z6 r)
include hunit hL

/-- Row `r`'s entry of the difference is the row's loss term. -/
theorem row_apply (r : Fin 8192) :
    subf (shapeCast S8192 L shapeCasts_S8192x1_S8192) (mulf (concatenate S8192 0 [⟨S4096, cvec (F := Ideal) Z6⟩, ⟨S4096, cvec (F := Ideal) Z6⟩] concatenates_S4096_S4096_S8192_d0) (broadcastInDim S8192 ![] bcast_S_S8192 (constant S_ .f32 0x40000000#32))) (ix1 r)
      = ((rowLoss u r : ℝ) : EReal) := by
  rw [subf_apply, mulf_apply, reshape_apply, two_apply, cat_eq_dot_partner Z6 u hu, hL, kernelLse_eq Z6 u hu hunit,
    ← EReal.coe_mul, ← EReal.coe_sub]
  exact congrArg Real.toEReal (by unfold rowLoss; ring)

/-! ## The average -/

/-- The host operations after the region compute the loss. -/
theorem tail_value_aux : tailTerm (F := Ideal) L Z6 = fun _ => ((loss u : ℝ) : EReal) := by
  funext i
  unfold tailTerm
  rw [hostDivf_apply, hostReduceAdd_apply, Ideal.hostReduceAdd_total reducesTo_S8192_S_d0 (fun b => b.elim0), constant_apply,
    constant_apply, Ideal.ofBits_zero_f32, zero_add, ofBits_8192_f32, sum_idx1,
    Finset.sum_congr rfl fun r _ => row_apply L Z6 u hu hunit hL r,
    ← coe_sum, Ideal.div_coe (by norm_num), ← EReal.coe_mul]
  exact congrArg Real.toEReal (by unfold loss; ring)

end Row

/-- The host operations after the region compute the loss of the rows `u`, when the region's output column holds the
    kernel's per-row value and the rows have norm one. -/
theorem tail_value (L : FVec Ideal S8192x1 .f32) (Z6 : FVec Ideal S8192x256 .f32) (u : Fin 8192 → Fin 256 → ℝ)
    (hu : ∀ (r : Fin 8192) (k : Fin 256), Z6 (ValueIdx.ix2 r k) = ((u r k : ℝ) : EReal))
    (hunit : ∀ r : Fin 8192, ∑ k : Fin 256, u r k * u r k = 1)
    (hL : ∀ r : Fin 8192, L (ValueIdx.ix2 r 0) = Cert.KiSpec.kernelLse Z6 r) :
    tailTerm (F := Ideal) L Z6 = fun _ => ((Cert.Spec.loss u : ℝ) : EReal) :=
  tail_value_aux L Z6 u hu hunit hL

end Cert.KernelIdeal.Tail

end
-- ==== Proof.KiResult.lean ====
/-
  The kernel's result, at the exact extended reals.

  The program runs nine host lines (the two arguments joined, the rows divided by their norms: the array `Z` of
  normalised rows, kept as `main_v6` and handed to the region as `main_v7`), the region, and fifteen host lines. The
  region leaves in its output column, at row `r`, the value `2 + log (Σ_j exp (⟨2·Z r, Z j⟩ − 2) − 1)`; the lines after
  it take that column and `Z`, subtract twice the inner product of each row with its partner, and average. When
  `Z` is a real matrix `u` whose rows have norm one, the row's own term of the sum is `exp 0 = 1`, the value at row
  `r` is the logarithm of the sum over the OTHER rows of `exp (2·⟨u r, u j⟩)`, and the average is the loss of `u`.

  Here the three parts are put together: the run gives every buffer's final contents as the lines after the region
  compute them from the region's exit contents; the last buffer reads only the output column and `Z`; the former is
  the kernel's per-row value, the latter the reference's normalised array.
-/
import proofs.«134713_j12386685681710_2_alg».proof.Proof.KiRun
import proofs.«134713_j12386685681710_2_alg».proof.Proof.KiValue
import proofs.«134713_j12386685681710_2_alg».proof.Proof.KiTail
import proofs.«134713_j12386685681710_2_alg».proof.Proof.ReadP

set_option maxRecDepth 16384

noncomputable section

namespace Cert.KernelIdeal.Result

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Tail Cert.KernelIdeal.HandValue

/-! ## The buffers the lines after the region read -/

section Any
variable {F : FTy → Type} [FloatOps F]

/-- The last buffer after the fifteen lines, from ANY contents they start at: the lines' term of the region's output
    column and of the array of normalised rows, nothing else being read. -/
theorem tail_eq (W : Valuation τ sig (Elt F)) :
    StableHlo.after (hostOps1 (F := F)) W (Proc.devRef .tc main_v19)
      = tailTerm (F := F) (W (Proc.devRef .tc main_v8)) (W (Proc.devRef .tc main_v6)) := by
  after_results
  rfl

end Any

/-- The array of normalised rows the region is entered with is the reference's normalised array of the same two
    arguments: the first eight host lines are the reference's. -/
theorem V6_eq (m : (ℓ : Loc nD τ sig) → Buf (Elt Ideal) ℓ) (c : Dev nD) :
    (V (F := Ideal) m c main_v6 : S8192x256.Idx → EReal)
      = Cert.ReferenceIdeal.Read.val_main_v3 (F := Ideal) (m ((c.tc : Thread nD τ).loc main_arg0)) (m ((c.tc : Thread nD τ).loc main_arg1)) := by
  dsimp only [V, V0]
  simp only [hostOps0, List.flatten_cons, List.flatten_nil, List.append_nil]
  after_results
  rfl

/-- At the exact extended reals the change of format is the identity: the region's input array is the array of
    normalised rows. -/
theorem V7_eq (m : (ℓ : Loc nD τ sig) → Buf (Elt Ideal) ℓ) (c : Dev nD) :
    (V (F := Ideal) m c main_v7 : S8192x256.Idx → EReal) = (V (F := Ideal) m c main_v6 : S8192x256.Idx → EReal) := by
  dsimp only [V, V0]
  simp only [hostOps0, List.flatten_cons, List.flatten_nil, List.append_nil]
  after_results
  rfl

/-! ## The result -/

/-- THE KERNEL'S RESULT at the exact extended reals: when the reference's normalised array of the two arguments is the
    real matrix `u c` (entry by entry) and every row of `u c` has norm one, every weakly fair execution terminates, the
    result buffer ends holding the loss of `u c`, and the two arguments end unchanged. -/
theorem result (m : (ℓ : Loc nD τ sig) → Buf (Elt Ideal) ℓ) (ρ : Dev nD → PrngReg) (u : Dev nD → Fin 8192 → Fin 256 → ℝ)
    (hu : ∀ (c : Dev nD) (r : Fin 8192) (k : Fin 256), Cert.ReferenceIdeal.Read.val_main_v3 (F := Ideal) (m ((c.tc : Thread nD τ).loc main_arg0)) (m ((c.tc : Thread nD τ).loc main_arg1)) (ValueIdx.ix2 r k) = ((u c r k : ℝ) : EReal))
    (hunit : ∀ (c : Dev nD) (r : Fin 8192), ∑ k : Fin 256, u c r k * u c r k = 1) :
    θ_run defs (onTc (τ := τ) (main (F := Ideal))) ⟨m, fun _ => 0, ρ⟩ (fun r => ∀ c : Dev nD,
      r.2.mem ((c.tc : Thread nD τ).loc main_v19) = (fun _ => ((Cert.Spec.loss (u c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v19 mem_rest_v19).trans (by
        have e8 : Pipeline.withArrays win2 c (V0 m c) (exitArr (dats m 0 c)) (Proc.devRef .tc main_v8) = (dats m 0 c).arrAt 2 cfg0.N :=
          Pipeline.withArrays_arr win2 win2_inj c (V0 m c) (exitArr (dats m 0 c)) 1
        have e6 : Pipeline.withArrays win2 c (V0 m c) (exitArr (dats m 0 c)) (Proc.devRef .tc main_v6) = V m c main_v6 :=
          Pipeline.withArrays_of_ne win2 c (V0 m c) (exitArr (dats m 0 c)) main_v6 (by decide)
        rw [tail_eq, e8, e6]
        exact tail_value _ _ (u c) (fun r k => (congrFun (V6_eq m c) (ValueIdx.ix2 r k)).trans (hu c r k)) (hunit c)
          (fun r => (arr_lse m c r).trans (congrArg (fun Z => Cert.KiSpec.kernelLse Z r) (V7_eq m c)))),
      ((h c).2 main_arg0 mem_rest_arg0).trans (kept_arg0 m c _), ((h c).2 main_arg1 mem_rest_arg1).trans (kept_arg1 m c _)⟩)
    (run_main m ρ)

end Cert.KernelIdeal.Result

end
-- ==== Proof.RefRun.lean ====
/-
  The reference's run, read back stage by stage: @main's 83 host operations are cut into seven consecutive segments;
  each segment's result, from ANY contents of the buffers it reads, is the corresponding stage of the Read module applied
  to what those buffers hold, and the buffers a later segment reads are left as they were. Chained, the result buffer
  after the whole line holds `val_main_v34` of the two arguments.
-/
import proofs.«134713_j12386685681710_2_alg».proof.Proof.RunP
import proofs.«134713_j12386685681710_2_alg».proof.Proof.ReadP

noncomputable section

namespace Cert.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The segments -/

/-- Operations 1–8 of @main. -/
abbrev seg1 : List (HloOp τ sig (Elt F)) :=
  [ binary main_arg0 main_arg1 main_v0 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    TRef.binary (TRef.of (T := ⟨S8192x256, .f32⟩) main_v0) (TRef.of (T := ⟨S8192x256, .f32⟩) main_v0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    unary main_v1 main_v2 (broadcastInDim S8192x256 ![0, 1] bcast_S8192x1_S8192x256_0_1 : (⟨S8192x1, .f32⟩ : BufTy).Contents (Elt F) → (⟨S8192x256, .f32⟩ : BufTy).Contents (Elt F)),
    binary main_v0 main_v2 main_v3 (Host.divf : (⟨S8192x256, .f32⟩ : BufTy).Contents (Elt F) → (⟨S8192x256, .f32⟩ : BufTy).Contents (Elt F) → (⟨S8192x256, .f32⟩ : BufTy).Contents (Elt F)) ]

/-- Operations 9–13 of @main. -/
abbrev seg2 : List (HloOp τ sig (Elt F)) :=
  [ unary main_v3 main_v4 ((transpose S256x8192 [1, 0] · transposes_S8192x256_S256x8192_1_0) : (⟨S8192x256, .f32⟩ : BufTy).Contents (Elt F) → (⟨S256x8192, .f32⟩ : BufTy).Contents (Elt F)),
    binary main_v3 main_v4 main_v5 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x3F000000#32),
    unary main_cst main_v6 (broadcastInDim S8192x8192 ![] bcast_S_S8192x8192 : (⟨S_, .f32⟩ : BufTy).Contents (Elt F) → (⟨S8192x8192, .f32⟩ : BufTy).Contents (Elt F)),
    binary main_v5 main_v6 main_v7 (Host.divf : (⟨S8192x8192, .f32⟩ : BufTy).Contents (Elt F) → (⟨S8192x8192, .f32⟩ : BufTy).Contents (Elt F) → (⟨S8192x8192, .f32⟩ : BufTy).Contents (Elt F)) ]

/-- Operations 14–34 of @main. -/
abbrev seg3 : List (HloOp τ sig (Elt F)) :=
  [ nullary main_v8 (iotaInDim S8192 32 0),
    nullary main_c (constantI S_ 32 0#32),
    unary main_c main_v9 (broadcastInDim S8192 ![] bcast_S_S8192 : (⟨S_, .i32⟩ : BufTy).Contents (Elt F) → (⟨S8192, .i32⟩ : BufTy).Contents (Elt F)),
    binary main_v8 main_v9 main_v10 (cmpi .slt : (⟨S8192, .i32⟩ : BufTy).Contents (Elt F) → (⟨S8192, .i32⟩ : BufTy).Contents (Elt F) → (⟨S8192, .i1⟩ : BufTy).Contents (Elt F)),
    nullary main_c_0 (constantI S_ 32 8192#32),
    unary main_c_0 main_v11 (broadcastInDim S8192 ![] bcast_S_S8192 : (⟨S_, .i32⟩ : BufTy).Contents (Elt F) → (⟨S8192, .i32⟩ : BufTy).Contents (Elt F)),
    binary main_v8 main_v11 main_v12 (addi : (⟨S8192, .i32⟩ : BufTy).Contents (Elt F) → (⟨S8192, .i32⟩ : BufTy).Contents (Elt F) → (⟨S8192, .i32⟩ : BufTy).Contents (Elt F)),
    ternary main_v10 main_v12 main_v8 main_v13 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_1 (constantI S_ 32 0#32),
    unary main_c_1 main_v14 (broadcastInDim S8192 ![] bcast_S_S8192 : (⟨S_, .i32⟩ : BufTy).Contents (Elt F) → (⟨S8192, .i32⟩ : BufTy).Contents (Elt F)),
    binary main_v8 main_v14 main_v15 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v16 (broadcastInDim S8192 ![] bcast_S_S8192 : (⟨S_, .i32⟩ : BufTy).Contents (Elt F) → (⟨S8192, .i32⟩ : BufTy).Contents (Elt F)),
    binary main_v8 main_v16 main_v17 (addi : (⟨S8192, .i32⟩ : BufTy).Contents (Elt F) → (⟨S8192, .i32⟩ : BufTy).Contents (Elt F) → (⟨S8192, .i32⟩ : BufTy).Contents (Elt F)),
    ternary main_v15 main_v17 main_v8 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v13 main_v19 (broadcastInDim S8192x1 ![0] bcast_S8192_S8192x1_0 : (⟨S8192, .i32⟩ : BufTy).Contents (Elt F) → (⟨S8192x1, .i32⟩ : BufTy).Contents (Elt F)),
    unary main_v18 main_v20 (broadcastInDim S8192x1 ![0] bcast_S8192_S8192x1_0 : (⟨S8192, .i32⟩ : BufTy).Contents (Elt F) → (⟨S8192x1, .i32⟩ : BufTy).Contents (Elt F)),
    binary main_v19 main_v20 main_v21 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    nullary main_cst_3 (constant S_ .f32 0xFF800000#32),
    unary main_cst_3 main_v22 (broadcastInDim S8192 ![] bcast_S_S8192 : (⟨S_, .f32⟩ : BufTy).Contents (Elt F) → (⟨S8192, .f32⟩ : BufTy).Contents (Elt F)),
    ternary main_v7 main_v21 main_v22 main_v23 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)) ]

/-- Operations 35–40 of @main. -/
abbrev seg4 : List (HloOp τ sig (Elt F)) :=
  [ nullary main_v24 (iotaInDim S4096 32 0),
    nullary main_c_4 (constantI S_ 32 4096#32),
    unary main_c_4 main_v25 (broadcastInDim S4096 ![] bcast_S_S4096 : (⟨S_, .i32⟩ : BufTy).Contents (Elt F) → (⟨S4096, .i32⟩ : BufTy).Contents (Elt F)),
    binary main_v25 main_v24 main_v26 (addi : (⟨S4096, .i32⟩ : BufTy).Contents (Elt F) → (⟨S4096, .i32⟩ : BufTy).Contents (Elt F) → (⟨S4096, .i32⟩ : BufTy).Contents (Elt F)),
    nullary main_v27 (iotaInDim S4096 32 0),
    binary main_v26 main_v27 main_v28 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)) ]

/-- Operations 41–55 of @main. -/
abbrev seg5 : List (HloOp τ sig (Elt F)) :=
  [ TRef.nullary (TRef.of (T := ⟨S_, .f32⟩) main_call1_cst) (constant S_ .f32 0xFF800000#32),
    TRef.binary (TRef.of (T := ⟨S8192x8192, .f32⟩) main_v23) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v23) (TRef.of (T := ⟨S8192x8192, .f32⟩) main_call1_v4) (TRef.of (T := ⟨S8192x8192, .f32⟩) main_call1_v5) subf,
    TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v29) subf ]

/-- Operation 56 of @main. -/
abbrev seg6 : List (HloOp τ sig (Elt F)) :=
  [ unary main_v28 main_v30 (broadcastInDim S8192x1 ![0] bcast_S8192_S8192x1_0 : (⟨S8192, .i32⟩ : BufTy).Contents (Elt F) → (⟨S8192x1, .i32⟩ : BufTy).Contents (Elt F)) ]

/-- Operations 57–78 of @main. -/
abbrev seg7 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8192x1, .i32⟩) main_call2_v0) (broadcastInDim S8192x1 ![] bcast_S_S8192x1),
    TRef.binary (TRef.of (T := ⟨S8192x1, .i32⟩) main_v30) (TRef.of (T := ⟨S8192x1, .i32⟩) main_call2_v0) (TRef.of (T := ⟨S8192x1, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S8192x1, .i32⟩) main_call2_v2) (broadcastInDim S8192x1 ![] bcast_S_S8192x1),
    TRef.binary (TRef.of (T := ⟨S8192x1, .i32⟩) main_v30) (TRef.of (T := ⟨S8192x1, .i32⟩) main_call2_v2) (TRef.of (T := ⟨S8192x1, .i32⟩) main_call2_v3) addi,
    TRef.ternary (TRef.of (T := ⟨S8192x1, .i1⟩) main_call2_v1) (TRef.of (T := ⟨S8192x1, .i32⟩) main_call2_v3) (TRef.of (T := ⟨S8192x1, .i32⟩) main_v30) (TRef.of (T := ⟨S8192x1, .i32⟩) main_call2_v4) select,
    TRef.reshape (TRef.of (T := ⟨S8192x1, .i32⟩) main_call2_v4) (TRef.of (T := ⟨S8192x1x1, .i32⟩) main_call2_v5) rfl shapeCasts_S8192x1_S8192x1x1,
    TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S8192x1x1, .i32⟩) main_call2_v6) (broadcastInDim S8192x1x1 ![] bcast_S_S8192x1x1),
    TRef.binary (TRef.of (T := ⟨S8192x1x1, .i32⟩) main_call2_v5) (TRef.of (T := ⟨S8192x1x1, .i32⟩) main_call2_v6) (TRef.of (T := ⟨S8192x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8192x1x1, .i32⟩) main_call2_v9) (broadcastInDim S8192x1x1 ![0, 1, 2] bcast_S1x1x1_S8192x1x1_0_1_2),
    TRef.binary (TRef.of (T := ⟨S8192x1x1, .i32⟩) main_call2_v5) (TRef.of (T := ⟨S8192x1x1, .i32⟩) main_call2_v9) (TRef.of (T := ⟨S8192x1x1, .i1⟩) main_call2_v10) (cmpi .sle),
    TRef.binary (TRef.of (T := ⟨S8192x1x1, .i1⟩) main_call2_v7) (TRef.of (T := ⟨S8192x1x1, .i1⟩) main_call2_v10) (TRef.of (T := ⟨S8192x1x1, .i1⟩) main_call2_v11) andi,
    TRef.nullary (TRef.of (T := ⟨S_, .i1⟩) main_call2_c_3) (constantI S_ 1 1#1),
    TRef.binary (TRef.of (T := ⟨S8192x1x1, .i1⟩) main_call2_v11) (TRef.of (T := ⟨S_, .i1⟩) main_call2_c_3) (TRef.of (T := ⟨S8192x1, .i1⟩) main_call2_v12) (fun x v => Host.reduce IntOp.andi x v reducesTo_S8192x1x1_S8192x1_d2 h_S_),
    TRef.binary (TRef.of (T := ⟨S8192x8192, .f32⟩) main_v29) (TRef.of (T := ⟨S8192x1x1, .i32⟩) main_call2_v5) (TRef.of (T := ⟨S8192x1, .f32⟩) main_call2_v13) (fun x i => Host.gather gather_S8192x8192_S8192x1x1_S8192x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8192x1, .f32⟩) main_call2_v14) (broadcastInDim S8192x1 ![] bcast_S_S8192x1),
    TRef.ternary (TRef.of (T := ⟨S8192x1, .i1⟩) main_call2_v12) (TRef.of (T := ⟨S8192x1, .f32⟩) main_call2_v13) (TRef.of (T := ⟨S8192x1, .f32⟩) main_call2_v14) (TRef.of (T := ⟨S8192x1, .f32⟩) main_v31) select ]

/-- Operations 79–83 of @main. -/
abbrev seg8 : List (HloOp τ sig (Elt F)) :=
  [ nullary main_cst_5 (constant S_ .f32 0x00000000#32),
    binary main_v31 main_cst_5 main_v32 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_6 (constant S_ .f32 0x46000000#32),
    binary main_v32 main_cst_6 main_v33 (Host.divf : (⟨S_, .f32⟩ : BufTy).Contents (Elt F) → (⟨S_, .f32⟩ : BufTy).Contents (Elt F) → (⟨S_, .f32⟩ : BufTy).Contents (Elt F)),
    unary main_v33 main_v34 (Host.negf : (⟨S_, .f32⟩ : BufTy).Contents (Elt F) → (⟨S_, .f32⟩ : BufTy).Contents (Elt F)) ]

/-- The line is its segments in a row. -/
theorem ops_eq : (ops : List (HloOp τ sig (Elt F)))
    = seg1 ++ (seg2 ++ (seg3 ++ (seg4 ++ (seg5 ++ (seg6 ++ (seg7 ++ seg8)))))) := rfl

/-! ## Each segment from arbitrary contents -/

/-- Contents carried to a typed reference's buffer and back are the contents. -/
theorem ofBuf_toBuf {T : BufTy} (x : TRef sig T) (v : T.Contents (Elt F)) : x.ofBuf (x.toBuf v) = v := by
  obtain ⟨r, h, _, _⟩ := x
  subst h
  rfl

/-- Operations 1–8: the normalised rows. -/
theorem seg1_v3 (W : Valuation τ sig (Elt F)) :
    after seg1 W (Proc.devRef .tc main_v3)
      = val_main_v3 (F := F) (W (Proc.devRef .tc main_arg0)) (W (Proc.devRef .tc main_arg1)) := by
  after_results_simp <;> rfl

/-- Operations 9–13: the similarities over the temperature. -/
theorem seg2_v7 (W : Valuation τ sig (Elt F)) (x0 x1 : (⟨S4096x256, .f32⟩ : BufTy).Contents (Elt F))
    (h3 : W (Proc.devRef .tc main_v3) = val_main_v3 (F := F) x0 x1) :
    after seg2 W (Proc.devRef .tc main_v7) = val_main_v7 (F := F) x0 x1 := by
  after_results_simp
  rw [h3]; rfl

/-- Operations 14–34: the diagonal masked. -/
theorem seg3_v23 (W : Valuation τ sig (Elt F)) (x0 x1 : (⟨S4096x256, .f32⟩ : BufTy).Contents (Elt F))
    (h7 : W (Proc.devRef .tc main_v7) = val_main_v7 (F := F) x0 x1) :
    after seg3 W (Proc.devRef .tc main_v23) = val_main_v23 (F := F) x0 x1 := by
  after_results_simp
  rw [h7]; rfl

/-- Operations 35–40: the partners' indices. -/
theorem seg4_v28 (W : Valuation τ sig (Elt F)) :
    after seg4 W (Proc.devRef .tc main_v28) = val_main_v28 (F := F) := by
  after_results_simp <;> rfl

/-- Operations 35–40 leave the masked similarities. -/
theorem seg4_v23 (W : Valuation τ sig (Elt F)) :
    after seg4 W (Proc.devRef .tc main_v23) = W (Proc.devRef .tc main_v23) := by
  after_results_simp <;> rfl

/-- Operations 41–55: the row-wise log-softmax. -/
theorem seg5_v29 (W : Valuation τ sig (Elt F)) (x0 x1 : (⟨S4096x256, .f32⟩ : BufTy).Contents (Elt F))
    (h23 : W (Proc.devRef .tc main_v23) = val_main_v23 (F := F) x0 x1) :
    after seg5 W (Proc.devRef .tc main_v29) = val_main_v29 (F := F) x0 x1 := by
  have e23 : (TRef.of (T := ⟨S8192x8192, .f32⟩) main_v23).ofBuf (W (Proc.devRef .tc main_v23))
      = val_main_v23 (F := F) x0 x1 := h23
  after_results_simp
  simp only [ofBuf_toBuf, e23]
  rfl

/-- Operations 41–55 leave the partners' indices. -/
theorem seg5_v28 (W : Valuation τ sig (Elt F)) :
    after seg5 W (Proc.devRef .tc main_v28) = W (Proc.devRef .tc main_v28) := by
  after_results_simp <;> rfl

/-- Operation 56: the partners' indices as a column. -/
theorem seg6_v30 (W : Valuation τ sig (Elt F))
    (h28 : W (Proc.devRef .tc main_v28) = val_main_v28 (F := F)) :
    after seg6 W (Proc.devRef .tc main_v30) = val_main_v30 (F := F) := by
  after_results_simp
  rw [h28]; rfl

/-- Operation 56 leaves the log-softmax. -/
theorem seg6_v29 (W : Valuation τ sig (Elt F)) :
    after seg6 W (Proc.devRef .tc main_v29) = W (Proc.devRef .tc main_v29) := by
  after_results_simp <;> rfl

/-- Operations 57–78: each row's entry at its partner. -/
theorem seg7_v31 (W : Valuation τ sig (Elt F)) (x0 x1 : (⟨S4096x256, .f32⟩ : BufTy).Contents (Elt F))
    (h30 : W (Proc.devRef .tc main_v30) = val_main_v30 (F := F))
    (h29 : W (Proc.devRef .tc main_v29) = val_main_v29 (F := F) x0 x1) :
    after seg7 W (Proc.devRef .tc main_v31) = val_main_v31 (F := F) x0 x1 := by
  have e30 : (TRef.of (T := ⟨S8192x1, .i32⟩) main_v30).ofBuf (W (Proc.devRef .tc main_v30))
      = val_main_v30 (F := F) := h30
  have e29 : (TRef.of (T := ⟨S8192x8192, .f32⟩) main_v29).ofBuf (W (Proc.devRef .tc main_v29))
      = val_main_v29 (F := F) x0 x1 := h29
  after_results_simp
  simp only [ofBuf_toBuf, e30, e29]
  rfl

/-- Operations 79–83: minus the mean. -/
theorem seg8_v34 (W : Valuation τ sig (Elt F)) (x0 x1 : (⟨S4096x256, .f32⟩ : BufTy).Contents (Elt F))
    (h31 : W (Proc.devRef .tc main_v31) = val_main_v31 (F := F) x0 x1) :
    after seg8 W (Proc.devRef .tc main_v34) = val_main_v34 (F := F) x0 x1 := by
  after_results_simp
  rw [h31]; rfl

/-! ## The whole line -/

/-- The result buffer after @main's operations, from any contents `V`: the last stage, of the two arguments in `V`. -/
theorem after_ops_v34 (V : Valuation τ sig (Elt F)) :
    after (ops (F := F)) V (Proc.devRef .tc main_v34)
      = val_main_v34 (F := F) (V (Proc.devRef .tc main_arg0)) (V (Proc.devRef .tc main_arg1)) := by
  rw [ops_eq, StableHlo.after_append, StableHlo.after_append, StableHlo.after_append, StableHlo.after_append,
    StableHlo.after_append, StableHlo.after_append, StableHlo.after_append]
  have h3 := seg1_v3 V
  have h7 := seg2_v7 _ _ _ h3
  have h23 := seg3_v23 _ _ _ h7
  have h23' := (seg4_v23 _).trans h23
  have h28 := seg4_v28 (after seg3 (after seg2 (after seg1 V)))
  have h29 := seg5_v29 _ _ _ h23'
  have h28' := (seg5_v28 _).trans h28
  have h30 := seg6_v30 _ h28'
  have h29' := (seg6_v29 _).trans h29
  have h31 := seg7_v31 _ _ _ h30 h29'
  exact seg8_v34 _ _ _ h31

/-- No operation writes the first argument. -/
theorem after_ops_arg0 (V : Valuation τ sig (Elt F)) :
    after (ops (F := F)) V (Proc.devRef .tc main_arg0) = V (Proc.devRef .tc main_arg0) := by
  after_results_simp <;> rfl

/-- No operation writes the second argument. -/
theorem after_ops_arg1 (V : Valuation τ sig (Elt F)) :
    after (ops (F := F)) V (Proc.devRef .tc main_arg1) = V (Proc.devRef .tc main_arg1) := by
  after_results_simp <;> rfl

/-! ## The run -/

/-- On every device, for any float values, from any memory with zero counters: every weakly fair execution of @main
    terminates with the result buffer at the last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = val_main_v34 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v34).trans (after_ops_v34 _),
      (h c main_arg0).trans (after_ops_arg0 _),
      (h c main_arg1).trans (after_ops_arg1 _)⟩)
    (run_seq scopedRefs_eq scopedSems_eq defs main (fun _ => ops) main_eq (fun _ => ops_sub) m ρ)

end Cert.RefRun

end
-- ==== Proof.RefSoftmax.lean ====
import Idealize.ShloMosaic.PureOps.Ideal

/-!
# One row of a log-softmax whose own column is masked

A row of real logits `a` has its column `r` replaced by `-∞`. The log-softmax of that row, read at another
column `p`, is `a p` minus the logarithm of the sum of `exp (a j)` over the columns `j ≠ r`:

* the masked entry contributes `exp (-∞ - c) = 0` to the sum of exponentials, whatever the shift `c`;
* the other entries contribute `exp (a j - c) = exp (a j) · exp (-c)`, so the logarithm of their sum is the logarithm
  of `∑ exp (a j)` minus `c`, and the shift cancels against the one subtracted from `a p`.

The shift may be any real number; the row maximum is one, because a maximum folded from `-∞` over a row that has a
real entry and no `+∞` is a real number.
-/

noncomputable section

namespace Cert.RefSoftmax

open Idealize.ShloMosaic
open scoped BigOperators

/-- A finite sum of real numbers, embedded in the extended reals, is the sum of the embedded terms. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum, folded from `-∞`, of a row whose entries are real numbers but for one `-∞`, is a real number as
    soon as the row has a second column. -/
theorem rowmax_real {n : ℕ} (a : Fin n → ℝ) (r p : Fin n) (hp : p ≠ r) (m : Fin n → EReal)
    (hm : ∀ j, m j = if j = r then (⊥ : EReal) else ((a j : ℝ) : EReal)) :
    ∃ c : ℝ, (Finset.univ : Finset (Fin n)).fold max (⊥ : EReal) m = (c : EReal) := by
  have hlt : (Finset.univ : Finset (Fin n)).fold max (⊥ : EReal) m < ⊤ := by
    refine (Finset.fold_max_lt _).mpr ⟨bot_lt_top, fun j _ => ?_⟩
    rw [hm j]
    by_cases h : j = r
    · rw [if_pos h]; exact bot_lt_top
    · rw [if_neg h]; exact EReal.coe_lt_top _
  have hgt : (⊥ : EReal) < (Finset.univ : Finset (Fin n)).fold max (⊥ : EReal) m := by
    refine (Finset.lt_fold_max _).mpr (Or.inr ⟨p, Finset.mem_univ p, ?_⟩)
    rw [hm p, if_neg hp]; exact EReal.bot_lt_coe _
  exact ⟨_, (EReal.coe_toReal hlt.ne hgt.ne').symm⟩

/-- The sum of the exponentials of the shifted masked row: the masked column contributes nothing. -/
theorem sum_exp_masked {n : ℕ} (a : Fin n → ℝ) (r : Fin n) (m : Fin n → EReal)
    (hm : ∀ j, m j = if j = r then (⊥ : EReal) else ((a j : ℝ) : EReal)) (c : ℝ) :
    ∑ j : Fin n, Ideal.exp (m j - (c : EReal))
      = ((∑ j ∈ Finset.univ.erase r, Real.exp (a j - c) : ℝ) : EReal) := by
  rw [← Finset.add_sum_erase Finset.univ _ (Finset.mem_univ r), hm r, if_pos rfl, EReal.bot_sub, Ideal.exp_bot,
    zero_add, coe_sum]
  refine Finset.sum_congr rfl fun j hj => ?_
  rw [hm j, if_neg (Finset.ne_of_mem_erase hj), ← EReal.coe_sub, Ideal.exp_coe]

/-- Over the reals: the logarithm of a sum of shifted exponentials is the logarithm of the sum, shifted. -/
theorem log_sum_exp_shift {ι : Type*} (s : Finset ι) (hs : s.Nonempty) (a : ι → ℝ) (c : ℝ) :
    Real.log (∑ j ∈ s, Real.exp (a j - c)) = Real.log (∑ j ∈ s, Real.exp (a j)) - c := by
  have hpos : 0 < ∑ j ∈ s, Real.exp (a j) := Finset.sum_pos (fun j _ => Real.exp_pos _) hs
  have e : ∑ j ∈ s, Real.exp (a j - c) = (∑ j ∈ s, Real.exp (a j)) * Real.exp (-c) := by
    rw [Finset.sum_mul]
    refine Finset.sum_congr rfl fun j _ => ?_
    rw [← Real.exp_add, sub_eq_add_neg]
  rw [e, Real.log_mul hpos.ne' (Real.exp_pos _).ne', Real.log_exp]
  ring

/-- The log-softmax of the masked row at a column `p` other than the masked one, computed with any real shift `c`:
    `a p` minus the logarithm of the sum of `exp (a j)` over the unmasked columns. -/
theorem row_value {n : ℕ} (a : Fin n → ℝ) (r p : Fin n) (hp : p ≠ r) (m : Fin n → EReal)
    (hm : ∀ j, m j = if j = r then (⊥ : EReal) else ((a j : ℝ) : EReal)) (c : ℝ) :
    (m p - (c : EReal)) - Ideal.log ((0 : EReal) + ∑ j : Fin n, Ideal.exp (m j - (c : EReal)))
      = ((a p - Real.log (∑ j ∈ Finset.univ.erase r, Real.exp (a j)) : ℝ) : EReal) := by
  have hne : (Finset.univ.erase r : Finset (Fin n)).Nonempty := ⟨p, Finset.mem_erase.mpr ⟨hp, Finset.mem_univ p⟩⟩
  have hpos : 0 < ∑ j ∈ Finset.univ.erase r, Real.exp (a j - c) := Finset.sum_pos (fun j _ => Real.exp_pos _) hne
  rw [sum_exp_masked a r m hm c, zero_add, Ideal.log_coe, if_neg (not_le.mpr hpos), hm p, if_neg hp,
    ← EReal.coe_sub, ← EReal.coe_sub, log_sum_exp_shift _ hne a c]
  congr 1
  ring

/-- The mean of the negated terms, negated, is the mean of the terms. -/
theorem neg_mean_neg {ι : Type*} (s : Finset ι) (f : ι → ℝ) (d : ℝ) :
    -((∑ r ∈ s, -(f r)) * (1 / d)) = (∑ r ∈ s, f r) / d := by
  rw [Finset.sum_neg_distrib]
  ring

end Cert.RefSoftmax

end
-- ==== Proof.RefRowMax.lean ====
import Idealize.ShloMosaic.PureOps.Reduce
import Idealize.ShloMosaic.PureOps.Ideal.Laws
import Idealize.ShloMosaic.Lib.ValueIdx

/-!
# A row maximum of a square matrix, and three single-precision words

The host's maximum over the columns of an 8192 × 8192 matrix, read at row `r`, is the maximum folded from the initial
value over the entries `y (r, j)`, `j` running over the 8192 columns — a fold over a finite set, so the order in which
the host visits the columns does not matter. The words: `0x3F000000` is `1/2`, `0x46000000` is `8192`,
`0xFF800000` is `-∞`.
-/

noncomputable section

namespace Cert.RefRowMax

open Idealize.ShloMosaic Idealize.ShloMosaic.ValueIdx
open scoped BigOperators

/-- The single-precision pattern `0x3F000000` is `1/2`. -/
theorem ofBits_half : Ideal.ofBits .f32 0x3F000000#32 = ((1 / 2 : ℝ) : EReal) := by
  simp [Ideal.ofBits, Ideal.ieee, -EReal.coe_mul]; norm_num

/-- The single-precision pattern `0x46000000` is `8192`. -/
theorem ofBits_8192 : Ideal.ofBits .f32 0x46000000#32 = ((8192 : ℝ) : EReal) := by
  simp [Ideal.ofBits, Ideal.ieee, -EReal.coe_mul]; norm_num

/-- The single-precision pattern `0xFF800000` is `-∞`. -/
theorem ofBits_negInf : Ideal.ofBits .f32 0xFF800000#32 = (⊥ : EReal) := by
  simp [Ideal.ofBits, Ideal.ieee]

/-- The host's maximum over axis 1 of an 8192 × 8192 matrix, at row `r`: the fold of `max` from the initial value over
    the row's entries. -/
theorem reduce_max_row (y : FVec Ideal ⟨2, ![8192, 8192]⟩ .f32) (init : FVec Ideal ⟨0, ![]⟩ .f32)
    (h' : Shape.ReducesTo ⟨2, ![8192, 8192]⟩ [1] ⟨1, ![8192]⟩) (hu : 0 < (⟨0, ![]⟩ : Shape).numel) (r : Fin 8192) :
    Host.reduce (FloatOps.maximumf (F := Ideal) (φ := .f32)) y init h' hu (ix1 r)
      = (Finset.univ : Finset (Fin 8192)).fold max (init (Shape.Idx.first hu)) (fun j => y (ix2 r j)) := by
  have h : Shape.Reduces ⟨2, ![8192, 8192]⟩ [1] ⟨1, ![8192]⟩ := by decide
  rw [Host.reduce_eq_fold_single (FloatOps.maximumf (F := Ideal) (φ := .f32)) y init h' h hu (ix1 r)]
  have e : (y ∘ h.lift (ix1 r)) = fun j : Fin 8192 => y (ix2 r j) :=
    funext fun k => congrArg y (funext fun a => Fin.ext (by match a with | ⟨0, _⟩ => rfl | ⟨1, _⟩ => rfl))
  rw [e]
  rfl

end Cert.RefRowMax

end
-- ==== Proof.RefSim.lean ====
import proofs.«134713_j12386685681710_2_alg».proof.Proof.ReadP
import proofs.«134713_j12386685681710_2_alg».proof.Proof.Spec
import proofs.«134713_j12386685681710_2_alg».proof.Proof.RefSoftmax
import proofs.«134713_j12386685681710_2_alg».proof.Proof.RefRowMax

/-!
# The similarity matrix of the reference, entry by entry

With `u` the matrix of the normalised rows as real numbers, the reference's product of that matrix with its transpose is,
at `(r, j)`, the inner product of rows `r` and `j` — a finite sum of products of real numbers, so a real number —
and its quotient by the temperature `1/2` is twice that.
-/

noncomputable section

namespace Cert.RefSim

open Idealize.ShloMosaic Idealize.ShloMosaic.ValueIdx Cert.ReferenceIdeal Cert.ReferenceIdeal.Read
open scoped BigOperators

/-- The product of the normalised matrix with its transpose at `(r, j)`: the inner product of rows `r` and `j`. -/
theorem gram_apply (x0 x1 : FVec Ideal Cert.ReferenceIdeal.S4096x256 .f32) (u : Fin 8192 → Fin 256 → ℝ)
    (hu : ∀ (r : Fin 8192) (k : Fin 256),
      Cert.ReferenceIdeal.Read.val_main_v3 (F := Ideal) x0 x1 (ValueIdx.ix2 r k) = ((u r k : ℝ) : EReal))
    (r j : Fin 8192) :
    Cert.ReferenceIdeal.Read.val_main_v5 (F := Ideal) x0 x1 (ValueIdx.ix2 r j) = ((Cert.Spec.dot u r j : ℝ) : EReal) := by
  have el : ∀ k : Fin 256, lidx_main_v5 (ix2 r j) k = ix2 r k := fun k =>
    funext fun a => Fin.ext (by match a with | ⟨0, _⟩ => rfl | ⟨1, _⟩ => rfl)
  have er : ∀ k : Fin 256, idx_main_v4 (ridx_main_v5 (ix2 r j) k) = ix2 j k := fun k =>
    funext fun a => Fin.ext (by match a with | ⟨0, _⟩ => rfl | ⟨1, _⟩ => rfl)
  rw [val_main_v5_apply]
  unfold Cert.Spec.dot
  rw [Cert.RefSoftmax.coe_sum]
  refine Finset.sum_congr rfl fun k _ => ?_
  rw [val_main_v4_apply, el k, er k, hu r k, hu j k, EReal.coe_mul]

/-- The similarity divided by the temperature at `(r, j)`: twice the inner product of rows `r` and `j`. -/
theorem sim_apply (x0 x1 : FVec Ideal Cert.ReferenceIdeal.S4096x256 .f32) (u : Fin 8192 → Fin 256 → ℝ)
    (hu : ∀ (r : Fin 8192) (k : Fin 256),
      Cert.ReferenceIdeal.Read.val_main_v3 (F := Ideal) x0 x1 (ValueIdx.ix2 r k) = ((u r k : ℝ) : EReal))
    (r j : Fin 8192) :
    Cert.ReferenceIdeal.Read.val_main_v7 (F := Ideal) x0 x1 (ValueIdx.ix2 r j)
      = ((2 * Cert.Spec.dot u r j : ℝ) : EReal) := by
  rw [val_main_v7_apply, gram_apply x0 x1 u hu r j, val_main_v6_apply, val_main_cst_apply, Ideal.hostDivf_def,
    Ideal.ofBits_def, Cert.RefRowMax.ofBits_half, Ideal.div_coe (by norm_num), ← EReal.coe_mul]
  exact congrArg Real.toEReal (by ring)

end Cert.RefSim

end
-- ==== Proof.LibScatter.lean ====
/-
  A host `stablehlo.scatter` whose body returns the update (`x.at[…].set(u)`), read at an index. The scatter is the
  left fold, over the update indices in row-major order, of "replace the element at this update's result index"; an
  operand index that exactly one update index lands on holds that update's element, one that none lands on keeps the
  operand's. With every start index zero an update index lands at its window coordinates.
-/
import Idealize.ShloMosaic.PureOps.ShapeOps
import Idealize.ShloMosaic.Lib.ValueIdx

noncomputable section

namespace Cert.LibScatter

open Idealize.ShloMosaic

variable {α : Type} {s si u : Shape} {w : Nat}

/-- One step of the scatter's fold: update number `n` replaces the element at its result index, if it has one. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

/-- The scatter is the fold of `step`. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update lands elsewhere leaves the element at `i`. -/
theorem step_miss (d : ScatterDims s si u) (f : α → α → α) (idx : IVec si w) (upd : u.Idx → α) (r : s.Idx → α)
    (n : Fin u.numel) (i : s.Idx) (h : d.resultIdx? (u.rowMajor.symm n) idx ≠ some i) : step d f idx upd r n i = r i := by
  unfold step
  generalize d.resultIdx? (u.rowMajor.symm n) idx = o at h
  cases o with
  | none => rfl
  | some i0 =>
    show (if i = i0 then _ else r i) = r i
    rw [if_neg]
    intro e
    exact h (by rw [e])

/-- A step whose update lands on `i` and whose body returns the update puts the update's element there. -/
theorem step_hit (d : ScatterDims s si u) (idx : IVec si w) (upd : u.Idx → α) (r : s.Idx → α)
    (n : Fin u.numel) (i : s.Idx) (h : d.resultIdx? (u.rowMajor.symm n) idx = some i) :
    step d (fun _ b => b) idx upd r n i = upd (u.rowMajor.symm n) := by
  unfold step
  rw [h]
  show (if i = i then _ else r i) = _
  rw [if_pos rfl]

/-- Steps none of which lands on `i` leave the element at `i`. -/
theorem foldl_step_miss (d : ScatterDims s si u) (f : α → α → α) (idx : IVec si w) (upd : u.Idx → α) (i : s.Idx) :
    ∀ (L : List (Fin u.numel)) (r : s.Idx → α), (∀ n ∈ L, d.resultIdx? (u.rowMajor.symm n) idx ≠ some i) →
      L.foldl (step d f idx upd) r i = r i
  | [], _, _ => rfl
  | n :: L, r, h => by
    rw [List.foldl_cons, foldl_step_miss d f idx upd i L _ fun m hm => h m (List.mem_cons_of_mem _ hm)]
    exact step_miss d f idx upd r n i (h n List.mem_cons_self)

/-- Steps exactly one of which, number `n0`, lands on `i` leave update `n0`'s element there. -/
theorem foldl_step_hit (d : ScatterDims s si u) (idx : IVec si w) (upd : u.Idx → α) (i : s.Idx) (n0 : Fin u.numel)
    (h0 : d.resultIdx? (u.rowMajor.symm n0) idx = some i) :
    ∀ (L : List (Fin u.numel)) (r : s.Idx → α), L.Nodup → n0 ∈ L →
      (∀ n ∈ L, d.resultIdx? (u.rowMajor.symm n) idx = some i → n = n0) →
      L.foldl (step d (fun _ b => b) idx upd) r i = upd (u.rowMajor.symm n0)
  | [], _, _, hm, _ => absurd hm List.not_mem_nil
  | n :: L, r, hnd, hm, huniq => by
    rw [List.foldl_cons]
    by_cases hn : n = n0
    · subst hn
      have hmiss : ∀ m ∈ L, d.resultIdx? (u.rowMajor.symm m) idx ≠ some i := fun m hmL hres => by
        have e := huniq m (List.mem_cons_of_mem _ hmL) hres
        subst e
        exact (List.nodup_cons.mp hnd).1 hmL
      rw [foldl_step_miss d _ idx upd i L _ hmiss]
      exact step_hit d idx upd r n i h0
    · have hm' : n0 ∈ L := (List.mem_cons.mp hm).resolve_left fun e => hn e.symm
      exact foldl_step_hit d idx upd i n0 h0 L _ (List.nodup_cons.mp hnd).2 hm'
        fun m hmL => huniq m (List.mem_cons_of_mem _ hmL)

/-- An operand index no update index lands on keeps the operand's element. -/
theorem scatter_apply_of_miss (d : ScatterDims s si u) (f : α → α → α) (x : s.Idx → α) (idx : IVec si w) (upd : u.Idx → α)
    (i : s.Idx) (h : ∀ j, d.resultIdx? j idx ≠ some i) : Host.scatter d f x idx upd i = x i := by
  rw [scatter_eq_foldl]
  exact foldl_step_miss d f idx upd i _ x fun n _ => h _

/-- An operand index exactly one update index `j` lands on holds, after a scatter whose body returns the update, the
    update's element at `j`. -/
theorem scatter_set_apply_of_hit (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  rw [scatter_eq_foldl]
  have e : u.rowMajor.symm (u.rowMajor j) = j := u.rowMajor.symm_apply_apply j
  have h := foldl_step_hit d idx upd i (u.rowMajor j) (by rw [e]; exact hj) (List.finRange u.numel) x
    (List.nodup_finRange _) (List.mem_finRange _) fun n _ hn => by
      have := huniq _ hn
      exact (Equiv.symm_apply_eq _).mp this
  rw [h, e]

/-! ## Where an update index lands when every start index is zero -/

/-- With every word of the scatter indices zero, every window starts at zero. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

/-- Then update index `j` lands at its window coordinates, which are inside the operand. -/
theorem resultIdx?_of_zero (d : ScatterDims s si u) (j : u.Idx) (idx : IVec si w) (hidx : ∀ k, idx k = 0#w)
    (i : s.Idx) (hi : ∀ a, (i a).val = d.window j a) : d.resultIdx? j idx = some i := by
  unfold ScatterDims.resultIdx?
  have hc : ∀ a, 0 ≤ d.start j idx a + d.window j a ∧ d.start j idx a + d.window j a < s.size a := fun a => by
    rw [start_eq_zero d j idx hidx a, ← hi a]
    have := (i a).isLt
    omega
  rw [dif_pos hc]
  congr 1
  funext a
  refine Fin.ext ?_
  show (d.start j idx a + d.window j a).toNat = (i a).val
  rw [start_eq_zero d j idx hidx a, hi a]
  omega

end Cert.LibScatter

end
-- ==== Proof.LibDiagScatterTake.lean ====
/-
  Three shape operations read at an index, and the words they read.

  * A scatter of one element per row of a square array, window `r` landing at `(idx[r, 0], idx[r, 1])`: when both index
    words of every row read the row's own number, the result is the update on the diagonal and the operand elsewhere.
  * A gather along axis 1 with axis 0 a batching axis (one element per row, the column read off the start indices):
    the operand at `(r, idx[r, 0, 0])`, the column read signed and clamped.
  * A reduction by `and` of an array of ones from one is one.
  * A word `BitVec.ofNat 32 n` with `n < 2 ^ 31` reads `n` signed, and the wrap of a negative index
    `select (i < 0) (i + d) i` leaves a word that reads non-negative unchanged.
-/
import Idealize.ShloMosaic.Lib.ValueIdx
import Idealize.ShloMosaic.Lib.DynamicIndex
import Idealize.ShloMosaic.Lib.ReduceAll
import proofs.«134713_j12386685681710_2_alg».proof.Proof.LibScatter

noncomputable section

namespace Cert.RefIdxLib

open Idealize.ShloMosaic Idealize.ShloMosaic.ValueIdx

/-! ## Words -/

/-- The wrap of a negative index leaves a word that reads non-negative unchanged. -/
theorem wrap_of_nonneg (x d : BitVec 32) (h : 0 ≤ x.toInt) :
    Scalar.select (IntOp.cmpi .slt x 0#32) (IntOp.addi x d) x = x := by
  have hc : ¬ IntOp.cmpi .slt x 0#32 = 1#1 := by
    rw [IntOp.cmpi_slt, BitVec.toInt_zero]; omega
  rw [eq_zero_of_ne_one hc, select_zero]

/-- The wrap of a negative index at the word of a number below `2 ^ 31` is that word. -/
theorem wrap_ofNat (n : Nat) (hn : n < 2 ^ 31) (d : BitVec 32) :
    Scalar.select (IntOp.cmpi .slt (BitVec.ofNat 32 n) 0#32) (IntOp.addi (BitVec.ofNat 32 n) d) (BitVec.ofNat 32 n)
      = BitVec.ofNat 32 n :=
  wrap_of_nonneg _ d (by rw [toInt_ofNat_of_lt hn]; omega)

/-- The sum of two number words is the word of the sum. -/
theorem addi_ofNat (a b : Nat) : IntOp.addi (BitVec.ofNat 32 a) (BitVec.ofNat 32 b) = BitVec.ofNat 32 (a + b) :=
  (BitVec.ofNat_add a b).symm

/-! ## A reduction by `and` of ones -/

/-- A left fold by `and` from one over ones is one. -/
theorem foldl_andi_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_all_one f l fun n hn => h n (List.mem_cons_of_mem _ hn)

/-- A reduction by `and`, from one, of an array whose every element is one is one at every index. -/
theorem reduce_andi_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_all_one x _ fun i _ => hx i

/-! ## The scatter of one element per row of a square array -/

section Diag
variable {α : Type} {w : Nat}

/-- The dimension numbers of `x.at[i, j].set(u)` for index vectors `i, j : [N]`: no window axes, both operand axes
    inserted, the two index words of row `r` of the scatter indices `[N, 2]` the two coordinates. -/
abbrev diagDims (N : Nat) (wf : ScatterDims.WF ⟨2, ![N, N]⟩ ⟨2, ![N, 2]⟩ ⟨1, ![N]⟩ [] [0, 1] [0, 1] 1) :
    ScatterDims ⟨2, ![N, N]⟩ ⟨2, ![N, 2]⟩ ⟨1, ![N]⟩ where
  updateWindowDims := []
  insertedWindowDims := [0, 1]
  scatterDimsToOperandDims := [0, 1]
  indexVectorDim := 1
  wf := wf

variable {N : Nat} (wf : ScatterDims.WF ⟨2, ![N, N]⟩ ⟨2, ![N, 2]⟩ ⟨1, ![N]⟩ [] [0, 1] [0, 1] 1)

/-- Every window is one element: its coordinate is zero on both axes. -/
theorem diag_window (j : (⟨1, ![N]⟩ : Shape).Idx) (a : Fin 2) : (diagDims N wf).window j a = 0 := by
  unfold ScatterDims.window
  rw [dif_neg]
  intro h
  have : a ∉ (diagDims N wf).insertedWindowDims := by
    simpa [ScatterDims.sKept, Shape.kept, List.mem_filter, List.mem_finRange] using h
  apply this
  match a with
  | ⟨0, _⟩ => exact List.mem_cons_self
  | ⟨1, _⟩ => exact List.mem_cons_of_mem _ List.mem_cons_self

/-- The start of window `j` on axis 0 is the first index word of row `j`, read signed. -/
theorem diag_start0 (j : (⟨1, ![N]⟩ : Shape).Idx) (idx : IVec ⟨2, ![N, 2]⟩ w) :
    (diagDims N wf).start j idx 0 = (idx (ix2 (j 0) 0)).toInt := by
  unfold ScatterDims.start
  rw [dif_pos (show (0 : Fin 2) ∈ (diagDims N wf).scatterDimsToOperandDims from List.mem_cons_self)]
  have hsi : (diagDims N wf).siIdx j ⟨List.idxOf (0 : Fin 2) (diagDims N wf).scatterDimsToOperandDims,
      List.idxOf_lt_length_iff.2 List.mem_cons_self⟩ = ix2 (j 0) 0 := by
    funext b; refine Fin.ext ?_
    match b with
    | ⟨0, _⟩ => rfl
    | ⟨1, _⟩ => rfl
  rw [hsi]
  rfl

/-- The start of window `j` on axis 1 is the second index word of row `j`, read signed. -/
theorem diag_start1 (j : (⟨1, ![N]⟩ : Shape).Idx) (idx : IVec ⟨2, ![N, 2]⟩ w) :
    (diagDims N wf).start j idx 1 = (idx (ix2 (j 0) 1)).toInt := by
  unfold ScatterDims.start
  rw [dif_pos (show (1 : Fin 2) ∈ (diagDims N wf).scatterDimsToOperandDims from List.mem_cons_of_mem _ List.mem_cons_self)]
  have hsi : (diagDims N wf).siIdx j ⟨List.idxOf (1 : Fin 2) (diagDims N wf).scatterDimsToOperandDims,
      List.idxOf_lt_length_iff.2 (List.mem_cons_of_mem _ List.mem_cons_self)⟩ = ix2 (j 0) 1 := by
    funext b; refine Fin.ext ?_
    match b with
    | ⟨0, _⟩ => rfl
    | ⟨1, _⟩ => rfl
  rw [hsi]
  rfl

/-- Window `j` whose two index words read the coordinates `c0`, `c1` lands at `(c0, c1)`. -/
theorem diag_resultIdx? (j : (⟨1, ![N]⟩ : Shape).Idx) (idx : IVec ⟨2, ![N, 2]⟩ w) (c0 c1 : Fin N)
    (h0 : (idx (ix2 (j 0) 0)).toInt = c0.val) (h1 : (idx (ix2 (j 0) 1)).toInt = c1.val) :
    (diagDims N wf).resultIdx? j idx = some (ix2 c0 c1) := by
  unfold ScatterDims.resultIdx?
  have e0 : (diagDims N wf).start j idx 0 + (diagDims N wf).window j 0 = c0.val := by
    rw [diag_start0, diag_window, h0]; simp
  have e1 : (diagDims N wf).start j idx 1 + (diagDims N wf).window j 1 = c1.val := by
    rw [diag_start1, diag_window, h1]; simp
  have hc : ∀ a, 0 ≤ (diagDims N wf).start j idx a + (diagDims N wf).window j a ∧
      (diagDims N wf).start j idx a + (diagDims N wf).window j a < (⟨2, ![N, N]⟩ : Shape).size a := fun a => by
    match a with
    | ⟨0, _⟩ =>
      show 0 ≤ (diagDims N wf).start j idx 0 + (diagDims N wf).window j 0 ∧
        (diagDims N wf).start j idx 0 + (diagDims N wf).window j 0 < (N : Int)
      rw [e0]; have := c0.isLt; omega
    | ⟨1, _⟩ =>
      show 0 ≤ (diagDims N wf).start j idx 1 + (diagDims N wf).window j 1 ∧
        (diagDims N wf).start j idx 1 + (diagDims N wf).window j 1 < (N : Int)
      rw [e1]; have := c1.isLt; omega
  rw [dif_pos hc]
  congr 1
  funext a
  refine Fin.ext ?_
  match a with
  | ⟨0, _⟩ =>
    show ((diagDims N wf).start j idx 0 + (diagDims N wf).window j 0).toNat = c0.val
    rw [e0]; simp
  | ⟨1, _⟩ =>
    show ((diagDims N wf).start j idx 1 + (diagDims N wf).window j 1).toNat = c1.val
    rw [e1]; simp

/-- THE SCATTER READ AT `(r, j)`, when both index words of every row read the row's number: the update of row `r` on
    the diagonal, the operand off it. -/
theorem diag_scatter_apply (x : (⟨2, ![N, N]⟩ : Shape).Idx → α) (idx : IVec ⟨2, ![N, 2]⟩ w)
    (upd : (⟨1, ![N]⟩ : Shape).Idx → α) (hidx : ∀ (r : Fin N) (c : Fin 2), (idx (ix2 r c)).toInt = r.val) (r j : Fin N) :
    Host.scatter (diagDims N wf) (fun _ b => b) x idx upd (ix2 r j) = if j = r then upd (ix1 r) else x (ix2 r j) := by
  have hres : ∀ j' : (⟨1, ![N]⟩ : Shape).Idx, (diagDims N wf).resultIdx? j' idx = some (ix2 (j' 0) (j' 0)) :=
    fun j' => diag_resultIdx? wf j' idx (j' 0) (j' 0) (hidx _ 0) (hidx _ 1)
  by_cases h : j = r
  · subst h
    rw [if_pos rfl]
    refine Cert.LibScatter.scatter_set_apply_of_hit (diagDims N wf) x idx upd (ix2 j j) (ix1 j) (hres (ix1 j)) ?_
    intro j' hj'
    rw [hres j'] at hj'
    have e := congrFun (Option.some.inj hj') 0
    rw [eq_ix1 j']
    exact congrArg ix1 e
  · rw [if_neg h]
    refine Cert.LibScatter.scatter_apply_of_miss (diagDims N wf) _ x idx upd (ix2 r j) ?_
    intro j' hj'
    rw [hres j'] at hj'
    have e0 : j' 0 = r := congrFun (Option.some.inj hj') 0
    have e1 : j' 0 = j := congrFun (Option.some.inj hj') 1
    exact h (e1.symm.trans e0)

end Diag

/-! ## The gather of one element per row along axis 1 -/

section TakeAlong
variable {α : Type} {w : Nat}

/-- The dimension numbers of `take_along_axis(x, idx, axis = 1)` for `x : [N, M]` and one index per row, the start
    indices as `[N, 1, 1]`: axis 0 a batching axis of both, axis 1 collapsed and named by the one index word. -/
abbrev takeAlongDims (N M : Nat)
    (wf : GatherDims.WF ⟨2, ![N, M]⟩ ⟨3, ![N, 1, 1]⟩ ⟨2, ![N, 1]⟩ [] [1] [0] [1] [0] 2 ![1, 1]) :
    GatherDims ⟨2, ![N, M]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT ROW `y 0`: the operand at that row and at the column the row's index word reads, signed and
    clamped into `[0, M − 1]`. -/
theorem gather_takeAlong_apply {N M : Nat} (hM : 0 < M)
    (wf : GatherDims.WF ⟨2, ![N, M]⟩ ⟨3, ![N, 1, 1]⟩ ⟨2, ![N, 1]⟩ [] [1] [0] [1] [0] 2 ![1, 1])
    (x : (⟨2, ![N, M]⟩ : Shape).Idx → α) (idx : IVec ⟨3, ![N, 1, 1]⟩ w) (y : (⟨2, ![N, 1]⟩ : Shape).Idx) :
    Host.gather (takeAlongDims N M wf) x idx y
      = x (ix2 (y 0) ⟨min (idx (ix3 (y 0) 0 0)).toInt.toNat (M - 1), by omega⟩) := by
  unfold Host.gather
  congr 1
  funext a
  refine Fin.ext ?_
  match a with
  | ⟨0, _⟩ =>
    show (takeAlongDims N M wf).start y idx 0 + (takeAlongDims N M wf).batchCoord y 0
      + (takeAlongDims N M wf).offCoord y 0 = (y 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (takeAlongDims N M wf).operandBatchingDims from List.mem_singleton.mpr rfl)]
    rfl
  | ⟨1, _⟩ =>
    show (takeAlongDims N M wf).start y idx 1 + (takeAlongDims N M wf).batchCoord y 1
      + (takeAlongDims N M wf).offCoord y 1 = min (idx (ix3 (y 0) 0 0)).toInt.toNat (M - 1)
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeAlongDims N M wf).startIndexMap from List.mem_singleton.mpr rfl)]
    have hsi : (takeAlongDims N M wf).siIdx y ⟨List.idxOf (1 : Fin 2) (takeAlongDims N M wf).startIndexMap,
        List.idxOf_lt_length_iff.2 (List.mem_singleton.mpr rfl)⟩ = ix3 (y 0) 0 0 := by
      funext b
      match b with
      | ⟨0, _⟩ => exact Fin.ext rfl
      | ⟨1, _⟩ => exact Subsingleton.elim (α := Fin 1) _ _
      | ⟨2, _⟩ => exact Fin.ext rfl
    rw [hsi]
    rfl

end TakeAlong

end Cert.RefIdxLib

end
-- ==== Proof.RefIndexed.lean ====
/-
  The two index-dependent stages of the reference, read at an index.

  * The masked similarities: the scatter writes minus infinity at `(r, r)` for every row `r` (both index words of row `r`
    of the scatter indices are the word of `r`: an iota is never negative, so the wrap of a negative index leaves it), and
    nothing anywhere else.
  * The taken log-probabilities: the label of row `r` is the word of `(r + 4096) mod 8192` (the concatenation of
    `4096 + iota` and `iota`), which is within `[0, 8191]`, so the wrap leaves it, the bounds test passes in every row, the
    clamp of the gather is the identity, and the gathered element is the log-probability at `(r, partner r)`.
-/
import proofs.«134713_j12386685681710_2_alg».proof.Proof.ReadP
import proofs.«134713_j12386685681710_2_alg».proof.Proof.Spec
import proofs.«134713_j12386685681710_2_alg».proof.Proof.LibDiagScatterTake

noncomputable section

namespace Cert.RefIndexed

open Cert.ReferenceIdeal Cert.ReferenceIdeal.Gen Cert.ReferenceIdeal.Read Idealize.ShloMosaic Idealize.ShloMosaic.ValueIdx
  Cert.RefIdxLib

/-! ## The scatter indices: both words of row `r` are the word of `r` -/

/-- A row number is below `2 ^ 31`. -/
theorem row_lt (i : S8192.Idx) : (i 0).val < 2 ^ 31 := by
  have : (i 0).val < 8192 := (i 0).isLt
  omega

/-- The first index vector, after the wrap of negative indices, is the iota. -/
theorem v13_apply (i : S8192.Idx) : val_main_v13 (F := Ideal) i = BitVec.ofNat 32 (i 0).val := by
  rw [val_main_v13_apply, val_main_v10_apply, val_main_v12_apply, val_main_v8_apply, val_main_v9_apply, val_main_c_apply,
    val_main_v11_apply, val_main_c_0_apply]
  exact wrap_ofNat _ (row_lt i) _

/-- The second index vector, after the wrap of negative indices, is the iota. -/
theorem v18_apply (i : S8192.Idx) : val_main_v18 (F := Ideal) i = BitVec.ofNat 32 (i 0).val := by
  rw [val_main_v18_apply, val_main_v15_apply, val_main_v17_apply, val_main_v8_apply, val_main_v14_apply, val_main_c_1_apply,
    val_main_v16_apply, val_main_c_2_apply]
  exact wrap_ofNat _ (row_lt i) _

/-- The first index vector as a column. -/
theorem v19_apply (i : S8192x1.Idx) : val_main_v19 (F := Ideal) i = BitVec.ofNat 32 (i 0).val :=
  (val_main_v19_apply i).trans (v13_apply _)

/-- The second index vector as a column. -/
theorem v20_apply (i : S8192x1.Idx) : val_main_v20 (F := Ideal) i = BitVec.ofNat 32 (i 0).val :=
  (val_main_v20_apply i).trans (v18_apply _)

/-- Both words of row `r` of the scatter indices are the word of `r`. -/
theorem v21_apply (r : Fin 8192) (c : Fin 2) : val_main_v21 (F := Ideal) (ix2 r c) = BitVec.ofNat 32 r.val := by
  unfold val_main_v21
  match c with
  | ⟨0, _⟩ =>
    rw [concatenate_pair_apply_left (1 : Fin S8192x2.rank) _ _ concatenates_S8192x1_S8192x1_S8192x2_d1 _ rfl
      (ix2 r 0 : S8192x1.Idx) (fun b => by match b with | ⟨0, _⟩ => rfl | ⟨1, _⟩ => rfl)]
    exact v19_apply _
  | ⟨1, _⟩ =>
    rw [concatenate_pair_apply_right (1 : Fin S8192x2.rank) _ _ concatenates_S8192x1_S8192x1_S8192x2_d1 _ rfl rfl
      (ix2 r 0 : S8192x1.Idx) (fun b hb => by match b, hb with | ⟨0, _⟩, _ => rfl | ⟨1, _⟩, hb => exact (hb rfl).elim) rfl]
    exact v20_apply _

/-- Read signed, both words of row `r` are `r`. -/
theorem v21_toInt (r : Fin 8192) (c : Fin 2) : (val_main_v21 (F := Ideal) (ix2 r c)).toInt = r.val := by
  rw [v21_apply, toInt_ofNat_of_lt (by have := r.isLt; omega)]

/-! ## The masked similarities -/

/-- The word `0xFF800000` is minus infinity. -/
theorem neg_inf : FloatOps.ofBits (F := Ideal) .f32 0xFF800000#32 = (⊥ : EReal) := by
  rw [Ideal.ofBits_def]
  simp [Ideal.ofBits, Ideal.ieee]

/-- The masked similarities at `(r, j)`: minus infinity on the diagonal, the similarity off it. -/
theorem masked_apply (x0 x1 : FVec Ideal Cert.ReferenceIdeal.S4096x256 .f32) (r j : Fin 8192) :
    Cert.ReferenceIdeal.Read.val_main_v23 (F := Ideal) x0 x1 (ValueIdx.ix2 r j)
      = if j = r then (⊥ : EReal) else Cert.ReferenceIdeal.Read.val_main_v7 (F := Ideal) x0 x1 (ValueIdx.ix2 r j) := by
  unfold val_main_v23
  have h := diag_scatter_apply (N := 8192) scatter_S8192x8192_S8192x2_S8192_n_01_01_1_wf (val_main_v7 (F := Ideal) x0 x1)
    (val_main_v21 (F := Ideal)) (val_main_v22 (F := Ideal)) v21_toInt r j
  refine h.trans ?_
  rw [val_main_v22_apply, val_main_cst_3_apply, neg_inf]

/-! ## The labels: row `r`'s is the word of `(r + 4096) mod 8192` -/

/-- The labels. -/
theorem v28_apply (i : S8192.Idx) : val_main_v28 (F := Ideal) i = BitVec.ofNat 32 (((i 0).val + 4096) % 8192) := by
  unfold val_main_v28
  have hi8 : (i 0).val < 8192 := (i 0).isLt
  by_cases h : (i 0).val < 4096
  · rw [concatenate_pair_apply_left (0 : Fin S8192.rank) _ _ concatenates_S4096_S4096_S8192_d0 i rfl
      (ix1 ⟨(i 0).val, h⟩ : S4096.Idx) (fun b => by match b with | ⟨0, _⟩ => rfl)]
    rw [val_main_v26_apply, val_main_v25_apply, val_main_c_4_apply, val_main_v24_apply, addi_ofNat]
    refine congrArg (BitVec.ofNat 32) ?_
    show 4096 + (i 0).val = ((i 0).val + 4096) % 8192
    omega
  · rw [concatenate_pair_apply_right (0 : Fin S8192.rank) _ _ concatenates_S4096_S4096_S8192_d0 i rfl rfl
      (ix1 ⟨(i 0).val - 4096, by omega⟩ : S4096.Idx) (fun b hb => by match b, hb with | ⟨0, _⟩, hb => exact (hb rfl).elim)
      (by show (i 0).val - 4096 + 4096 = (i 0).val; omega)]
    rw [val_main_v27_apply]
    refine congrArg (BitVec.ofNat 32) ?_
    show (i 0).val - 4096 = ((i 0).val + 4096) % 8192
    omega

/-- The labels as a column. -/
theorem v30_apply (i : S8192x1.Idx) : val_main_v30 (F := Ideal) i = BitVec.ofNat 32 (((i 0).val + 4096) % 8192) :=
  (val_main_v30_apply i).trans (v28_apply _)

/-- The wrap of negative labels leaves them. -/
theorem c2v4_apply (i : S8192x1.Idx) :
    val_main_call2_v4 (F := Ideal) i = BitVec.ofNat 32 (((i 0).val + 4096) % 8192) := by
  rw [val_main_call2_v4_apply, val_main_call2_v1_apply, val_main_call2_v3_apply, v30_apply, val_main_call2_v0_apply,
    val_main_call2_c_apply, val_main_call2_v2_apply, val_main_call2_c_0_apply]
  exact wrap_ofNat _ (by omega) _

/-- The start indices of the gather. -/
theorem c2v5_apply (i : S8192x1x1.Idx) :
    val_main_call2_v5 (F := Ideal) i = BitVec.ofNat 32 (((i 0).val + 4096) % 8192) := by
  have e : ((idx_main_call2_v5 i) 0).val = (i 0).val := by
    have h1 : (i 1).val < 1 := (i 1).isLt
    have h2 : (i 2).val < 1 := (i 2).isLt
    show (((i 0).val * 1 + (i 1).val) * 1 + (i 2).val) / 1 = (i 0).val
    omega
  rw [val_main_call2_v5_apply, c2v4_apply, e]

/-- Every label is within the bounds. -/
theorem c2v11_apply (i : S8192x1x1.Idx) : val_main_call2_v11 (F := Ideal) i = 1#1 := by
  have hlt : ((i 0).val + 4096) % 8192 < 2 ^ 31 := by omega
  rw [val_main_call2_v11_apply, IntOp.andi_eq_one]
  constructor
  · rw [val_main_call2_v7_apply, IntOp.cmpi_sge, val_main_call2_v6_apply, val_main_call2_c_2_apply, c2v5_apply,
      toInt_ofNat_of_lt hlt, BitVec.toInt_zero]
    omega
  · rw [val_main_call2_v10_apply, IntOp.cmpi_sle, val_main_call2_v9_apply, val_main_call2_v8_apply,
      val_main_call2_c_1_apply, c2v5_apply, toInt_ofNat_of_lt hlt, toInt_ofNat_of_lt (by norm_num : 8191 < 2 ^ 31)]
    omega

/-- The bounds test passes in every row. -/
theorem c2v12_apply (i : S8192x1.Idx) : val_main_call2_v12 (F := Ideal) i = 1#1 := by
  unfold val_main_call2_v12
  exact reduce_andi_of_all_one _ _ _ _ i rfl c2v11_apply

/-! ## The taken log-probabilities -/

/-- The taken log-probability of row `r` is the log-probability at `(r, partner r)`. -/
theorem taken_apply (x0 x1 : FVec Ideal Cert.ReferenceIdeal.S4096x256 .f32) (r : Fin 8192) :
    Cert.ReferenceIdeal.Read.val_main_v31 (F := Ideal) x0 x1 (ValueIdx.ix2 r 0)
      = Cert.ReferenceIdeal.Read.val_main_v29 (F := Ideal) x0 x1 (ValueIdx.ix2 r (Cert.Spec.partner r)) := by
  rw [val_main_v31_apply, c2v12_apply, select_one]
  unfold val_main_call2_v13
  have h := gather_takeAlong_apply (N := 8192) (M := 8192) (by norm_num)
    gather_S8192x8192_S8192x1x1_S8192x1_n_1_0_0_1_2_11_wf (val_main_v29 (F := Ideal) x0 x1)
    (val_main_call2_v5 (F := Ideal)) (ix2 r 0)
  refine h.trans ?_
  have hcol : min (val_main_call2_v5 (F := Ideal) (ix3 r 0 0)).toInt.toNat (8192 - 1) = (Cert.Spec.partner r).val := by
    have hr : r.val < 8192 := r.isLt
    rw [c2v5_apply, toInt_ofNat_of_lt (by omega)]
    show min (((r.val + 4096) % 8192 : Nat) : Int).toNat (8192 - 1) = (r.val + 4096) % 8192
    omega
  exact congrArg (val_main_v29 (F := Ideal) x0 x1) (congrArg (ix2 r) (Fin.ext hcol))

end Cert.RefIndexed

end
-- ==== Proof.RefValue.lean ====
import proofs.«134713_j12386685681710_2_alg».proof.Proof.ReadP
import proofs.«134713_j12386685681710_2_alg».proof.Proof.Spec
import proofs.«134713_j12386685681710_2_alg».proof.Proof.RefSoftmax
import proofs.«134713_j12386685681710_2_alg».proof.Proof.RefRowMax
import proofs.«134713_j12386685681710_2_alg».proof.Proof.RefSim
import proofs.«134713_j12386685681710_2_alg».proof.Proof.RefIndexed

/-!
# The reference's result is the loss of the specification

Row by row. With `u` the matrix of the normalised rows as real numbers, the reference's masked similarity matrix has at
`(r, j)` the real number `2 · ⟨u r, u j⟩` for `j ≠ r` and `-∞` on the diagonal. Its log-softmax shifts row `r` by the
row's maximum, which is a real number (the row has 8191 real entries and one `-∞`); the diagonal entry contributes
`exp (-∞) = 0` to the sum of exponentials, and the shift cancels, so the log-softmax at the partner column is
`2 · ⟨u r, u (partner r)⟩ - log ∑_{j ≠ r} exp (2 · ⟨u r, u j⟩)`, the negated row term of the specification. The
result is the negated mean of these 8192 real numbers.
-/

noncomputable section

namespace Cert.RefValue

open Idealize.ShloMosaic Idealize.ShloMosaic.ValueIdx Cert.ReferenceIdeal Cert.ReferenceIdeal.Gen Cert.ReferenceIdeal.Read
open scoped BigOperators

/-- The log-softmax of the masked similarity matrix at row `r` and its partner column: the negated row term. -/
theorem logp_partner (x0 x1 : FVec Ideal Cert.ReferenceIdeal.S4096x256 .f32) (u : Fin 8192 → Fin 256 → ℝ)
    (hu : ∀ (r : Fin 8192) (k : Fin 256),
      Cert.ReferenceIdeal.Read.val_main_v3 (F := Ideal) x0 x1 (ValueIdx.ix2 r k) = ((u r k : ℝ) : EReal))
    (r : Fin 8192) :
    Cert.ReferenceIdeal.Read.val_main_v29 (F := Ideal) x0 x1 (ValueIdx.ix2 r (Cert.Spec.partner r))
      = ((-(Cert.Spec.rowLoss u r) : ℝ) : EReal) := by
  -- the masked row: real off the diagonal, -∞ on it
  have hm : ∀ j : Fin 8192, val_main_v23 (F := Ideal) x0 x1 (ix2 r j)
      = if j = r then (⊥ : EReal) else ((2 * Cert.Spec.dot u r j : ℝ) : EReal) := fun j => by
    rw [Cert.RefIndexed.masked_apply]
    by_cases h : j = r
    · rw [if_pos h, if_pos h]
    · rw [if_neg h, if_neg h, Cert.RefSim.sim_apply x0 x1 u hu r j]
  -- the row maximum is a real number c
  obtain ⟨c, hc⟩ := Cert.RefSoftmax.rowmax_real (fun j => 2 * Cert.Spec.dot u r j) r (Cert.Spec.partner r)
    (Cert.Spec.partner_ne r) (fun j => val_main_v23 (F := Ideal) x0 x1 (ix2 r j)) hm
  have hmax : val_main_call1_v0 (F := Ideal) x0 x1 (ix1 r) = (c : EReal) := by
    unfold val_main_call1_v0
    rw [Cert.RefRowMax.reduce_max_row, val_main_call1_cst_apply, Ideal.ofBits_def, Cert.RefRowMax.ofBits_negInf]
    exact hc
  -- the shift broadcast along row r
  have hshift : ∀ j : Fin 8192, val_main_call1_v4 (F := Ideal) x0 x1 (ix2 r j) = (c : EReal) := fun j => by
    have ei : idx_main_call1_v3 (idx_main_call1_v4 (ix2 r j)) = ix1 r :=
      funext fun a => Fin.ext (by match a with | ⟨0, _⟩ => rfl)
    rw [val_main_call1_v4_apply, val_main_call1_v3_apply, ei, val_main_call1_v2_apply, val_main_call1_v1_apply,
      val_main_call1_cst_0_apply, hmax, Ideal.maximumf_def, Ideal.ofBits_def, Cert.RefRowMax.ofBits_negInf]
    exact max_eq_right bot_le
  have hv5 : ∀ j : Fin 8192, val_main_call1_v5 (F := Ideal) x0 x1 (ix2 r j)
      = val_main_v23 (F := Ideal) x0 x1 (ix2 r j) - (c : EReal) := fun j => by
    rw [val_main_call1_v5_apply, hshift j, Ideal.subf_def]
  -- the logarithm of the row's sum of exponentials, broadcast along row r
  have hlog : ∀ j : Fin 8192, val_main_call1_v10 (F := Ideal) x0 x1 (ix2 r j)
      = Ideal.log ((0 : EReal) + ∑ k : Fin 8192, Ideal.exp (val_main_v23 (F := Ideal) x0 x1 (ix2 r k) - (c : EReal))) := fun j => by
    have ei : idx_main_call1_v8 (idx_main_call1_v10 (ix2 r j)) = ix1 r :=
      funext fun a => Fin.ext (by match a with | ⟨0, _⟩ => rfl)
    have ek : ∀ k : Fin 8192, idx_main_call1_v7 (ix1 r) k = ix2 r k := fun k =>
      funext fun a => Fin.ext (by match a with | ⟨0, _⟩ => rfl | ⟨1, _⟩ => rfl)
    rw [val_main_call1_v10_apply, val_main_call1_v9_apply, val_main_call1_v8_apply, ei, val_main_call1_v7_apply,
      val_main_call1_cst_1_apply, Ideal.hostUnary_log_def, Ideal.ofBits_def, Ideal.ofBits_zero_f32]
    refine congrArg (fun s => Ideal.log ((0 : EReal) + s)) (Finset.sum_congr rfl fun k _ => ?_)
    rw [ek k, val_main_call1_v6_apply, Ideal.hostUnary_exp_def, hv5 k]
  have key := Cert.RefSoftmax.row_value (fun j => 2 * Cert.Spec.dot u r j) r (Cert.Spec.partner r)
    (Cert.Spec.partner_ne r) (fun j => val_main_v23 (F := Ideal) x0 x1 (ix2 r j)) hm c
  rw [val_main_v29_apply, Ideal.subf_def, hv5, hlog]
  refine key.trans (congrArg Real.toEReal ?_)
  unfold Cert.Spec.rowLoss
  ring

/-- The reference's result: the loss of the specification at the matrix of normalised rows. -/
theorem ref_result (x0 x1 : FVec Ideal Cert.ReferenceIdeal.S4096x256 .f32) (u : Fin 8192 → Fin 256 → ℝ)
    (hu : ∀ (r : Fin 8192) (k : Fin 256),
      Cert.ReferenceIdeal.Read.val_main_v3 (F := Ideal) x0 x1 (ValueIdx.ix2 r k) = ((u r k : ℝ) : EReal)) :
    Cert.ReferenceIdeal.Read.val_main_v34 (F := Ideal) x0 x1 = fun _ => ((Cert.Spec.loss u : ℝ) : EReal) := by
  funext i
  -- the sum over the [8192, 1] array of the taken entries is the sum over the rows of the negated row terms
  have hsum : ∑ j : S8192x1.Idx, val_main_v31 (F := Ideal) x0 x1 j
      = ((∑ r : Fin 8192, -(Cert.Spec.rowLoss u r) : ℝ) : EReal) := by
    rw [ValueIdx.sum_idx2, Cert.RefSoftmax.coe_sum]
    refine Finset.sum_congr rfl fun r _ => ?_
    rw [Fin.sum_univ_one, Cert.RefIndexed.taken_apply, logp_partner x0 x1 u hu r]
  rw [val_main_v34_apply, val_main_v33_apply, val_main_v32_apply, val_main_cst_5_apply, val_main_cst_6_apply, hsum,
    Ideal.hostNegf_def, Ideal.negf_def, Ideal.hostDivf_def, Ideal.ofBits_def, Ideal.ofBits_def, Ideal.ofBits_zero_f32,
    Cert.RefRowMax.ofBits_8192, zero_add, Ideal.div_coe (by norm_num), ← EReal.coe_mul, ← EReal.coe_neg]
  refine congrArg Real.toEReal ?_
  unfold Cert.Spec.loss
  exact Cert.RefSoftmax.neg_mean_neg _ _ _

end Cert.RefValue

end
-- ==== Proof.NormAlg.lean ====
/-
  The algebra of normalising one row of real numbers: with s = Σ z_k² > 0, the idealized square root of 0 + Σ z_k·z_k is
  the real √s, the idealized quotient z_k / √s is the real quotient, and the squares of the quotients sum to 1.
-/
import Idealize.ShloMosaic.PureOps.Ideal.Laws

noncomputable section

namespace Cert.Normalized

open Idealize.ShloMosaic

/-- The embedding of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of squares of reals, computed in the extended reals, is the real sum of squares. -/
theorem sum_sq_coe {n : Nat} (z : Fin n → ℝ) :
    ∑ k, (z k : EReal) * (z k : EReal) = ((∑ k, z k * z k : ℝ) : EReal) := by
  rw [coe_sum]; exact Finset.sum_congr rfl fun k _ => (EReal.coe_mul _ _).symm

/-- The norm of a row: the idealized square root of `0 + Σ z_k·z_k` is the real square root of the sum of squares. -/
theorem sqrt_row {n : Nat} (z : Fin n → ℝ) (hs : 0 < ∑ k, z k * z k) :
    Ideal.sqrt (0 + ∑ k, (z k : EReal) * (z k : EReal)) = ((Real.sqrt (∑ k, z k * z k) : ℝ) : EReal) := by
  rw [zero_add, sum_sq_coe, Ideal.sqrt_coe, if_neg (not_lt.2 hs.le)]

/-- A real divided by the square root of a positive real, in the idealized division, is the real quotient. -/
theorem div_sqrt (a s : ℝ) (hs : 0 < s) :
    Ideal.div (a : EReal) ((Real.sqrt s : ℝ) : EReal) = ((a / Real.sqrt s : ℝ) : EReal) := by
  have h : Real.sqrt s ≠ 0 := (Real.sqrt_pos.2 hs).ne'
  rw [Ideal.div_coe h, ← EReal.coe_mul, mul_one_div]

/-- The normalised row has unit length: Σ (z_k/√s)² = s/s = 1. -/
theorem sum_sq_normalized {n : Nat} (z : Fin n → ℝ) (hs : 0 < ∑ k, z k * z k) :
    ∑ k, (z k / Real.sqrt (∑ j, z j * z j)) * (z k / Real.sqrt (∑ j, z j * z j)) = 1 := by
  have e : ∀ k, (z k / Real.sqrt (∑ j, z j * z j)) * (z k / Real.sqrt (∑ j, z j * z j))
      = (z k * z k) / (∑ j, z j * z j) := fun k => by
    rw [div_mul_div_comm, Real.mul_self_sqrt hs.le]
  rw [Finset.sum_congr rfl fun k _ => e k, ← Finset.sum_div]
  exact div_self hs.ne'

end Cert.Normalized

end
-- ==== Proof.NormPre.lean ====
/-
  The precondition, read back as two facts about each argument: every entry is a real number, and every row has a
  positive sum of squares.
-/
import proofs.«134713_j12386685681710_2_alg».proof.Proof.Gen.Pre_finite_inputs
import Idealize.ShloMosaic.Lib.ReduceAll
import Idealize.ShloMosaic.Lib.ValueIdx
import Idealize.ShloMosaic.PureOps.Ideal.Laws
import proofs.«134713_j12386685681710_2_alg».proof.Proof.NormAlg

noncomputable section

namespace Cert.Normalized

open Idealize.ShloMosaic Idealize.ShloMosaic.ValueIdx

/-- The scalar shape has one index. -/
instance subsingleton_scalar_idx : Subsingleton (⟨0, ![]⟩ : Shape).Idx := ⟨fun a b => funext fun d => d.elim0⟩

/-- The word 0x7F800000 denotes +∞. -/
theorem ofBits_inf : Ideal.ofBits .f32 0x7F800000#32 = (⊤ : EReal) := by simp [Ideal.ofBits, Ideal.ieee]

/-- The word 0x00000000 denotes 0. -/
theorem ofBits_zero : Ideal.ofBits .f32 0x00000000#32 = (0 : EReal) := by simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- An ordered comparison that came out 1, read as the order relation. -/
theorem lt_of_cmp_olt {a b : EReal} (h : Ideal.cmp .olt a b = 1#1) : a < b := by
  by_contra hn
  simp [Ideal.cmp, hn] at h

theorem lt_of_cmp_ogt {a b : EReal} (h : Ideal.cmp .ogt a b = 1#1) : b < a := by
  by_contra hn
  simp [Ideal.cmp, hn] at h

/-- `all (|x| < +∞)`: every entry of `x` is a real number. -/
theorem real_of_all_abs_lt_inf {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ix0 = 1#1)
    (i : s.Idx) : ∃ r : ℝ, x i = (r : EReal) := by
  have e := Host.reduce_andi_all _ _ hr hu _ h i
  have e' : Ideal.cmp .olt (max (x i) (-(x i))) (Ideal.ofBits .f32 0x7F800000#32) = 1#1 := e
  rw [ofBits_inf] at e'
  exact real_of_abs_lt_top _ (lt_of_cmp_olt e')

/-- `all (sum_k x[r,k]² > 0)`: every row of `x` has a positive sum of squares. -/
theorem rows_pos_of_all_gt_zero (x : FVec Ideal (⟨2, ![4096, 256]⟩ : Shape) .f32)
    (hr1 : (⟨2, ![4096, 256]⟩ : Shape).ReducesTo [1] (⟨1, ![4096]⟩ : Shape)) (hu : 0 < (⟨0, ![]⟩ : Shape).numel)
    (hb : (⟨0, ![]⟩ : Shape).BroadcastsInDim (⟨1, ![4096]⟩ : Shape) (![] : Fin 0 → Fin (⟨1, ![4096]⟩ : Shape).rank))
    (hr0 : (⟨1, ![4096]⟩ : Shape).ReducesTo [0] (⟨0, ![]⟩ : Shape))
    (h : Host.reduce IntOp.andi
          (cmpf .ogt (Host.reduceAdd (mulf x x) (constant (F := Ideal) (⟨0, ![]⟩ : Shape) .f32 0x00000000#32) hr1 hu)
            (broadcastInDim (⟨1, ![4096]⟩ : Shape) ![] hb (constant (F := Ideal) (⟨0, ![]⟩ : Shape) .f32 0x00000000#32)))
          (constantI (⟨0, ![]⟩ : Shape) 1 1#1) hr0 hu ix0 = 1#1)
    (r : Fin 4096) : (0 : EReal) < 0 + ∑ k : Fin 256, x (ix2 r k) * x (ix2 r k) := by
  have e := Host.reduce_andi_all _ _ hr0 hu _ h (ix1 r)
  have e' : Ideal.cmp .ogt (Ideal.hostReduceAdd hr1 (mulf x x) (Ideal.ofBits .f32 0x00000000#32) (ix1 r))
      (Ideal.ofBits .f32 0x00000000#32) = 1#1 := e
  rw [Ideal.hostReduceAdd_single hr1 (by decide), ofBits_zero] at e'
  have e2 := lt_of_cmp_ogt e'
  refine lt_of_lt_of_eq e2 (congrArg (0 + ·) (Finset.sum_congr rfl fun k _ => ?_))
  have hi : (Shape.Reduces.lift (s := (⟨2, ![4096, 256]⟩ : Shape)) (t := (⟨1, ![4096]⟩ : Shape)) (a := 1) (by decide) (ix1 r) k) = ix2 r k :=
    funext fun a => Fin.ext (by match a with | ⟨0, _⟩ => rfl | ⟨1, _⟩ => rfl)
  rw [hi]; rfl

/-- One argument's two facts together: its entries are real numbers `a r k`, and every row of them has a positive sum
    of squares. -/
theorem exists_reals (x : FVec Ideal (⟨2, ![4096, 256]⟩ : Shape) .f32)
    (hf : ∀ i, ∃ r : ℝ, x i = (r : EReal))
    (hp : ∀ r : Fin 4096, (0 : EReal) < 0 + ∑ k : Fin 256, x (ix2 r k) * x (ix2 r k)) :
    ∃ a : Fin 4096 → Fin 256 → ℝ, (∀ r k, x (ix2 r k) = ((a r k : ℝ) : EReal)) ∧ ∀ r, 0 < ∑ k, a r k * a r k := by
  choose f hf using hf
  refine ⟨fun r k => f (ix2 r k), fun r k => hf _, fun r => ?_⟩
  have h := hp r
  rw [zero_add, Finset.sum_congr rfl fun k _ => show x (ix2 r k) * x (ix2 r k)
      = ((f (ix2 r k) : ℝ) : EReal) * ((f (ix2 r k) : ℝ) : EReal) by rw [hf]] at h
  rw [sum_sq_coe (fun k => f (ix2 r k))] at h
  exact EReal.coe_pos.1 h

/-- The precondition read back: the entries of both arguments are real numbers, and every row of each has a positive
    sum of squares. -/
theorem pre_decode (x0 x1 : FVec Ideal Cert.Pre_finite_inputs.S4096x256 .f32)
    (hpre : @Cert.Pre_finite_inputs.fn Cert.Pre_finite_inputs.Gen.facts Ideal _ x0 x1 = fun _ => 1#1) :
    (∃ a : Fin 4096 → Fin 256 → ℝ, (∀ r k, x0 (ix2 r k) = ((a r k : ℝ) : EReal)) ∧ ∀ r, 0 < ∑ k, a r k * a r k)
    ∧ ∃ a : Fin 4096 → Fin 256 → ℝ, (∀ r k, x1 (ix2 r k) = ((a r k : ℝ) : EReal)) ∧ ∀ r, 0 < ∑ k, a r k * a r k := by
  have h : IntOp.andi (IntOp.andi (IntOp.andi _ _) _) _ = 1#1 := congrFun hpre ix0
  obtain ⟨h123, h4⟩ := IntOp.andi_eq_one.1 h
  obtain ⟨h12, h3⟩ := IntOp.andi_eq_one.1 h123
  obtain ⟨h1, h2⟩ := IntOp.andi_eq_one.1 h12
  exact ⟨exists_reals x0 (real_of_all_abs_lt_inf x0 _ _ _ h1) (rows_pos_of_all_gt_zero x0 _ _ _ _ h3),
    exists_reals x1 (real_of_all_abs_lt_inf x1 _ _ _ h2) (rows_pos_of_all_gt_zero x1 _ _ _ _ h4)⟩

end Cert.Normalized

end
-- ==== Proof.NormCat.lean ====
/-
  The concatenation of two [4096, 256] arrays along the rows, read at an index: row r of the result is row r of the first
  array for r < 4096 and row r − 4096 of the second otherwise. With the entries of both arrays real numbers whose rows
  have positive sums of squares, so are the rows of the result.
-/
import Idealize.ShloMosaic.Lib.Pipeline.Value
import Idealize.ShloMosaic.Lib.ValueIdx

noncomputable section

namespace Cert.Normalized

open Idealize.ShloMosaic Idealize.ShloMosaic.ValueIdx

section
variable {α : Type}

/-- A row above the seam comes from the first array. -/
theorem concat_rows_left (x0 x1 : (⟨2, ![4096, 256]⟩ : Shape).Idx → α)
    (h : Shape.Concatenates [(⟨2, ![4096, 256]⟩ : Shape), (⟨2, ![4096, 256]⟩ : Shape)] (⟨2, ![8192, 256]⟩ : Shape) 0)
    (r : Fin 8192) (k : Fin 256) (hr : r.val < 4096) :
    concatenate (⟨2, ![8192, 256]⟩ : Shape) 0 [⟨(⟨2, ![4096, 256]⟩ : Shape), x0⟩, ⟨(⟨2, ![4096, 256]⟩ : Shape), x1⟩] h (ix2 r k)
      = x0 (ix2 ⟨r.val, hr⟩ k) :=
  concatenate_pair_apply_left 0 x0 x1 h (ix2 r k) rfl (ix2 ⟨r.val, hr⟩ k)
    (fun b => match b with | ⟨0, _⟩ => rfl | ⟨1, _⟩ => rfl)

/-- A row at or below the seam comes from the second array, 4096 rows up. -/
theorem concat_rows_right (x0 x1 : (⟨2, ![4096, 256]⟩ : Shape).Idx → α)
    (h : Shape.Concatenates [(⟨2, ![4096, 256]⟩ : Shape), (⟨2, ![4096, 256]⟩ : Shape)] (⟨2, ![8192, 256]⟩ : Shape) 0)
    (r : Fin 8192) (k : Fin 256) (hr : 4096 ≤ r.val) :
    concatenate (⟨2, ![8192, 256]⟩ : Shape) 0 [⟨(⟨2, ![4096, 256]⟩ : Shape), x0⟩, ⟨(⟨2, ![4096, 256]⟩ : Shape), x1⟩] h (ix2 r k)
      = x1 (ix2 ⟨r.val - 4096, by have := r.isLt; omega⟩ k) :=
  concatenate_pair_apply_right 0 x0 x1 h (ix2 r k) rfl rfl (ix2 ⟨r.val - 4096, by have := r.isLt; omega⟩ k)
    (fun b hb => match b, hb with | ⟨0, _⟩, hb => absurd rfl hb | ⟨1, _⟩, _ => rfl)
    (by show r.val - 4096 + 4096 = r.val; omega)

end

/-- The rows of the concatenation of two real arrays. -/
def rows (a0 a1 : Fin 4096 → Fin 256 → ℝ) (r : Fin 8192) (k : Fin 256) : ℝ :=
  if h : r.val < 4096 then a0 ⟨r.val, h⟩ k else a1 ⟨r.val - 4096, by have := r.isLt; omega⟩ k

/-- The concatenation of two arrays of real numbers is the array of real numbers `rows`. -/
theorem concat_eq_rows (x0 x1 : (⟨2, ![4096, 256]⟩ : Shape).Idx → EReal) (a0 a1 : Fin 4096 → Fin 256 → ℝ)
    (h0 : ∀ r k, x0 (ix2 r k) = ((a0 r k : ℝ) : EReal)) (h1 : ∀ r k, x1 (ix2 r k) = ((a1 r k : ℝ) : EReal))
    (h : Shape.Concatenates [(⟨2, ![4096, 256]⟩ : Shape), (⟨2, ![4096, 256]⟩ : Shape)] (⟨2, ![8192, 256]⟩ : Shape) 0)
    (r : Fin 8192) (k : Fin 256) :
    concatenate (⟨2, ![8192, 256]⟩ : Shape) 0 [⟨(⟨2, ![4096, 256]⟩ : Shape), x0⟩, ⟨(⟨2, ![4096, 256]⟩ : Shape), x1⟩] h (ix2 r k)
      = ((rows a0 a1 r k : ℝ) : EReal) := by
  unfold rows
  by_cases hr : r.val < 4096
  · rw [dif_pos hr, concat_rows_left x0 x1 h r k hr, h0]
  · rw [dif_neg hr, concat_rows_right x0 x1 h r k (Nat.le_of_not_lt hr), h1]

/-- Every row of the concatenation has a positive sum of squares when every row of both arrays has. -/
theorem rows_pos (a0 a1 : Fin 4096 → Fin 256 → ℝ) (p0 : ∀ r, 0 < ∑ k, a0 r k * a0 r k) (p1 : ∀ r, 0 < ∑ k, a1 r k * a1 r k)
    (r : Fin 8192) : 0 < ∑ k, rows a0 a1 r k * rows a0 a1 r k := by
  unfold rows
  by_cases hr : r.val < 4096
  · simp only [dif_pos hr]; exact p0 _
  · simp only [dif_neg hr]; exact p1 _

end Cert.Normalized

end
-- ==== Proof.Normalized.lean ====
/-
  The normalised rows of the reference: under the precondition every entry of the concatenated array divided by its
  row's norm is a real number, and each normalised row has unit length.

  The precondition makes every entry of both arguments a real number and every row's sum of squares positive (NormPre);
  the concatenation keeps both facts row by row (NormCat); for a row z of reals with s = Σ z_k² > 0 the norm is the real
  √s > 0, the quotient z_k / √s is the real quotient, and Σ (z_k/√s)² = s/s = 1 (NormAlg).
-/
import proofs.«134713_j12386685681710_2_alg».proof.Proof.ReadP
import proofs.«134713_j12386685681710_2_alg».proof.Proof.NormPre
import proofs.«134713_j12386685681710_2_alg».proof.Proof.NormCat
import proofs.«134713_j12386685681710_2_alg».proof.Proof.NormAlg

noncomputable section

namespace Cert.Normalized

open Idealize.ShloMosaic Idealize.ShloMosaic.ValueIdx Cert.ReferenceIdeal

/-- The normalised rows are real numbers, and each has unit length. -/
theorem normalized_real (x0 x1 : FVec Ideal Cert.ReferenceIdeal.S4096x256 .f32)
    (hpre : @Cert.Pre_finite_inputs.fn Cert.Pre_finite_inputs.Gen.facts Ideal _ x0 x1 = fun _ => 1#1) :
    ∃ u : Fin 8192 → Fin 256 → ℝ,
      (∀ (r : Fin 8192) (k : Fin 256),
        Cert.ReferenceIdeal.Read.val_main_v3 (F := Ideal) x0 x1 (ValueIdx.ix2 r k) = ((u r k : ℝ) : EReal))
      ∧ ∀ r : Fin 8192, ∑ k : Fin 256, u r k * u r k = 1 := by
  obtain ⟨⟨a0, ha0, hp0⟩, ⟨a1, ha1, hp1⟩⟩ := pre_decode x0 x1 hpre
  have hz : ∀ r k, Read.val_main_v0 (F := Ideal) x0 x1 (ix2 r k) = ((rows a0 a1 r k : ℝ) : EReal) :=
    fun r k => concat_eq_rows x0 x1 a0 a1 ha0 ha1 _ r k
  have hpos := rows_pos a0 a1 hp0 hp1
  refine ⟨fun r k => rows a0 a1 r k / Real.sqrt (∑ j, rows a0 a1 r j * rows a0 a1 r j), fun r k => ?_,
    fun r => sum_sq_normalized _ (hpos r)⟩
  have hidx : ∀ k' : Fin 256,
      Read.idx_main_call0_v1 (Read.idx_main_call0_v2 (Read.idx_main_v2 (ix2 r k))) k' = ix2 r k' :=
    fun k' => funext fun a => match a with | ⟨0, _⟩ => rfl | ⟨1, _⟩ => rfl
  rw [Read.val_main_v3_apply, Read.val_main_v2_apply, Read.val_main_v1_apply, Read.val_main_call0_v2_apply,
    Read.val_main_call0_v1_apply, Read.val_main_call0_cst_apply]
  simp only [Read.val_main_call0_v0_apply, hidx, hz]
  rw [Ideal.hostDivf_def, Ideal.hostUnary_sqrt_def, Ideal.ofBits_def, ofBits_zero]
  simp only [Ideal.mulf_def]
  rw [sqrt_row _ (hpos r), div_sqrt _ _ (hpos r)]

end Cert.Normalized

end
-- ==== Proof.lean ====
/-
  The NT-Xent contrastive loss: a tiled kernel against the plain reference, equal over the extended reals.

  Both programs stack the two [4096, 256] inputs into z : [8192, 256] and divide every row by its Euclidean norm.
  Under the precondition — every entry finite and every row's sum of squares positive — the normalised rows are
  real and each has sum of squares exactly one. The reference forms all pairwise inner products, divides them by the
  temperature 1/2, sets the diagonal to minus infinity, and takes minus the mean over the rows of the log-softmax at
  each row's partner column. The kernel walks the 8192 × 8192 score matrix in 8 × 8 tiles: for each row it
  accumulates, column block by column block, the sum of exp (score − 2), and at the last block stores
  2 + log (sum − 1); the "− 1" removes the row's own column, whose term is exp (2 − 2) = 1 because the row has norm
  one; the host then subtracts twice the inner product with the partner row and takes the mean. Over the reals both
  are the mean over the rows r of  log (∑ over j ≠ r of exp (2⟨u r, u j⟩)) − 2⟨u r, u (partner r)⟩  (Spec.lean):
  the shift of a log-sum-exp by a constant cancels.

  The three frames: the two kernel programs by the region's run over hand-written proof data (the two input windows
  read one array, each holding half of it); the reference by its run, operation by operation.
-/
import proofs.«134713_j12386685681710_2_alg».proof.Defs
import proofs.«134713_j12386685681710_2_alg».proof.Proof.Gen.Kernel
import proofs.«134713_j12386685681710_2_alg».proof.Proof.Gen.KernelIdeal
import proofs.«134713_j12386685681710_2_alg».proof.Proof.Gen.ReferenceIdeal
import proofs.«134713_j12386685681710_2_alg».proof.Proof.Gen.Pre_finite_inputs
import proofs.«134713_j12386685681710_2_alg».proof.Proof.KnRun
import proofs.«134713_j12386685681710_2_alg».proof.Proof.KiResult
import proofs.«134713_j12386685681710_2_alg».proof.Proof.RefRun
import proofs.«134713_j12386685681710_2_alg».proof.Proof.RefValue
import proofs.«134713_j12386685681710_2_alg».proof.Proof.Normalized
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel runs to the end and leaves its arguments unchanged. -/
theorem frame_p : Cert.frame_Kernel := fun m ρ _ => Cert.Kernel.Hand.frame m ρ

/-- So does the kernel read at the extended reals. -/
theorem frame_pi : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.RefRun.run (F := Ideal) m ρ)

/-- Both programs end at the mean row loss of the normalised rows. -/
theorem algebraic : Cert.algebraic_KernelIdeal_ReferenceIdeal := by
  intro m ρ m' ρ' hpre hagree
  have hn := fun c : Dev Cert.KernelIdeal.nD => Cert.Normalized.normalized_real
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (hpre c)
  choose u hu hunit using hn
  refine ⟨fun c => fun _ => ((Cert.Spec.loss (u c) : ℝ) : EReal), Cert.KernelIdeal.Result.result m ρ u hu hunit, ?_⟩
  refine (θ_run Cert.ReferenceIdeal.defs _ _).mono (fun r h c => ⟨?_, (h c).2⟩) (Cert.RefRun.run (F := Ideal) m' ρ')
  rw [(h c).1, (hagree c).1, (hagree c).2]
  exact Cert.RefValue.ref_result _ _ (u c) (hu c)

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
